-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x12 : Shape := ⟨2, ![512, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x7 : Shape := ⟨2, ![4, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x12 : S_.BroadcastsInDim S512x12 (![] : Fin 0 → Fin S512x12.rank)
  reducesTo_S512x12_S_d0_1 : S512x12.ReducesTo [0, 1] S_
  bcast_S_S12 : S_.BroadcastsInDim S12 (![] : Fin 0 → Fin S12.rank)
  reducesTo_S12_S_d0 : S12.ReducesTo [0] S_
  bcast_S_S12x10 : S_.BroadcastsInDim S12x10 (![] : Fin 0 → Fin S12x10.rank)
  reducesTo_S12x10_S_d0_1 : S12x10.ReducesTo [0, 1] S_
  bcast_S_S10 : S_.BroadcastsInDim S10 (![] : Fin 0 → Fin S10.rank)
  reducesTo_S10_S_d0 : S10.ReducesTo [0] S_
  bcast_S_S10x8 : S_.BroadcastsInDim S10x8 (![] : Fin 0 → Fin S10x8.rank)
  reducesTo_S10x8_S_d0_1 : S10x8.ReducesTo [0, 1] S_
  bcast_S_S8 : S_.BroadcastsInDim S8 (![] : Fin 0 → Fin S8.rank)
  reducesTo_S8_S_d0 : S8.ReducesTo [0] S_
  bcast_S_S8x6 : S_.BroadcastsInDim S8x6 (![] : Fin 0 → Fin S8x6.rank)
  reducesTo_S8x6_S_d0_1 : S8x6.ReducesTo [0, 1] S_
  bcast_S_S6 : S_.BroadcastsInDim S6 (![] : Fin 0 → Fin S6.rank)
  reducesTo_S6_S_d0 : S6.ReducesTo [0] S_
  bcast_S_S6x4 : S_.BroadcastsInDim S6x4 (![] : Fin 0 → Fin S6x4.rank)
  reducesTo_S6x4_S_d0_1 : S6x4.ReducesTo [0, 1] S_
  bcast_S_S4 : S_.BroadcastsInDim S4 (![] : Fin 0 → Fin S4.rank)
  reducesTo_S4_S_d0 : S4.ReducesTo [0] S_
  bcast_S_S4x7 : S_.BroadcastsInDim S4x7 (![] : Fin 0 → Fin S4x7.rank)
  reducesTo_S4x7_S_d0_1 : S4x7.ReducesTo [0, 1] S_
  bcast_S_S7 : S_.BroadcastsInDim S7 (![] : Fin 0 → Fin S7.rank)
  reducesTo_S7_S_d0 : S7.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4 .f32) (main_arg12 : FVec F S4x7 .f32) (main_arg13 : FVec F S7 .f32) (main_v48 : IVec S_ 1) (main_v49 : FVec F S6x4 .f32) (main_v50 : FVec F S6x4 .f32) : IVec S_ 1 :=
  let main_v51 : IVec S6x4 1 := cmpf .olt main_v49 main_v50
  let main_c_19 : IVec S_ 1 := constantI S_ 1 1#1
  let main_v52 : IVec S_ 1 := (fun x v => Host.reduce IntOp.andi x v reducesTo_S6x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x7 .f32 := Host.absf main_arg12
  let main_cst_22 : FVec F S_ .f32 := constant S_ .f32 0x7F800000#32
  let main_v60 : FVec F S4x7 .f32 := broadcastInDim S4x7 ![] bcast_S_S4x7 main_cst_22
  let main_v61 : IVec S4x7 1 := cmpf .olt main_v59 main_v60
  let main_c_23 : IVec S_ 1 := constantI S_ 1 1#1
  let main_v62 : IVec S_ 1 := (fun x v => Host.reduce IntOp.andi x v reducesTo_S4x7_S_d0_1 h_S_) main_v61 main_c_23
  let main_v63 : IVec S_ 1 := andi main_v58 main_v62
  let main_v64 : FVec F S7 .f32 := Host.absf main_arg13
  let main_cst_24 : FVec F S_ .f32 := constant S_ .f32 0x7F800000#32
  let main_v65 : FVec F S7 .f32 := broadcastInDim S7 ![] bcast_S_S7 main_cst_24
  let main_v66 : IVec S7 1 := cmpf .olt main_v64 main_v65
  let main_c_25 : IVec S_ 1 := constantI S_ 1 1#1
  let main_v67 : IVec S_ 1 := (fun x v => Host.reduce IntOp.andi x v reducesTo_S7_S_d0 h_S_) main_v66 main_c_25
  fn_part4 (F := F) main_v63 main_v67

def fn_part2 {F : FTy → Type} [FloatOps F] (main_arg7 : FVec F S8 .f32) (main_arg8 : FVec F S8x6 .f32) (main_arg9 : FVec F S6 .f32) (main_arg10 : FVec F S6x4 .f32) (main_arg11 : FVec F S4 .f32) (main_arg12 : FVec F S4x7 .f32) (main_arg13 : FVec F S7 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x6 .f32 := Host.absf main_arg8
  let main_cst_14 : FVec F S_ .f32 := constant S_ .f32 0x7F800000#32
  let main_v40 : FVec F S8x6 .f32 := broadcastInDim S8x6 ![] bcast_S_S8x6 main_cst_14
  let main_v41 : IVec S8x6 1 := cmpf .olt main_v39 main_v40
  let main_c_15 : IVec S_ 1 := constantI S_ 1 1#1
  let main_v42 : IVec S_ 1 := (fun x v => Host.reduce IntOp.andi x v reducesTo_S8x6_S_d0_1 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : FVec F S6x4 .f32 := Host.absf main_arg10
  let main_cst_18 : FVec F S_ .f32 := constant S_ .f32 0x7F800000#32
  let main_v50 : FVec F S6x4 .f32 := broadcastInDim S6x4 ![] bcast_S_S6x4 main_cst_18
  fn_part3 (F := F) main_arg11 main_arg12 main_arg13 main_v48 main_v49 main_v50

def fn_part1 {F : FTy → Type} [FloatOps F] (main_arg4 : FVec F S12x10 .f32) (main_arg5 : FVec F S10 .f32) (main_arg6 : FVec F S10x8 .f32) (main_arg7 : FVec F S8 .f32) (main_arg8 : FVec F S8x6 .f32) (main_arg9 : FVec F S6 .f32) (main_arg10 : FVec F S6x4 .f32) (main_arg11 : FVec F S4 .f32) (main_arg12 : FVec F S4x7 .f32) (main_arg13 : FVec F S7 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12x10 .f32 := Host.absf main_arg4
  let main_cst_6 : FVec F S_ .f32 := constant S_ .f32 0x7F800000#32
  let main_v20 : FVec F S12x10 .f32 := broadcastInDim S12x10 ![] bcast_S_S12x10 main_cst_6
  let main_v21 : IVec S12x10 1 := cmpf .olt main_v19 main_v20
  let main_c_7 : IVec S_ 1 := constantI S_ 1 1#1
  let main_v22 : IVec S_ 1 := (fun x v => Host.reduce IntOp.andi x v reducesTo_S12x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x8 .f32 := Host.absf main_arg6
  let main_cst_10 : FVec F S_ .f32 := constant S_ .f32 0x7F800000#32
  let main_v30 : FVec F S10x8 .f32 := broadcastInDim S10x8 ![] bcast_S_S10x8 main_cst_10
  let main_v31 : IVec S10x8 1 := cmpf .olt main_v29 main_v30
  let main_c_11 : IVec S_ 1 := constantI S_ 1 1#1
  let main_v32 : IVec S_ 1 := (fun x v => Host.reduce IntOp.andi x v reducesTo_S10x8_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x512 .f32) (main_arg1 : FVec F S3200000 .f32) (main_arg2 : FVec F S512x12 .f32) (main_arg3 : FVec F S12 .f32) (main_arg4 : FVec F S12x10 .f32) (main_arg5 : FVec F S10 .f32) (main_arg6 : FVec F S10x8 .f32) (main_arg7 : FVec F S8 .f32) (main_arg8 : FVec F S8x6 .f32) (main_arg9 : FVec F S6 .f32) (main_arg10 : FVec F S6x4 .f32) (main_arg11 : FVec F S4 .f32) (main_arg12 : FVec F S4x7 .f32) (main_arg13 : FVec F S7 .f32) (main_arg14 : IVec S3200000 32) (main_arg15 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x12 .f32 := Host.absf main_arg2
  let main_cst_2 : FVec F S_ .f32 := constant S_ .f32 0x7F800000#32
  let main_v10 : FVec F S512x12 .f32 := broadcastInDim S512x12 ![] bcast_S_S512x12 main_cst_2
  let main_v11 : IVec S512x12 1 := cmpf .olt main_v9 main_v10
  let main_c_3 : IVec S_ 1 := constantI S_ 1 1#1
  let main_v12 : IVec S_ 1 := (fun x v => Host.reduce IntOp.andi x v reducesTo_S512x12_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x512 : Shape := ⟨2, ![100000, 512]⟩
abbrev S3200000 : Shape := ⟨1, ![3200000]⟩
abbrev S512x12 : Shape := ⟨2, ![512, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x7 : Shape := ⟨2, ![4, 7]⟩
abbrev S7 : Shape := ⟨1, ![7]⟩
abbrev S100000x12 : Shape := ⟨2, ![100000, 12]⟩
abbrev S5000x512 : Shape := ⟨2, ![5000, 512]⟩
abbrev S5000x12 : Shape := ⟨2, ![5000, 12]⟩
abbrev S3200000x1 : Shape := ⟨2, ![3200000, 1]⟩
abbrev S_ : Shape := ⟨0, ![]⟩
abbrev S3200000x12 : Shape := ⟨2, ![3200000, 12]⟩
abbrev S1x12 : Shape := ⟨2, ![1, 12]⟩
abbrev S100000x10 : Shape := ⟨2, ![100000, 10]⟩
abbrev S5000x10 : Shape := ⟨2, ![5000, 10]⟩
abbrev S3200000x10 : Shape := ⟨2, ![3200000, 10]⟩
abbrev S1x10 : Shape := ⟨2, ![1, 10]⟩
abbrev S100000x8 : Shape := ⟨2, ![100000, 8]⟩
abbrev S5000x8 : Shape := ⟨2, ![5000, 8]⟩
abbrev S3200000x8 : Shape := ⟨2, ![3200000, 8]⟩
abbrev S1x8 : Shape := ⟨2, ![1, 8]⟩
abbrev S100000x6 : Shape := ⟨2, ![100000, 6]⟩
abbrev S5000x6 : Shape := ⟨2, ![5000, 6]⟩
abbrev S3200000x6 : Shape := ⟨2, ![3200000, 6]⟩
abbrev S1x6 : Shape := ⟨2, ![1, 6]⟩
abbrev S100000x4 : Shape := ⟨2, ![100000, 4]⟩
abbrev S5000x4 : Shape := ⟨2, ![5000, 4]⟩
abbrev S3200000x4 : Shape := ⟨2, ![3200000, 4]⟩
abbrev S1x4 : Shape := ⟨2, ![1, 4]⟩
abbrev S100000x7 : Shape := ⟨2, ![100000, 7]⟩
abbrev S5000x7 : Shape := ⟨2, ![5000, 7]⟩
abbrev S3200000x7 : Shape := ⟨2, ![3200000, 7]⟩
abbrev S1x7 : Shape := ⟨2, ![1, 7]⟩

abbrev nBuf : Space → Nat
  | .hbm => 130
  | .vmem => 60
  | .smem => 0
  | _ => 0

abbrev hbmTy0_0 (i : Nat) : BufTy := match i % 128 with
  | 0 => ⟨S100000x512, .f32⟩
  | 1 => ⟨S3200000, .f32⟩
  | 2 => ⟨S512x12, .f32⟩
  | 3 => ⟨S12, .f32⟩
  | 4 => ⟨S12x10, .f32⟩
  | 5 => ⟨S10, .f32⟩
  | 6 => ⟨S10x8, .f32⟩
  | 7 => ⟨S8, .f32⟩
  | 8 => ⟨S8x6, .f32⟩
  | 9 => ⟨S6, .f32⟩
  | 10 => ⟨S6x4, .f32⟩
  | 11 => ⟨S4, .f32⟩
  | 12 => ⟨S4x7, .f32⟩
  | 13 => ⟨S7, .f32⟩
  | 14 => ⟨S3200000, .i32⟩
  | 15 => ⟨S3200000, .i32⟩
  | 16 => ⟨S100000x12, .f32⟩
  | 17 => ⟨S3200000x1, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x12, .f32⟩
  | 27 => ⟨S3200000x12, .f32⟩
  | 28 => ⟨S3200000x12, .f32⟩
  | 29 => ⟨S_, .f32⟩
  | 30 => ⟨S100000x12, .f32⟩
  | 31 => ⟨S3200000x1, .i32⟩
  | 32 => ⟨S100000x12, .f32⟩
  | 33 => ⟨S1x12, .f32⟩
  | 34 => ⟨S100000x12, .f32⟩
  | 35 => ⟨S100000x10, .f32⟩
  | 36 => ⟨S3200000x1, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x10, .f32⟩
  | 46 => ⟨S3200000x10, .f32⟩
  | 47 => ⟨S3200000x10, .f32⟩
  | 48 => ⟨S_, .f32⟩
  | 49 => ⟨S100000x10, .f32⟩
  | 50 => ⟨S3200000x1, .i32⟩
  | 51 => ⟨S100000x10, .f32⟩
  | 52 => ⟨S1x10, .f32⟩
  | 53 => ⟨S100000x10, .f32⟩
  | 54 => ⟨S100000x8, .f32⟩
  | 55 => ⟨S3200000x1, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x8, .f32⟩
  | 65 => ⟨S3200000x8, .f32⟩
  | 66 => ⟨S3200000x8, .f32⟩
  | 67 => ⟨S_, .f32⟩
  | 68 => ⟨S100000x8, .f32⟩
  | 69 => ⟨S3200000x1, .i32⟩
  | 70 => ⟨S100000x8, .f32⟩
  | 71 => ⟨S1x8, .f32⟩
  | 72 => ⟨S100000x8, .f32⟩
  | 73 => ⟨S100000x6, .f32⟩
  | 74 => ⟨S3200000x1, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x6, .f32⟩
  | 84 => ⟨S3200000x6, .f32⟩
  | 85 => ⟨S3200000x6, .f32⟩
  | 86 => ⟨S_, .f32⟩
  | 87 => ⟨S100000x6, .f32⟩
  | 88 => ⟨S3200000x1, .i32⟩
  | 89 => ⟨S100000x6, .f32⟩
  | 90 => ⟨S1x6, .f32⟩
  | 91 => ⟨S100000x6, .f32⟩
  | 92 => ⟨S100000x4, .f32⟩
  | 93 => ⟨S3200000x1, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x4, .f32⟩
  | 103 => ⟨S3200000x4, .f32⟩
  | 104 => ⟨S3200000x4, .f32⟩
  | 105 => ⟨S_, .f32⟩
  | 106 => ⟨S100000x4, .f32⟩
  | 107 => ⟨S3200000x1, .i32⟩
  | 108 => ⟨S100000x4, .f32⟩
  | 109 => ⟨S1x4, .f32⟩
  | 110 => ⟨S100000x4, .f32⟩
  | 111 => ⟨S100000x7, .f32⟩
  | 112 => ⟨S3200000x1, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x7, .f32⟩
  | 122 => ⟨S3200000x7, .f32⟩
  | 123 => ⟨S3200000x7, .f32⟩
  | 124 => ⟨S_, .f32⟩
  | 125 => ⟨S100000x7, .f32⟩
  | 126 => ⟨S3200000x1, .i32⟩
  | 127 => ⟨S100000x7, .f32⟩
  | _ => ⟨S100000x512, .f32⟩

abbrev hbmTy0_1 (i : Nat) : BufTy := match i % 128 with
  | 0 => ⟨S1x7, .f32⟩
  | 1 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x12, .f32⟩
  | .local _ .vmem, ⟨3, _⟩ => ⟨S5000x12, .f32⟩
  | .local _ .vmem, ⟨4, _⟩ => ⟨S5000x12, .f32⟩
  | .local _ .vmem, ⟨5, _⟩ => ⟨S5000x12, .f32⟩
  | .local _ .vmem, ⟨6, _⟩ => ⟨S5000x12, .f32⟩
  | .local _ .vmem, ⟨7, _⟩ => ⟨S1x12, .f32⟩
  | .local _ .vmem, ⟨8, _⟩ => ⟨S5000x12, .f32⟩
  | .local _ .vmem, ⟨9, _⟩ => ⟨S5000x12, .f32⟩
  | .local _ .vmem, ⟨10, _⟩ => ⟨S5000x12, .f32⟩
  | .local _ .vmem, ⟨11, _⟩ => ⟨S5000x12, .f32⟩
  | .local _ .vmem, ⟨12, _⟩ => ⟨S12x10, .f32⟩
  | .local _ .vmem, ⟨13, _⟩ => ⟨S5000x10, .f32⟩
  | .local _ .vmem, ⟨14, _⟩ => ⟨S5000x10, .f32⟩
  | .local _ .vmem, ⟨15, _⟩ => ⟨S5000x10, .f32⟩
  | .local _ .vmem, ⟨16, _⟩ => ⟨S5000x10, .f32⟩
  | .local _ .vmem, ⟨17, _⟩ => ⟨S1x10, .f32⟩
  | .local _ .vmem, ⟨18, _⟩ => ⟨S5000x10, .f32⟩
  | .local _ .vmem, ⟨19, _⟩ => ⟨S5000x10, .f32⟩
  | .local _ .vmem, ⟨20, _⟩ => ⟨S5000x10, .f32⟩
  | .local _ .vmem, ⟨21, _⟩ => ⟨S5000x10, .f32⟩
  | .local _ .vmem, ⟨22, _⟩ => ⟨S10x8, .f32⟩
  | .local _ .vmem, ⟨23, _⟩ => ⟨S5000x8, .f32⟩
  | .local _ .vmem, ⟨24, _⟩ => ⟨S5000x8, .f32⟩
  | .local _ .vmem, ⟨25, _⟩ => ⟨S5000x8, .f32⟩
  | .local _ .vmem, ⟨26, _⟩ => ⟨S5000x8, .f32⟩
  | .local _ .vmem, ⟨27, _⟩ => ⟨S1x8, .f32⟩
  | .local _ .vmem, ⟨28, _⟩ => ⟨S5000x8, .f32⟩
  | .local _ .vmem, ⟨29, _⟩ => ⟨S5000x8, .f32⟩
  | .local _ .vmem, ⟨30, _⟩ => ⟨S5000x8, .f32⟩
  | .local _ .vmem, ⟨31, _⟩ => ⟨S5000x8, .f32⟩
  | .local _ .vmem, ⟨32, _⟩ => ⟨S8x6, .f32⟩
  | .local _ .vmem, ⟨33, _⟩ => ⟨S5000x6, .f32⟩
  | .local _ .vmem, ⟨34, _⟩ => ⟨S5000x6, .f32⟩
  | .local _ .vmem, ⟨35, _⟩ => ⟨S5000x6, .f32⟩
  | .local _ .vmem, ⟨36, _⟩ => ⟨S5000x6, .f32⟩
  | .local _ .vmem, ⟨37, _⟩ => ⟨S1x6, .f32⟩
  | .local _ .vmem, ⟨38, _⟩ => ⟨S5000x6, .f32⟩
  | .local _ .vmem, ⟨39, _⟩ => ⟨S5000x6, .f32⟩
  | .local _ .vmem, ⟨40, _⟩ => ⟨S5000x6, .f32⟩
  | .local _ .vmem, ⟨41, _⟩ => ⟨S5000x6, .f32⟩
  | .local _ .vmem, ⟨42, _⟩ => ⟨S6x4, .f32⟩
  | .local _ .vmem, ⟨43, _⟩ => ⟨S5000x4, .f32⟩
  | .local _ .vmem, ⟨44, _⟩ => ⟨S5000x4, .f32⟩
  | .local _ .vmem, ⟨45, _⟩ => ⟨S5000x4, .f32⟩
  | .local _ .vmem, ⟨46, _⟩ => ⟨S5000x4, .f32⟩
  | .local _ .vmem, ⟨47, _⟩ => ⟨S1x4, .f32⟩
  | .local _ .vmem, ⟨48, _⟩ => ⟨S5000x4, .f32⟩
  | .local _ .vmem, ⟨49, _⟩ => ⟨S5000x4, .f32⟩
  | .local _ .vmem, ⟨50, _⟩ => ⟨S5000x4, .f32⟩
  | .local _ .vmem, ⟨51, _⟩ => ⟨S5000x4, .f32⟩
  | .local _ .vmem, ⟨52, _⟩ => ⟨S4x7, .f32⟩
  | .local _ .vmem, ⟨53, _⟩ => ⟨S5000x7, .f32⟩
  | .local _ .vmem, ⟨54, _⟩ => ⟨S5000x7, .f32⟩
  | .local _ .vmem, ⟨55, _⟩ => ⟨S5000x7, .f32⟩
  | .local _ .vmem, ⟨56, _⟩ => ⟨S5000x7, .f32⟩
  | .local _ .vmem, ⟨57, _⟩ => ⟨S1x7, .f32⟩
  | .local _ .vmem, ⟨58, _⟩ => ⟨S5000x7, .f32⟩
  | .local _ .vmem, ⟨59, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_v50 : Ref sig .tc := ⟨.hbm, 76, rfl⟩
abbrev main_v51 : Ref sig .tc := ⟨.hbm, 77, rfl⟩
abbrev main_c_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_c_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_13 : Ref sig .tc := ⟨.hbm, 113, rfl⟩
abbrev main_v82 : Ref sig .tc := ⟨.hbm, 114, rfl⟩
abbrev main_v83 : Ref sig .tc := ⟨.hbm, 115, rfl⟩
abbrev main_c_14 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x12 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x6 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x6 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x6 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x6 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x6 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S6x4 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x4 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x4 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x4 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x4 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x4 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S4x7 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x7 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x7 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x7 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x7 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  inb_S5000x512_S5000x512_0_0 : ∀ a, (![0, 0] : Fin 2 → Nat) a + S5000x512.size a ≤ S5000x512.size a
  h_S5000x512 : 0 < S5000x512.numel
  inb_S512x12_S512x12_0_0 : ∀ a, (![0, 0] : Fin 2 → Nat) a + S512x12.size a ≤ S512x12.size a
  h_S512x12 : 0 < S512x12.numel
  inb_S5000x12_S5000x12_0_0 : ∀ a, (![0, 0] : Fin 2 → Nat) a + S5000x12.size a ≤ S5000x12.size a
  h_S5000x12 : 0 < S5000x12.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x12_0_1 : S3200000x1.BroadcastsInDim S3200000x12 (![0, 1] : Fin 2 → Fin S3200000x12.rank)
  bcast_S_S100000x12 : S_.BroadcastsInDim S100000x12 (![] : Fin 0 → Fin S100000x12.rank)
  shapeCasts_S12_S1x12 : S12.ShapeCasts S1x12
  shapeCasts_S5000x12_S5000x12 : S5000x12.ShapeCasts S5000x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S5000x12 : S1x12.Broadcasts S5000x12
  inb_S12x10_S12x10_0_0 : ∀ a, (![0, 0] : Fin 2 → Nat) a + S12x10.size a ≤ S12x10.size a
  h_S12x10 : 0 < S12x10.numel
  inb_S5000x10_S5000x10_0_0 : ∀ a, (![0, 0] : Fin 2 → Nat) a + S5000x10.size a ≤ S5000x10.size a
  h_S5000x10 : 0 < S5000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S10x8_S10x8_0_0 : ∀ a, (![0, 0] : Fin 2 → Nat) a + S10x8.size a ≤ S10x8.size a
  h_S10x8 : 0 < S10x8.numel
  inb_S5000x8_S5000x8_0_0 : ∀ a, (![0, 0] : Fin 2 → Nat) a + S5000x8.size a ≤ S5000x8.size a
  h_S5000x8 : 0 < S5000x8.numel
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x6_S8x6_0_0 : ∀ a, (![0, 0] : Fin 2 → Nat) a + S8x6.size a ≤ S8x6.size a
  h_S8x6 : 0 < S8x6.numel
  inb_S5000x6_S5000x6_0_0 : ∀ a, (![0, 0] : Fin 2 → Nat) a + S5000x6.size a ≤ S5000x6.size a
  h_S5000x6 : 0 < S5000x6.numel
  bcast_S3200000x1_S3200000x6_0_1 : S3200000x1.BroadcastsInDim S3200000x6 (![0, 1] : Fin 2 → Fin S3200000x6.rank)
  bcast_S_S100000x6 : S_.BroadcastsInDim S100000x6 (![] : Fin 0 → Fin S100000x6.rank)
  shapeCasts_S6_S1x6 : S6.ShapeCasts S1x6
  shapeCasts_S5000x6_S5000x6 : S5000x6.ShapeCasts S5000x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  inb_S6x4_S6x4_0_0 : ∀ a, (![0, 0] : Fin 2 → Nat) a + S6x4.size a ≤ S6x4.size a
  h_S6x4 : 0 < S6x4.numel
  inb_S5000x4_S5000x4_0_0 : ∀ a, (![0, 0] : Fin 2 → Nat) a + S5000x4.size a ≤ S5000x4.size a
  h_S5000x4 : 0 < S5000x4.numel
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  shapeCasts_S4_S1x4 : S4.ShapeCasts S1x4
  shapeCasts_S5000x4_S5000x4 : S5000x4.ShapeCasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S4x7_S4x7_0_0 : ∀ a, (![0, 0] : Fin 2 → Nat) a + S4x7.size a ≤ S4x7.size a
  h_S4x7 : 0 < S4x7.numel
  inb_S5000x7_S5000x7_0_0 : ∀ a, (![0, 0] : Fin 2 → Nat) a + S5000x7.size a ≤ S5000x7.size a
  h_S5000x7 : 0 < S5000x7.numel
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  dot_S5000x512_S512x12_S5000x12_1_0_0_1_n_n_wf : DotDims.WF S5000x512 S512x12 S5000x12 [1] [0] [0] [1] [] []
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S5000x12_S12x10_S5000x10_1_0_0_1_n_n_wf : DotDims.WF S5000x12 S12x10 S5000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S5000x10_S10x8_S5000x8_1_0_0_1_n_n_wf : DotDims.WF S5000x10 S10x8 S5000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S5000x8_S8x6_S5000x6_1_0_0_1_n_n_wf : DotDims.WF S5000x8 S8x6 S5000x6 [1] [0] [0] [1] [] []
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S5000x6_S6x4_S5000x4_1_0_0_1_n_n_wf : DotDims.WF S5000x6 S6x4 S5000x4 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S5000x4_S4x7_S5000x7_1_0_0_1_n_n_wf : DotDims.WF S5000x4 S4x7 S5000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x12.size a ≤ S512x12.size a
  hwx0_1 : ∀ i : grid0.Coords, EltTy.bits .f32 = 32 ∨ (Rect.block (s := S512x12) S512x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x12.size a ≤ S100000x12.size a
  hwx0_2 : ∀ i : grid0.Coords, EltTy.bits .f32 = 32 ∨ (Rect.block (s := S100000x12) S5000x12.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x12.size a ≤ S100000x12.size a
  hwx1_0 : ∀ i : grid1.Coords, EltTy.bits .f32 = 32 ∨ (Rect.block (s := S100000x12) S5000x12.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x12.size a ≤ S1x12.size a
  hwx1_1 : ∀ i : grid1.Coords, EltTy.bits .f32 = 32 ∨ (Rect.block (s := S1x12) S1x12.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x12.size a ≤ S100000x12.size a
  hwx1_2 : ∀ i : grid1.Coords, EltTy.bits .f32 = 32 ∨ (Rect.block (s := S100000x12) S5000x12.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x12.size a ≤ S100000x12.size a
  hwx2_0 : ∀ i : grid2.Coords, EltTy.bits .f32 = 32 ∨ (Rect.block (s := S100000x12) S5000x12.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12x10.size a ≤ S12x10.size a
  hwx2_1 : ∀ i : grid2.Coords, EltTy.bits .f32 = 32 ∨ (Rect.block (s := S12x10) S12x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S100000x10.size a
  hwx3_0 : ∀ i : grid3.Coords, EltTy.bits .f32 = 32 ∨ (Rect.block (s := S100000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x10.size a ≤ S100000x10.size a
  hwx3_2 : ∀ i : grid3.Coords, EltTy.bits .f32 = 32 ∨ (Rect.block (s := S100000x10) S5000x10.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x10.size a ≤ S100000x10.size a
  hwx4_0 : ∀ i : grid4.Coords, EltTy.bits .f32 = 32 ∨ (Rect.block (s := S100000x10) S5000x10.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x8.size a ≤ S10x8.size a
  hwx4_1 : ∀ i : grid4.Coords, EltTy.bits .f32 = 32 ∨ (Rect.block (s := S10x8) S10x8.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x8.size a ≤ S100000x8.size a
  hwx4_2 : ∀ i : grid4.Coords, EltTy.bits .f32 = 32 ∨ (Rect.block (s := S100000x8) S5000x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x8.size a ≤ S100000x8.size a
  hwx5_0 : ∀ i : grid5.Coords, EltTy.bits .f32 = 32 ∨ (Rect.block (s := S100000x8) S5000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x8.size a ≤ S100000x8.size a
  hwx5_2 : ∀ i : grid5.Coords, EltTy.bits .f32 = 32 ∨ (Rect.block (s := S100000x8) S5000x8.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x8.size a ≤ S100000x8.size a
  hwx6_0 : ∀ i : grid6.Coords, EltTy.bits .f32 = 32 ∨ (Rect.block (s := S100000x8) S5000x8.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x6.size a ≤ S8x6.size a
  hwx6_1 : ∀ i : grid6.Coords, EltTy.bits .f32 = 32 ∨ (Rect.block (s := S8x6) S8x6.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x6.size a ≤ S100000x6.size a
  hwx6_2 : ∀ i : grid6.Coords, EltTy.bits .f32 = 32 ∨ (Rect.block (s := S100000x6) S5000x6.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x6.size a ≤ S100000x6.size a
  hwx7_0 : ∀ i : grid7.Coords, EltTy.bits .f32 = 32 ∨ (Rect.block (s := S100000x6) S5000x6.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x6.size a ≤ S1x6.size a
  hwx7_1 : ∀ i : grid7.Coords, EltTy.bits .f32 = 32 ∨ (Rect.block (s := S1x6) S1x6.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x6.size a ≤ S100000x6.size a
  hwx7_2 : ∀ i : grid7.Coords, EltTy.bits .f32 = 32 ∨ (Rect.block (s := S100000x6) S5000x6.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x6.size a ≤ S100000x6.size a
  hwx8_0 : ∀ i : grid8.Coords, EltTy.bits .f32 = 32 ∨ (Rect.block (s := S100000x6) S5000x6.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S6x4.size a ≤ S6x4.size a
  hwx8_1 : ∀ i : grid8.Coords, EltTy.bits .f32 = 32 ∨ (Rect.block (s := S6x4) S6x4.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x4.size a ≤ S100000x4.size a
  hwx8_2 : ∀ i : grid8.Coords, EltTy.bits .f32 = 32 ∨ (Rect.block (s := S100000x4) S5000x4.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x4.size a ≤ S100000x4.size a
  hwx9_0 : ∀ i : grid9.Coords, EltTy.bits .f32 = 32 ∨ (Rect.block (s := S100000x4) S5000x4.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x4.size a ≤ S1x4.size a
  hwx9_1 : ∀ i : grid9.Coords, EltTy.bits .f32 = 32 ∨ (Rect.block (s := S1x4) S1x4.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x4.size a ≤ S100000x4.size a
  hwx9_2 : ∀ i : grid9.Coords, EltTy.bits .f32 = 32 ∨ (Rect.block (s := S100000x4) S5000x4.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x4.size a ≤ S100000x4.size a
  hwx10_0 : ∀ i : grid10.Coords, EltTy.bits .f32 = 32 ∨ (Rect.block (s := S100000x4) S5000x4.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S4x7.size a ≤ S4x7.size a
  hwx10_1 : ∀ i : grid10.Coords, EltTy.bits .f32 = 32 ∨ (Rect.block (s := S4x7) S4x7.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x7.size a ≤ S100000x7.size a
  hwx10_2 : ∀ i : grid10.Coords, EltTy.bits .f32 = 32 ∨ (Rect.block (s := S100000x7) S5000x7.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x7.size a ≤ S100000x7.size a
  hwx11_0 : ∀ i : grid11.Coords, EltTy.bits .f32 = 32 ∨ (Rect.block (s := S100000x7) S5000x7.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x7.size a ≤ S1x7.size a
  hwx11_1 : ∀ i : grid11.Coords, EltTy.bits .f32 = 32 ∨ (Rect.block (s := S1x7) S1x7.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x7.size a ≤ S100000x7.size a
  hwx11_2 : ∀ i : grid11.Coords, EltTy.bits .f32 = 32 ∨ (Rect.block (s := S100000x7) S5000x7.size (cc11_transform_2 i) (hinb11_2 i)).WholeWords (EltTy.packing .f32)

variable [Facts₀]

def dot_S5000x512_S512x12_S5000x12_1_0_0_1_n_n : DotDims S5000x512 S512x12 S5000x12 where
  lhsContracting := [1]
  rhsContracting := [0]
  lhsNonContracting := [0]
  rhsNonContracting := [1]
  lhsBatch := []
  rhsBatch := []
  wf := dot_S5000x512_S512x12_S5000x12_1_0_0_1_n_n_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S5000x12_S12x10_S5000x10_1_0_0_1_n_n : DotDims S5000x12 S12x10 S5000x10 where
  lhsContracting := [1]
  rhsContracting := [0]
  lhsNonContracting := [0]
  rhsNonContracting := [1]
  lhsBatch := []
  rhsBatch := []
  wf := dot_S5000x12_S12x10_S5000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S5000x10_S10x8_S5000x8_1_0_0_1_n_n : DotDims S5000x10 S10x8 S5000x8 where
  lhsContracting := [1]
  rhsContracting := [0]
  lhsNonContracting := [0]
  rhsNonContracting := [1]
  lhsBatch := []
  rhsBatch := []
  wf := dot_S5000x10_S10x8_S5000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S5000x8_S8x6_S5000x6_1_0_0_1_n_n : DotDims S5000x8 S8x6 S5000x6 where
  lhsContracting := [1]
  rhsContracting := [0]
  lhsNonContracting := [0]
  rhsNonContracting := [1]
  lhsBatch := []
  rhsBatch := []
  wf := dot_S5000x8_S8x6_S5000x6_1_0_0_1_n_n_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S5000x6_S6x4_S5000x4_1_0_0_1_n_n : DotDims S5000x6 S6x4 S5000x4 where
  lhsContracting := [1]
  rhsContracting := [0]
  lhsNonContracting := [0]
  rhsNonContracting := [1]
  lhsBatch := []
  rhsBatch := []
  wf := dot_S5000x6_S6x4_S5000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S5000x4_S4x7_S5000x7_1_0_0_1_n_n : DotDims S5000x4 S4x7 S5000x7 where
  lhsContracting := [1]
  rhsContracting := [0]
  lhsNonContracting := [0]
  rhsNonContracting := [1]
  lhsBatch := []
  rhsBatch := []
  wf := dot_S5000x4_S4x7_S5000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x12.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x12.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x12.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x12.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S12x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S10x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S5000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S5000x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S8x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S5000x6.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S5000x6.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S1x6.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S5000x6.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v63) S5000x6.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S6x4.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v64) S5000x4.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v77) S5000x4.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v78) S1x4.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v79) S5000x4.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v79) S5000x4.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S4x7.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v80) S5000x7.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v93) S5000x7.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v94) S1x7.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v95) S5000x7.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x12 : Shape := ⟨2, ![512, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x7 : Shape := ⟨2, ![4, 7]⟩
abbrev S7 : Shape := ⟨1, ![7]⟩
abbrev S100000x12 : Shape := ⟨2, ![100000, 12]⟩
abbrev S3200000x1 : Shape := ⟨2, ![3200000, 1]⟩
abbrev S_ : Shape := ⟨0, ![]⟩
abbrev S3200000x12 : Shape := ⟨2, ![3200000, 12]⟩
abbrev S1x12 : Shape := ⟨2, ![1, 12]⟩
abbrev S100000x10 : Shape := ⟨2, ![100000, 10]⟩
abbrev S3200000x10 : Shape := ⟨2, ![3200000, 10]⟩
abbrev S1x10 : Shape := ⟨2, ![1, 10]⟩
abbrev S100000x8 : Shape := ⟨2, ![100000, 8]⟩
abbrev S3200000x8 : Shape := ⟨2, ![3200000, 8]⟩
abbrev S1x8 : Shape := ⟨2, ![1, 8]⟩
abbrev S100000x6 : Shape := ⟨2, ![100000, 6]⟩
abbrev S3200000x6 : Shape := ⟨2, ![3200000, 6]⟩
abbrev S1x6 : Shape := ⟨2, ![1, 6]⟩
abbrev S100000x4 : Shape := ⟨2, ![100000, 4]⟩
abbrev S3200000x4 : Shape := ⟨2, ![3200000, 4]⟩
abbrev S1x4 : Shape := ⟨2, ![1, 4]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 143
  | .vmem => 0
  | .smem => 0
  | _ => 0

abbrev hbmTy0_0 (i : Nat) : BufTy := match i % 128 with
  | 0 => ⟨S100000x512, .f32⟩
  | 1 => ⟨S3200000, .f32⟩
  | 2 => ⟨S512x12, .f32⟩
  | 3 => ⟨S12, .f32⟩
  | 4 => ⟨S12x10, .f32⟩
  | 5 => ⟨S10, .f32⟩
  | 6 => ⟨S10x8, .f32⟩
  | 7 => ⟨S8, .f32⟩
  | 8 => ⟨S8x6, .f32⟩
  | 9 => ⟨S6, .f32⟩
  | 10 => ⟨S6x4, .f32⟩
  | 11 => ⟨S4, .f32⟩
  | 12 => ⟨S4x7, .f32⟩
  | 13 => ⟨S7, .f32⟩
  | 14 => ⟨S3200000, .i32⟩
  | 15 => ⟨S3200000, .i32⟩
  | 16 => ⟨S100000x12, .f32⟩
  | 17 => ⟨S3200000x1, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x12, .f32⟩
  | 27 => ⟨S3200000x12, .f32⟩
  | 28 => ⟨S3200000x12, .f32⟩
  | 29 => ⟨S_, .f32⟩
  | 30 => ⟨S100000x12, .f32⟩
  | 31 => ⟨S3200000x1, .i32⟩
  | 32 => ⟨S100000x12, .f32⟩
  | 33 => ⟨S1x12, .f32⟩
  | 34 => ⟨S100000x12, .f32⟩
  | 35 => ⟨S100000x12, .f32⟩
  | 36 => ⟨S100000x10, .f32⟩
  | 37 => ⟨S3200000x1, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x10, .f32⟩
  | 47 => ⟨S3200000x10, .f32⟩
  | 48 => ⟨S3200000x10, .f32⟩
  | 49 => ⟨S_, .f32⟩
  | 50 => ⟨S100000x10, .f32⟩
  | 51 => ⟨S3200000x1, .i32⟩
  | 52 => ⟨S100000x10, .f32⟩
  | 53 => ⟨S1x10, .f32⟩
  | 54 => ⟨S100000x10, .f32⟩
  | 55 => ⟨S100000x10, .f32⟩
  | 56 => ⟨S_, .f32⟩
  | 57 => ⟨S100000x10, .f32⟩
  | 58 => ⟨S100000x10, .f32⟩
  | 59 => ⟨S100000x8, .f32⟩
  | 60 => ⟨S3200000x1, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x8, .f32⟩
  | 70 => ⟨S3200000x8, .f32⟩
  | 71 => ⟨S3200000x8, .f32⟩
  | 72 => ⟨S_, .f32⟩
  | 73 => ⟨S100000x8, .f32⟩
  | 74 => ⟨S3200000x1, .i32⟩
  | 75 => ⟨S100000x8, .f32⟩
  | 76 => ⟨S1x8, .f32⟩
  | 77 => ⟨S100000x8, .f32⟩
  | 78 => ⟨S100000x8, .f32⟩
  | 79 => ⟨S100000x8, .f32⟩
  | 80 => ⟨S100000x8, .f32⟩
  | 81 => ⟨S100000x6, .f32⟩
  | 82 => ⟨S3200000x1, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x6, .f32⟩
  | 92 => ⟨S3200000x6, .f32⟩
  | 93 => ⟨S3200000x6, .f32⟩
  | 94 => ⟨S_, .f32⟩
  | 95 => ⟨S100000x6, .f32⟩
  | 96 => ⟨S3200000x1, .i32⟩
  | 97 => ⟨S100000x6, .f32⟩
  | 98 => ⟨S1x6, .f32⟩
  | 99 => ⟨S100000x6, .f32⟩
  | 100 => ⟨S100000x6, .f32⟩
  | 101 => ⟨S100000x6, .f32⟩
  | 102 => ⟨S100000x6, .f32⟩
  | 103 => ⟨S100000x4, .f32⟩
  | 104 => ⟨S3200000x1, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x4, .f32⟩
  | 114 => ⟨S3200000x4, .f32⟩
  | 115 => ⟨S3200000x4, .f32⟩
  | 116 => ⟨S_, .f32⟩
  | 117 => ⟨S100000x4, .f32⟩
  | 118 => ⟨S3200000x1, .i32⟩
  | 119 => ⟨S100000x4, .f32⟩
  | 120 => ⟨S1x4, .f32⟩
  | 121 => ⟨S100000x4, .f32⟩
  | 122 => ⟨S100000x4, .f32⟩
  | 123 => ⟨S100000x7, .f32⟩
  | 124 => ⟨S3200000x1, .f32⟩
  | 125 => ⟨S_, .i32⟩
  | 126 => ⟨S3200000, .i32⟩
  | 127 => ⟨S3200000, .i1⟩
  | _ => ⟨S100000x512, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x7, .f32⟩
  | 6 => ⟨S3200000x7, .f32⟩
  | 7 => ⟨S3200000x7, .f32⟩
  | 8 => ⟨S_, .f32⟩
  | 9 => ⟨S100000x7, .f32⟩
  | 10 => ⟨S3200000x1, .i32⟩
  | 11 => ⟨S100000x7, .f32⟩
  | 12 => ⟨S1x7, .f32⟩
  | 13 => ⟨S100000x7, .f32⟩
  | 14 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call0_cst : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_10 : Ref sig .tc := ⟨.hbm, 105, rfl⟩
abbrev main_v75 : Ref sig .tc := ⟨.hbm, 106, rfl⟩
abbrev main_v76 : Ref sig .tc := ⟨.hbm, 107, rfl⟩
abbrev main_c_11 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_13 : Ref sig .tc := ⟨.hbm, 125, rfl⟩
abbrev main_v92 : Ref sig .tc := ⟨.hbm, 126, rfl⟩
abbrev main_v93 : Ref sig .tc := ⟨.hbm, 127, rfl⟩
abbrev main_c_14 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_15 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x12_0_1 : S3200000x1.BroadcastsInDim S3200000x12 (![0, 1] : Fin 2 → Fin S3200000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3200000x1_S3200000x6_0_1 : S3200000x1.BroadcastsInDim S3200000x6 (![0, 1] : Fin 2 → Fin S3200000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x12_S100000x12_1_0_0_1_n_n_wf : DotDims.WF S100000x512 S512x12 S100000x12 [1] [0] [0] [1] [] []
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S100000x12_S12x10_S100000x10_1_0_0_1_n_n_wf : DotDims.WF S100000x12 S12x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x8_S100000x8_1_0_0_1_n_n_wf : DotDims.WF S100000x10 S10x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x6_S100000x6_1_0_0_1_n_n_wf : DotDims.WF S100000x8 S8x6 S100000x6 [1] [0] [0] [1] [] []
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S100000x6_S6x4_S100000x4_1_0_0_1_n_n_wf : DotDims.WF S100000x6 S6x4 S100000x4 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x7_S100000x7_1_0_0_1_n_n_wf : DotDims.WF S100000x4 S4x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x512_S512x12_S100000x12_1_0_0_1_n_n : DotDims S100000x512 S512x12 S100000x12 where
  lhsContracting := [1]
  rhsContracting := [0]
  lhsNonContracting := [0]
  rhsNonContracting := [1]
  lhsBatch := []
  rhsBatch := []
  wf := dot_S100000x512_S512x12_S100000x12_1_0_0_1_n_n_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S100000x12_S12x10_S100000x10_1_0_0_1_n_n : DotDims S100000x12 S12x10 S100000x10 where
  lhsContracting := [1]
  rhsContracting := [0]
  lhsNonContracting := [0]
  rhsNonContracting := [1]
  lhsBatch := []
  rhsBatch := []
  wf := dot_S100000x12_S12x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x8_S100000x8_1_0_0_1_n_n : DotDims S100000x10 S10x8 S100000x8 where
  lhsContracting := [1]
  rhsContracting := [0]
  lhsNonContracting := [0]
  rhsNonContracting := [1]
  lhsBatch := []
  rhsBatch := []
  wf := dot_S100000x10_S10x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x6_S100000x6_1_0_0_1_n_n : DotDims S100000x8 S8x6 S100000x6 where
  lhsContracting := [1]
  rhsContracting := [0]
  lhsNonContracting := [0]
  rhsNonContracting := [1]
  lhsBatch := []
  rhsBatch := []
  wf := dot_S100000x8_S8x6_S100000x6_1_0_0_1_n_n_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S100000x6_S6x4_S100000x4_1_0_0_1_n_n : DotDims S100000x6 S6x4 S100000x4 where
  lhsContracting := [1]
  rhsContracting := [0]
  lhsNonContracting := [0]
  rhsNonContracting := [1]
  lhsBatch := []
  rhsBatch := []
  wf := dot_S100000x6_S6x4_S100000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x7_S100000x7_1_0_0_1_n_n : DotDims S100000x4 S4x7 S100000x7 where
  lhsContracting := [1]
  rhsContracting := [0]
  lhsNonContracting := [0]
  rhsNonContracting := [1]
  lhsBatch := []
  rhsBatch := []
  wf := dot_S100000x4_S4x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KernelRun.lean ====
/-
  The kernel program's run with its result array named.

  @main is twelve kernel regions among stretches of host operations. Running it from any memory, every weakly fair
  execution terminates without a fault, and at the end every buffer that outlives the regions holds what the fold
  through @main leaves there: a stretch of host operations applied to what was there, a region's arrays at what its
  write-backs leave. So the result buffer ends at the fold's value at that buffer, and the arguments end as launched.
  The launch data (the segments, the regions' proof data, the fold) are the generated frame's; the run is the library's
  launch theorem over them, with the final state read at the result buffer as well as at the arguments.
-/
import proofs.«145258_j55173149885091_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's last value
    there and every argument array as launched. -/
theorem run_result : θ_run defs (onTc (τ := τ) (main (F := F))) ⟨m, fun _ => 0, ρ⟩ (fun r => ∀ c : Dev nD,
      r.2.mem ((c.tc : Thread nD τ).loc main_v95) = W18 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v95 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.KernelIdeal.Run

end
-- ==== Proof.Layers.lean ====
/-
  The network both programs compute, layer by layer, as whole-array functions on the extended reals.

  One layer takes node features h : [100000, K], weights W : [K, N], a bias b : [N] and the edge list (value, source, target
  per edge, 3200000 edges):
    dense     s = h · W                                   (rows times columns)
    spread    agg(p, ·) = Σ over edges e with target p of value(e) · s(source(e), ·)      (gather, scale, scatter-add into zeros;
              a negative source index wraps by + 100000 before the lookup)
    biased    agg + b, the bias laid as one row and repeated over the 100000 rows
  followed by the layer's activation: none, max(·, 0), or v − tanh v. Six layers, widths 512 → 12 → 10 → 8 → 6 → 4 → 7,
  activations none / max(·,0) / v − tanh v / v − tanh v / none / none.
-/
import proofs.«145258_j55173149885091_1_alg».proof.Proof.Gen.ReferenceIdeal
import Idealize.ShloMosaic.PureOps.Ideal

noncomputable section

namespace Cert.Net

open Cert.ReferenceIdeal Cert.ReferenceIdeal.Gen Idealize.ShloMosaic Idealize.ShloMosaic.TcCoe

/-- The source index of each edge with a negative index wrapped by + 100000, as a column [3200000, 1]. -/
def sources (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- v − tanh v, entry by entry. -/
def tanhshrink {s : Shape} (v : FVec Ideal s .f32) : FVec Ideal s .f32 := subf v (Host.tanh v)

/-! ## Layer 1: 512 → 12 -/

/-- h · W. -/
def dense1 (h : FVec Ideal S100000x512 .f32) (W : FVec Ideal S512x12 .f32) : FVec Ideal S100000x12 .f32 :=
  Host.dotGeneral dot_S100000x512_S512x12_S100000x12_1_0_0_1_n_n none h W

/-- Row p of the result is the sum over the edges ending at p of the edge's value times the row of s at the edge's source. -/
def spread1 (s : FVec Ideal S100000x12 .f32) (ev : FVec Ideal S3200000 .f32) (src dst : IVec S3200000 32) : FVec Ideal S100000x12 .f32 :=
  Host.scatterAdd scatter_S100000x12_S3200000x1_S3200000x12_1_0_0_1
    (broadcastInDim S100000x12 ![] bcast_S_S100000x12 (constant S_ .f32 0x00000000#32))
    (broadcastInDim S3200000x1 ![0] bcast_S3200000_S3200000x1_0 dst)
    (mulf (broadcastInDim S3200000x12 ![0, 1] bcast_S3200000x1_S3200000x12_0_1 (broadcastInDim S3200000x1 ![0] bcast_S3200000_S3200000x1_0 ev))
      (Host.gather gather_S100000x12_S3200000x1_S3200000x12_1_0_n_n_0_1_112 s (sources src)))

/-- The bias as one row [1, 12]. -/
def biasRow1 (b : FVec Ideal S12 .f32) : FVec Ideal S1x12 .f32 := broadcastInDim S1x12 ![1] bcast_S12_S1x12_1 b

/-- agg + the bias row repeated over the 100000 rows. -/
def biased1 (a : FVec Ideal S100000x12 .f32) (row : FVec Ideal S1x12 .f32) : FVec Ideal S100000x12 .f32 :=
  addf a (broadcastInDim S100000x12 ![0, 1] bcast_S1x12_S100000x12_0_1 row)

/-- Layer 1 whole. -/
def layer1 (h : FVec Ideal S100000x512 .f32) (W : FVec Ideal S512x12 .f32) (b : FVec Ideal S12 .f32) (ev : FVec Ideal S3200000 .f32) (src dst : IVec S3200000 32) : FVec Ideal S100000x12 .f32 :=
  biased1 (spread1 (dense1 h W) ev src dst) (biasRow1 b)

/-! ## Layer 2: 12 → 10 -/

/-- h · W. -/
def dense2 (h : FVec Ideal S100000x12 .f32) (W : FVec Ideal S12x10 .f32) : FVec Ideal S100000x10 .f32 :=
  Host.dotGeneral dot_S100000x12_S12x10_S100000x10_1_0_0_1_n_n none h W

/-- Row p of the result is the sum over the edges ending at p of the edge's value times the row of s at the edge's source. -/
def spread2 (s : FVec Ideal S100000x10 .f32) (ev : FVec Ideal S3200000 .f32) (src dst : IVec S3200000 32) : FVec Ideal S100000x10 .f32 :=
  Host.scatterAdd scatter_S100000x10_S3200000x1_S3200000x10_1_0_0_1
    (broadcastInDim S100000x10 ![] bcast_S_S100000x10 (constant S_ .f32 0x00000000#32))
    (broadcastInDim S3200000x1 ![0] bcast_S3200000_S3200000x1_0 dst)
    (mulf (broadcastInDim S3200000x10 ![0, 1] bcast_S3200000x1_S3200000x10_0_1 (broadcastInDim S3200000x1 ![0] bcast_S3200000_S3200000x1_0 ev))
      (Host.gather gather_S100000x10_S3200000x1_S3200000x10_1_0_n_n_0_1_110 s (sources src)))

/-- The bias as one row [1, 10]. -/
def biasRow2 (b : FVec Ideal S10 .f32) : FVec Ideal S1x10 .f32 := broadcastInDim S1x10 ![1] bcast_S10_S1x10_1 b

/-- agg + the bias row repeated over the 100000 rows. -/
def biased2 (a : FVec Ideal S100000x10 .f32) (row : FVec Ideal S1x10 .f32) : FVec Ideal S100000x10 .f32 :=
  addf a (broadcastInDim S100000x10 ![0, 1] bcast_S1x10_S100000x10_0_1 row)

/-- max(·, 0), entry by entry. -/
def relu2 (v : FVec Ideal S100000x10 .f32) : FVec Ideal S100000x10 .f32 :=
  maximumf v (broadcastInDim S100000x10 ![] bcast_S_S100000x10 (constant S_ .f32 0x00000000#32))

/-- Layer 2 whole. -/
def layer2 (h : FVec Ideal S100000x12 .f32) (W : FVec Ideal S12x10 .f32) (b : FVec Ideal S10 .f32) (ev : FVec Ideal S3200000 .f32) (src dst : IVec S3200000 32) : FVec Ideal S100000x10 .f32 :=
  relu2 (biased2 (spread2 (dense2 h W) ev src dst) (biasRow2 b))

/-! ## Layer 3: 10 → 8 -/

/-- h · W. -/
def dense3 (h : FVec Ideal S100000x10 .f32) (W : FVec Ideal S10x8 .f32) : FVec Ideal S100000x8 .f32 :=
  Host.dotGeneral dot_S100000x10_S10x8_S100000x8_1_0_0_1_n_n none h W

/-- Row p of the result is the sum over the edges ending at p of the edge's value times the row of s at the edge's source. -/
def spread3 (s : FVec Ideal S100000x8 .f32) (ev : FVec Ideal S3200000 .f32) (src dst : IVec S3200000 32) : FVec Ideal S100000x8 .f32 :=
  Host.scatterAdd scatter_S100000x8_S3200000x1_S3200000x8_1_0_0_1
    (broadcastInDim S100000x8 ![] bcast_S_S100000x8 (constant S_ .f32 0x00000000#32))
    (broadcastInDim S3200000x1 ![0] bcast_S3200000_S3200000x1_0 dst)
    (mulf (broadcastInDim S3200000x8 ![0, 1] bcast_S3200000x1_S3200000x8_0_1 (broadcastInDim S3200000x1 ![0] bcast_S3200000_S3200000x1_0 ev))
      (Host.gather gather_S100000x8_S3200000x1_S3200000x8_1_0_n_n_0_1_18 s (sources src)))

/-- The bias as one row [1, 8]. -/
def biasRow3 (b : FVec Ideal S8 .f32) : FVec Ideal S1x8 .f32 := broadcastInDim S1x8 ![1] bcast_S8_S1x8_1 b

/-- agg + the bias row repeated over the 100000 rows. -/
def biased3 (a : FVec Ideal S100000x8 .f32) (row : FVec Ideal S1x8 .f32) : FVec Ideal S100000x8 .f32 :=
  addf a (broadcastInDim S100000x8 ![0, 1] bcast_S1x8_S100000x8_0_1 row)

/-- Layer 3 whole. -/
def layer3 (h : FVec Ideal S100000x10 .f32) (W : FVec Ideal S10x8 .f32) (b : FVec Ideal S8 .f32) (ev : FVec Ideal S3200000 .f32) (src dst : IVec S3200000 32) : FVec Ideal S100000x8 .f32 :=
  tanhshrink (biased3 (spread3 (dense3 h W) ev src dst) (biasRow3 b))

/-! ## Layer 4: 8 → 6 -/

/-- h · W. -/
def dense4 (h : FVec Ideal S100000x8 .f32) (W : FVec Ideal S8x6 .f32) : FVec Ideal S100000x6 .f32 :=
  Host.dotGeneral dot_S100000x8_S8x6_S100000x6_1_0_0_1_n_n none h W

/-- Row p of the result is the sum over the edges ending at p of the edge's value times the row of s at the edge's source. -/
def spread4 (s : FVec Ideal S100000x6 .f32) (ev : FVec Ideal S3200000 .f32) (src dst : IVec S3200000 32) : FVec Ideal S100000x6 .f32 :=
  Host.scatterAdd scatter_S100000x6_S3200000x1_S3200000x6_1_0_0_1
    (broadcastInDim S100000x6 ![] bcast_S_S100000x6 (constant S_ .f32 0x00000000#32))
    (broadcastInDim S3200000x1 ![0] bcast_S3200000_S3200000x1_0 dst)
    (mulf (broadcastInDim S3200000x6 ![0, 1] bcast_S3200000x1_S3200000x6_0_1 (broadcastInDim S3200000x1 ![0] bcast_S3200000_S3200000x1_0 ev))
      (Host.gather gather_S100000x6_S3200000x1_S3200000x6_1_0_n_n_0_1_16 s (sources src)))

/-- The bias as one row [1, 6]. -/
def biasRow4 (b : FVec Ideal S6 .f32) : FVec Ideal S1x6 .f32 := broadcastInDim S1x6 ![1] bcast_S6_S1x6_1 b

/-- agg + the bias row repeated over the 100000 rows. -/
def biased4 (a : FVec Ideal S100000x6 .f32) (row : FVec Ideal S1x6 .f32) : FVec Ideal S100000x6 .f32 :=
  addf a (broadcastInDim S100000x6 ![0, 1] bcast_S1x6_S100000x6_0_1 row)

/-- Layer 4 whole. -/
def layer4 (h : FVec Ideal S100000x8 .f32) (W : FVec Ideal S8x6 .f32) (b : FVec Ideal S6 .f32) (ev : FVec Ideal S3200000 .f32) (src dst : IVec S3200000 32) : FVec Ideal S100000x6 .f32 :=
  tanhshrink (biased4 (spread4 (dense4 h W) ev src dst) (biasRow4 b))

/-! ## Layer 5: 6 → 4 -/

/-- h · W. -/
def dense5 (h : FVec Ideal S100000x6 .f32) (W : FVec Ideal S6x4 .f32) : FVec Ideal S100000x4 .f32 :=
  Host.dotGeneral dot_S100000x6_S6x4_S100000x4_1_0_0_1_n_n none h W

/-- Row p of the result is the sum over the edges ending at p of the edge's value times the row of s at the edge's source. -/
def spread5 (s : FVec Ideal S100000x4 .f32) (ev : FVec Ideal S3200000 .f32) (src dst : IVec S3200000 32) : FVec Ideal S100000x4 .f32 :=
  Host.scatterAdd scatter_S100000x4_S3200000x1_S3200000x4_1_0_0_1
    (broadcastInDim S100000x4 ![] bcast_S_S100000x4 (constant S_ .f32 0x00000000#32))
    (broadcastInDim S3200000x1 ![0] bcast_S3200000_S3200000x1_0 dst)
    (mulf (broadcastInDim S3200000x4 ![0, 1] bcast_S3200000x1_S3200000x4_0_1 (broadcastInDim S3200000x1 ![0] bcast_S3200000_S3200000x1_0 ev))
      (Host.gather gather_S100000x4_S3200000x1_S3200000x4_1_0_n_n_0_1_14 s (sources src)))

/-- The bias as one row [1, 4]. -/
def biasRow5 (b : FVec Ideal S4 .f32) : FVec Ideal S1x4 .f32 := broadcastInDim S1x4 ![1] bcast_S4_S1x4_1 b

/-- agg + the bias row repeated over the 100000 rows. -/
def biased5 (a : FVec Ideal S100000x4 .f32) (row : FVec Ideal S1x4 .f32) : FVec Ideal S100000x4 .f32 :=
  addf a (broadcastInDim S100000x4 ![0, 1] bcast_S1x4_S100000x4_0_1 row)

/-- Layer 5 whole. -/
def layer5 (h : FVec Ideal S100000x6 .f32) (W : FVec Ideal S6x4 .f32) (b : FVec Ideal S4 .f32) (ev : FVec Ideal S3200000 .f32) (src dst : IVec S3200000 32) : FVec Ideal S100000x4 .f32 :=
  biased5 (spread5 (dense5 h W) ev src dst) (biasRow5 b)

/-! ## Layer 6: 4 → 7 -/

/-- h · W. -/
def dense6 (h : FVec Ideal S100000x4 .f32) (W : FVec Ideal S4x7 .f32) : FVec Ideal S100000x7 .f32 :=
  Host.dotGeneral dot_S100000x4_S4x7_S100000x7_1_0_0_1_n_n none h W

/-- Row p of the result is the sum over the edges ending at p of the edge's value times the row of s at the edge's source. -/
def spread6 (s : FVec Ideal S100000x7 .f32) (ev : FVec Ideal S3200000 .f32) (src dst : IVec S3200000 32) : FVec Ideal S100000x7 .f32 :=
  Host.scatterAdd scatter_S100000x7_S3200000x1_S3200000x7_1_0_0_1
    (broadcastInDim S100000x7 ![] bcast_S_S100000x7 (constant S_ .f32 0x00000000#32))
    (broadcastInDim S3200000x1 ![0] bcast_S3200000_S3200000x1_0 dst)
    (mulf (broadcastInDim S3200000x7 ![0, 1] bcast_S3200000x1_S3200000x7_0_1 (broadcastInDim S3200000x1 ![0] bcast_S3200000_S3200000x1_0 ev))
      (Host.gather gather_S100000x7_S3200000x1_S3200000x7_1_0_n_n_0_1_17 s (sources src)))

/-- The bias as one row [1, 7]. -/
def biasRow6 (b : FVec Ideal S7 .f32) : FVec Ideal S1x7 .f32 := broadcastInDim S1x7 ![1] bcast_S7_S1x7_1 b

/-- agg + the bias row repeated over the 100000 rows. -/
def biased6 (a : FVec Ideal S100000x7 .f32) (row : FVec Ideal S1x7 .f32) : FVec Ideal S100000x7 .f32 :=
  addf a (broadcastInDim S100000x7 ![0, 1] bcast_S1x7_S100000x7_0_1 row)

/-- Layer 6 whole. -/
def layer6 (h : FVec Ideal S100000x4 .f32) (W : FVec Ideal S4x7 .f32) (b : FVec Ideal S7 .f32) (ev : FVec Ideal S3200000 .f32) (src dst : IVec S3200000 32) : FVec Ideal S100000x7 .f32 :=
  biased6 (spread6 (dense6 h W) ev src dst) (biasRow6 b)

/-- The six layers composed. -/
def net (x : FVec Ideal S100000x512 .f32) (ev : FVec Ideal S3200000 .f32)
    (W1 : FVec Ideal S512x12 .f32) (b1 : FVec Ideal S12 .f32) (W2 : FVec Ideal S12x10 .f32) (b2 : FVec Ideal S10 .f32)
    (W3 : FVec Ideal S10x8 .f32) (b3 : FVec Ideal S8 .f32) (W4 : FVec Ideal S8x6 .f32) (b4 : FVec Ideal S6 .f32)
    (W5 : FVec Ideal S6x4 .f32) (b5 : FVec Ideal S4 .f32) (W6 : FVec Ideal S4x7 .f32) (b6 : FVec Ideal S7 .f32)
    (src dst : IVec S3200000 32) : FVec Ideal S100000x7 .f32 :=
  layer6 (layer5 (layer4 (layer3 (layer2 (layer1 x W1 b1 ev src dst) W2 b2 ev src dst) W3 b3 ev src dst) W4 b4 ev src dst) W5 b5 ev src dst) W6 b6 ev src dst

end Cert.Net

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Product1.lean ====
/-
  Layer 1's dense product, block by block.

  The node axis (100000 rows) is cut into 20 blocks of 5000 rows; grid point t multiplies rows 5000·t … 5000·t + 4999 of the
  [100000, 512] operand by the whole [512, 12] weight matrix and writes rows 5000·t … of the [100000, 12] result. Entry (r, q) of
  the result is therefore the sum over k of X(r, k) · W(k, q) whatever block r falls in, and the 20 blocks cover every row:
  the array the region leaves is the whole product X · W.
-/
import proofs.«145258_j55173149885091_1_alg».proof.Proof.Gen.KernelIdeal.Frame
import proofs.«145258_j55173149885091_1_alg».proof.Proof.LibMatDot
import proofs.«145258_j55173149885091_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Rows times columns: entry (r, q) is the sum over k of X(r, k) · W(k, q). -/
def rowsByCols (X : S100000x512.Idx → Elt Ideal .f32) (W : S512x12.Idx → Elt Ideal .f32) : S100000x12.Idx → Elt Ideal .f32 :=
  fun i => ∑ k : Fin 512, X (ix2 (i 0) k) * W (ix2 k (i 1))

theorem zero_offsets : (![0, 0] : Fin 2 → Nat) = fun _ => 0 := funext fun a => by fin_cases a <;> rfl

/-- One block's arithmetic: the product into a zero accumulator, at (p, q), is row p of the block against column q of the weights. -/
theorem block_apply (x0 : Vec Ideal S5000x512 .f32) (x1 : Vec Ideal S512x12 .f32) (p : Fin 5000) (q : Fin 12) :
    k0_pay1 x0 x1 (ix2 p q) = ∑ k : Fin 512, x0 (ix2 p k) * x1 (ix2 k q) := by
  unfold k0_pay1
  exact Cert.Lib.matmul_plain_zero_apply dot_S5000x512_S512x12_S5000x12_1_0_0_1_n_n_wf none x0 x1 p q

/-- The index maps over the 20 points: the row blocks of the operand and of the result move together, block t at rows 5000·t;
    the weights are one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 2000000 in
/-- What point t writes back is block t of the whole product. -/
theorem flushed_eq (c : Dev nD) (t : Fin cfg0.N) :
    (dat0 V c).flushed 2 t = ((cfg0.win 2).blk t).view.read (Elt Ideal)
      (rowsByCols (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x12) zero_offsets]
  obtain ⟨e00, e01, e10, e11, e20, e21⟩ := index_facts t
  funext j
  obtain ⟨p, q, rfl⟩ : ∃ (p : Fin 5000) (q : Fin 12), j = ix2 p q := ⟨j 0, j 1, eq_ix2 j⟩
  show k0_pay1 (iblk0 V c 0 t) (iblk0 V c 1 t) (ix2 p q)
    = rowsByCols (V c (Pipeline.arrRef spec0 0)) (V c (Pipeline.arrRef spec0 1)) (((cfg0.win 2).blk t).view.emb (ix2 p q))
  refine (block_apply (iblk0 V c 0 t) (iblk0 V c 1 t) p q).trans ?_
  unfold rowsByCols
  refine Finset.sum_congr rfl fun k _ => ?_
  have hX : iblk0 V c 0 t (ix2 p k) = V c (Pipeline.arrRef spec0 0) (ix2 ((((cfg0.win 2).blk t).view.emb (ix2 p q)) 0) k) := by
    show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  have hW : iblk0 V c 1 t (ix2 k q) = V c (Pipeline.arrRef spec0 1) (ix2 k ((((cfg0.win 2).blk t).view.emb (ix2 p q)) 1)) := by
    show V c (Pipeline.arrRef spec0 1) (((cfg0.win 1).blk t).view.emb (ix2 k q)) = _
    refine congrArg _ (funext fun a => Fin.ext ?_)
    match a with
    | ⟨0, _⟩ => show win0_1.index t (0 : Fin 2) * 512 + 1 * k.val = k.val; omega
    | ⟨1, _⟩ => show win0_1.index t (1 : Fin 2) * 12 + 1 * q.val = win0_2.index t (1 : Fin 2) * 12 + 1 * q.val; omega
  rw [hX, hW]

/-- An index of the result is in point t's block iff each coordinate is in the block's range on its axis. -/
theorem mem_block (t : Fin cfg0.N) (i : S100000x12.Idx) :
    i ∈ ((cfg0.win 2).blk t).view.set ↔ ∀ a : Fin 2, win0_2.index t a * S5000x12.size a ≤ (i a).val ∧ (i a).val < win0_2.index t a * S5000x12.size a + S5000x12.size a := by
  show i ∈ ((View.whole (Pipeline.arrRef spec0 2)).slice (win0_2.rect t)).set ↔ _
  rw [View.set_slice_whole, Rect.mem_set_unit]
  exact Iff.rfl

/-- Row r lies in block r / 5000: the 20 blocks cover the array. -/
theorem covered (i : S100000x12.Idx) :
    ∃ t : Fin cfg0.N, (cfg0.win 2).flush t = true ∧ i ∈ ((cfg0.win 2).blk t).view.set := by
  have hi0 : (i 0).val < 100000 := (i 0).isLt
  have hi1 : (i 1).val < 12 := (i 1).isLt
  have hN : cfg0.N = 20 := N_0
  let t : Fin cfg0.N := ⟨(i 0).val / 5000, by rw [hN]; omega⟩
  obtain ⟨e00, e01, e10, e11, e20, e21⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 12 ≤ (i 1).val ∧ (i 1).val < win0_2.index t (1 : Fin 2) * 12 + 12; omega

/-- The array the region leaves is the whole product of the two arrays it found. -/
theorem final (c : Dev nD) :
    (dat0 V c).arrAt 2 cfg0.N = rowsByCols (V c (Pipeline.arrRef spec0 0)) (V c (Pipeline.arrRef spec0 1)) :=
  (dat0 V c).arrAt_eq_of_cover 2 _ (fun t _ => flushed_eq V c t) covered

/-- Rows times columns is the host's product of the two arrays: its contraction, read at (p, q), is the same sum. -/
theorem rowsByCols_eq_dense (X : FVec Ideal S100000x512 .f32) (W : FVec Ideal S512x12 .f32) :
    rowsByCols X W = Cert.Net.dense1 X W := by
  funext i
  obtain ⟨p, q, rfl⟩ : ∃ (p : Fin 100000) (q : Fin 12), i = ix2 p q := ⟨i 0, i 1, eq_ix2 i⟩
  unfold Cert.Net.dense1
  simp only [Host.dotGeneral]
  exact (Cert.Lib.dotGeneral_plain_apply _ none _ X W p q).symm

/-- The array the region leaves is the layer's dense product of the two arrays it found. -/
theorem final_dense (c : Dev nD) :
    (dat0 V c).arrAt 2 cfg0.N = Cert.Net.dense1 (V c (Pipeline.arrRef spec0 0)) (V c (Pipeline.arrRef spec0 1)) :=
  (final V c).trans (rowsByCols_eq_dense _ _)

end Cert.KernelIdeal.Product1

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibBiasRows.lean ====
import Idealize.ShloMosaic.Lib.ValueIdx
import Idealize.ShloMosaic.Lib.Pipeline.Value
import proofs.«145258_j55173149885091_1_alg».proof.Proof.LibSlabs
import proofs.«145258_j55173149885091_1_alg».proof.Proof.LibAsRow

/-!
# Bias vectors and scalars spread over a matrix, read at an entry

General, program-free lemmas for the host's way of adding a bias: a vector `[n]` laid out as one row `[1, n]`
(`broadcast_in_dim` along axis 1) and repeated over `R` rows (`broadcast_in_dim` keeping both axes) reads, at
`(r, q)`, the vector's entry `q`; a scalar repeated over a matrix reads the scalar at every entry.
-/

noncomputable section

namespace Cert.Lib

open Idealize.ShloMosaic Idealize.ShloMosaic.ValueIdx

variable {α : Type}

/-- A scalar repeated over a matrix reads the scalar everywhere. -/
theorem splat2_apply {a b : ℕ} (x : (⟨0, ![]⟩ : Shape).Idx → α)
    (h0 : (⟨0, ![]⟩ : Shape).BroadcastsInDim ⟨2, ![a, b]⟩ (![] : Fin 0 → Fin 2)) (i : (⟨2, ![a, b]⟩ : Shape).Idx) :
    broadcastInDim ⟨2, ![a, b]⟩ ![] h0 x i = x ix0 :=
  broadcastInDim_apply _ h0 x i ix0 fun ax => ax.elim0

/-- A vector laid out as one row and repeated over `R` rows reads, at `(r, q)`, the vector's entry `q`. -/
theorem biasRows_apply {R n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (q : Fin n) :
    broadcastInDim ⟨2, ![R, n]⟩ ![0, 1] h2 (broadcastInDim ⟨2, ![1, n]⟩ ![1] h1 v) (ix2 r q) = v (ix1 q) := by
  rw [rows_of_oneRow h2 _ r q, broadcastInDim_eq_asRow v h1]
  rfl

end Cert.Lib

end
-- ==== Proof.LayersAt.lean ====
/-
  The layers' bias and activation steps read at an entry.

  Adding the bias row repeated over the rows reads, at (r, q), the aggregated entry plus the row's entry q; max(·, 0) and
  v − tanh v act entry by entry.
-/
import proofs.«145258_j55173149885091_1_alg».proof.Proof.Layers
import proofs.«145258_j55173149885091_1_alg».proof.Proof.LibSlabs
import proofs.«145258_j55173149885091_1_alg».proof.Proof.LibBiasRows
import Idealize.ShloMosaic.Lib.ValueIdx
import Idealize.ShloMosaic.PureOps.Ideal.Laws

noncomputable section

namespace Cert.Net

open Cert.ReferenceIdeal Cert.ReferenceIdeal.Gen Idealize.ShloMosaic Idealize.ShloMosaic.TcCoe Idealize.ShloMosaic.ValueIdx

/-- v − tanh v at an entry. -/
theorem tanhshrink_apply {s : Shape} (v : FVec Ideal s .f32) (i : s.Idx) : tanhshrink v i = v i - Ideal.tanh (v i) := rfl

/-- Layer 1: the biased array at (r, q). -/
theorem biased1_apply (a : FVec Ideal S100000x12 .f32) (row : FVec Ideal S1x12 .f32) (r : Fin 100000) (q : Fin 12) :
    biased1 a row (ix2 r q) = a (ix2 r q) + row (ix2 (0 : Fin 1) q) := by
  unfold biased1
  show a (ix2 r q) + broadcastInDim S100000x12 ![0, 1] bcast_S1x12_S100000x12_0_1 row (ix2 r q) = _
  rw [Cert.Lib.rows_of_oneRow]

/-- Layer 2: the biased array at (r, q). -/
theorem biased2_apply (a : FVec Ideal S100000x10 .f32) (row : FVec Ideal S1x10 .f32) (r : Fin 100000) (q : Fin 10) :
    biased2 a row (ix2 r q) = a (ix2 r q) + row (ix2 (0 : Fin 1) q) := by
  unfold biased2
  show a (ix2 r q) + broadcastInDim S100000x10 ![0, 1] bcast_S1x10_S100000x10_0_1 row (ix2 r q) = _
  rw [Cert.Lib.rows_of_oneRow]

/-- Layer 2: max(·, 0) at an entry; the zero is the word 0x00000000 read as a real. -/
theorem relu2_apply (v : FVec Ideal S100000x10 .f32) (i : S100000x10.Idx) :
    relu2 v i = max (v i) (Ideal.ofBits .f32 0x00000000#32) := by
  unfold relu2
  show max (v i) (broadcastInDim S100000x10 ![] bcast_S_S100000x10 (constant (F := Ideal) S_ .f32 0x00000000#32) i) = _
  rw [Cert.Lib.splat2_apply]
  rfl

/-- Layer 3: the biased array at (r, q). -/
theorem biased3_apply (a : FVec Ideal S100000x8 .f32) (row : FVec Ideal S1x8 .f32) (r : Fin 100000) (q : Fin 8) :
    biased3 a row (ix2 r q) = a (ix2 r q) + row (ix2 (0 : Fin 1) q) := by
  unfold biased3
  show a (ix2 r q) + broadcastInDim S100000x8 ![0, 1] bcast_S1x8_S100000x8_0_1 row (ix2 r q) = _
  rw [Cert.Lib.rows_of_oneRow]

/-- Layer 4: the biased array at (r, q). -/
theorem biased4_apply (a : FVec Ideal S100000x6 .f32) (row : FVec Ideal S1x6 .f32) (r : Fin 100000) (q : Fin 6) :
    biased4 a row (ix2 r q) = a (ix2 r q) + row (ix2 (0 : Fin 1) q) := by
  unfold biased4
  show a (ix2 r q) + broadcastInDim S100000x6 ![0, 1] bcast_S1x6_S100000x6_0_1 row (ix2 r q) = _
  rw [Cert.Lib.rows_of_oneRow]

/-- Layer 5: the biased array at (r, q). -/
theorem biased5_apply (a : FVec Ideal S100000x4 .f32) (row : FVec Ideal S1x4 .f32) (r : Fin 100000) (q : Fin 4) :
    biased5 a row (ix2 r q) = a (ix2 r q) + row (ix2 (0 : Fin 1) q) := by
  unfold biased5
  show a (ix2 r q) + broadcastInDim S100000x4 ![0, 1] bcast_S1x4_S100000x4_0_1 row (ix2 r q) = _
  rw [Cert.Lib.rows_of_oneRow]

/-- Layer 6: the biased array at (r, q). -/
theorem biased6_apply (a : FVec Ideal S100000x7 .f32) (row : FVec Ideal S1x7 .f32) (r : Fin 100000) (q : Fin 7) :
    biased6 a row (ix2 r q) = a (ix2 r q) + row (ix2 (0 : Fin 1) q) := by
  unfold biased6
  show a (ix2 r q) + broadcastInDim S100000x7 ![0, 1] bcast_S1x7_S100000x7_0_1 row (ix2 r q) = _
  rw [Cert.Lib.rows_of_oneRow]

end Cert.Net

end
-- ==== Proof.Bias1.lean ====
/-
  Layer 1's bias and activation (no activation), block by block.

  Grid point t takes rows 5000·t … 5000·t + 4999 of the aggregated array and the one bias row [1, 12], adds the bias row to
  every row of the block, and writes the same rows of the result. Entry (r, q) of
  the result is therefore f(agg(r, q) + bias(0, q)) whatever block r falls in, and the 20 blocks cover every row: the array
  the region leaves is the whole array agg + bias.
-/
import proofs.«145258_j55173149885091_1_alg».proof.Proof.Gen.KernelIdeal.Frame
import proofs.«145258_j55173149885091_1_alg».proof.Proof.LayersAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What one entry becomes: the sum with the bias entry. -/
def entry : EReal → EReal := (fun v : EReal => v)

theorem zero_offsets : (![0, 0] : Fin 2 → Nat) = fun _ => 0 := funext fun a => by fin_cases a <;> rfl

/-- One block's arithmetic at (p, q): the block's entry plus the bias row's entry q. -/
theorem block_apply (x0 : Vec Ideal S5000x12 .f32) (x1 : Vec Ideal S1x12 .f32) (p : Fin 5000) (q : Fin 12) :
    k1_pay1 x0 x1 (ix2 p q) = entry (x0 (ix2 p q) + x1 (ix2 (0 : Fin 1) q)) := by
  unfold k1_pay1 entry
  rw [shapeCast_self, shapeCast_self]
  show (fun v : EReal => v) (x0 (ix2 p q) + broadcastTo S5000x12 x1 broadcasts_S1x12_S5000x12 (ix2 p q)) = _
  rw [broadcastTo_1b_ab_apply]

/-- The whole array the region leaves, as a function of the two arrays it finds: the aggregated array plus the bias row. -/
def whole (A : FVec Ideal S100000x12 .f32) (B : FVec Ideal S1x12 .f32) : FVec Ideal S100000x12 .f32 :=
  Cert.Net.biased1 A B

theorem whole_eq (A : FVec Ideal S100000x12 .f32) (B : FVec Ideal S1x12 .f32) :
    whole A B = Cert.Net.biased1 A B := rfl

/-- The whole-array form at (r, q): the aggregated entry plus the bias row's entry q. -/
theorem whole_apply (A : FVec Ideal S100000x12 .f32) (B : FVec Ideal S1x12 .f32) (r : Fin 100000) (q : Fin 12) :
    whole A B (ix2 r q) = entry (A (ix2 r q) + B (ix2 (0 : Fin 1) q)) := by
  rw [whole_eq]
  unfold entry
  exact Cert.Net.biased1_apply A B r q

attribute [local irreducible] whole

/-- The index maps over the 20 points: the row blocks of the aggregated array and of the result move together, block t at
    rows 5000·t; the bias row is one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 2000000 in
/-- What point t writes back is block t of the whole array. -/
theorem flushed_eq (c : Dev nD) (t : Fin cfg1.N) :
    (dat1 V c).flushed 2 t = ((cfg1.win 2).blk t).view.read (Elt Ideal)
      (whole (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S5000x12) zero_offsets, View.ld_unit_zero (S := S1x12) zero_offsets]
  obtain ⟨e00, e01, e10, e11, e20, e21⟩ := index_facts t
  funext j
  obtain ⟨p, q, rfl⟩ : ∃ (p : Fin 5000) (q : Fin 12), j = ix2 p q := ⟨j 0, j 1, eq_ix2 j⟩
  show k1_pay1 (iblk1 V c 0 t) (iblk1 V c 1 t) (ix2 p q)
    = (whole (V c (Pipeline.arrRef spec1 0)) (V c (Pipeline.arrRef spec1 1))) (((cfg1.win 2).blk t).view.emb (ix2 p q))
  refine (block_apply (iblk1 V c 0 t) (iblk1 V c 1 t) p q).trans ?_
  rw [eq_ix2 (((cfg1.win 2).blk t).view.emb (ix2 p q))]
  refine Eq.trans ?_ (whole_apply (V c (Pipeline.arrRef spec1 0)) (V c (Pipeline.arrRef spec1 1)) _ _).symm
  have hA : iblk1 V c 0 t (ix2 p q) = V c (Pipeline.arrRef spec1 0)
      (ix2 ((((cfg1.win 2).blk t).view.emb (ix2 p q)) 0) ((((cfg1.win 2).blk t).view.emb (ix2 p q)) 1)) := by
    show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 12 + 1 * q.val = win1_2.index t (1 : Fin 2) * 12 + 1 * q.val; omega
  have hB : iblk1 V c 1 t (ix2 (0 : Fin 1) q) = V c (Pipeline.arrRef spec1 1)
      (ix2 (0 : Fin 1) ((((cfg1.win 2).blk t).view.emb (ix2 p q)) 1)) := by
    show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 12 + 1 * q.val = win1_2.index t (1 : Fin 2) * 12 + 1 * q.val; omega
  exact congrArg entry (congrArg₂ (fun a b : EReal => a + b) hA hB)

/-- An index of the result is in point t's block iff each coordinate is in the block's range on its axis. -/
theorem mem_block (t : Fin cfg1.N) (i : S100000x12.Idx) :
    i ∈ ((cfg1.win 2).blk t).view.set ↔ ∀ a : Fin 2, win1_2.index t a * S5000x12.size a ≤ (i a).val ∧ (i a).val < win1_2.index t a * S5000x12.size a + S5000x12.size a := by
  show i ∈ ((View.whole (Pipeline.arrRef spec1 2)).slice (win1_2.rect t)).set ↔ _
  rw [View.set_slice_whole, Rect.mem_set_unit]
  exact Iff.rfl

/-- Row r lies in block r / 5000: the 20 blocks cover the array. -/
theorem covered (i : S100000x12.Idx) :
    ∃ t : Fin cfg1.N, (cfg1.win 2).flush t = true ∧ i ∈ ((cfg1.win 2).blk t).view.set := by
  have hi0 : (i 0).val < 100000 := (i 0).isLt
  have hi1 : (i 1).val < 12 := (i 1).isLt
  have hN : cfg1.N = 20 := N_1
  let t : Fin cfg1.N := ⟨(i 0).val / 5000, by rw [hN]; omega⟩
  obtain ⟨e00, e01, e10, e11, e20, e21⟩ := index_facts t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 12 ≤ (i 1).val ∧ (i 1).val < win1_2.index t (1 : Fin 2) * 12 + 12; omega

/-- The array the region leaves: the aggregated array it found plus the bias row it found. -/
theorem final (c : Dev nD) :
    (dat1 V c).arrAt 2 cfg1.N = Cert.Net.biased1 (V c (Pipeline.arrRef spec1 0)) (V c (Pipeline.arrRef spec1 1)) :=
  ((dat1 V c).arrAt_eq_of_cover 2 _ (fun t _ => flushed_eq V c t) covered).trans (whole_eq _ _)

end Cert.KernelIdeal.Bias1

end
-- ==== Proof.Between1.lean ====
/-
  The host operations between layer 1's product and its bias step.

  From the product s they build the aggregated array — each edge's source index wrapped, the rows of s looked up at the sources,
  scaled by the edge values and added into zeros at the targets — and lay the bias vector out as one row. Read off the list of
  operations, the two buffers the next region takes hold exactly the layer's spread of s and the bias as a row (a reshape
  [12] → [1, 12] and a broadcast of [12] into [1, 12] are the same row).
-/
import proofs.«145258_j55173149885091_1_alg».proof.Proof.Gen.KernelIdeal.Frame
import proofs.«145258_j55173149885091_1_alg».proof.Proof.Layers
import proofs.«145258_j55173149885091_1_alg».proof.Proof.LibAsRow
import Idealize.ShloMosaic.Lib.StableHlo.Run

set_option maxRecDepth 16384

noncomputable section

namespace Cert.KernelIdeal.Between1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated array the bias step takes is the layer's spread of the product over the edges. -/
theorem aggregated (c : Dev nD) :
    W2 m ρ c (Proc.devRef .tc main_v13) = Cert.Net.spread1 (W1 m ρ c (Proc.devRef .tc main_v0)) (W1 m ρ c (Proc.devRef .tc main_arg1))
      (W1 m ρ c (Proc.devRef .tc main_arg14)) (W1 m ρ c (Proc.devRef .tc main_arg15)) := by
  show StableHlo.after hostOps1 (W1 m ρ c) (Proc.devRef .tc main_v13) = _
  after_results_simp
  rfl

set_option maxHeartbeats 4000000 in
/-- The bias row the bias step takes is the bias vector laid as one row. -/
theorem biasRow (c : Dev nD) :
    W2 m ρ c (Proc.devRef .tc main_v14) = Cert.Net.biasRow1 (W1 m ρ c (Proc.devRef .tc main_arg3)) := by
  show StableHlo.after hostOps1 (W1 m ρ c) (Proc.devRef .tc main_v14) = _
  after_results_simp
  unfold Cert.Net.biasRow1
  rw [Cert.Lib.broadcastInDim_eq_asRow]
  exact Cert.Lib.shapeCast_eq_asRow _ _

end Cert.KernelIdeal.Between1

end
-- ==== Proof.Product2.lean ====
/-
  Layer 2's dense product, block by block.

  The node axis (100000 rows) is cut into 20 blocks of 5000 rows; grid point t multiplies rows 5000·t … 5000·t + 4999 of the
  [100000, 12] operand by the whole [12, 10] weight matrix and writes rows 5000·t … of the [100000, 10] result. Entry (r, q) of
  the result is therefore the sum over k of X(r, k) · W(k, q) whatever block r falls in, and the 20 blocks cover every row:
  the array the region leaves is the whole product X · W.
-/
import proofs.«145258_j55173149885091_1_alg».proof.Proof.Gen.KernelIdeal.Frame
import proofs.«145258_j55173149885091_1_alg».proof.Proof.LibMatDot
import proofs.«145258_j55173149885091_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Rows times columns: entry (r, q) is the sum over k of X(r, k) · W(k, q). -/
def rowsByCols (X : S100000x12.Idx → Elt Ideal .f32) (W : S12x10.Idx → Elt Ideal .f32) : S100000x10.Idx → Elt Ideal .f32 :=
  fun i => ∑ k : Fin 12, X (ix2 (i 0) k) * W (ix2 k (i 1))

theorem zero_offsets : (![0, 0] : Fin 2 → Nat) = fun _ => 0 := funext fun a => by fin_cases a <;> rfl

/-- One block's arithmetic: the product into a zero accumulator, at (p, q), is row p of the block against column q of the weights. -/
theorem block_apply (x0 : Vec Ideal S5000x12 .f32) (x1 : Vec Ideal S12x10 .f32) (p : Fin 5000) (q : Fin 10) :
    k2_pay1 x0 x1 (ix2 p q) = ∑ k : Fin 12, x0 (ix2 p k) * x1 (ix2 k q) := by
  unfold k2_pay1
  rw [shapeCast_self]
  exact Cert.Lib.matmul_plain_zero_apply dot_S5000x12_S12x10_S5000x10_1_0_0_1_n_n_wf none x0 x1 p q

/-- The index maps over the 20 points: the row blocks of the operand and of the result move together, block t at rows 5000·t;
    the weights are one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 2000000 in
/-- What point t writes back is block t of the whole product. -/
theorem flushed_eq (c : Dev nD) (t : Fin cfg2.N) :
    (dat2 V c).flushed 2 t = ((cfg2.win 2).blk t).view.read (Elt Ideal)
      (rowsByCols (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x12) zero_offsets, View.ld_unit_zero (S := S12x10) zero_offsets]
  obtain ⟨e00, e01, e10, e11, e20, e21⟩ := index_facts t
  funext j
  obtain ⟨p, q, rfl⟩ : ∃ (p : Fin 5000) (q : Fin 10), j = ix2 p q := ⟨j 0, j 1, eq_ix2 j⟩
  show k2_pay1 (iblk2 V c 0 t) (iblk2 V c 1 t) (ix2 p q)
    = rowsByCols (V c (Pipeline.arrRef spec2 0)) (V c (Pipeline.arrRef spec2 1)) (((cfg2.win 2).blk t).view.emb (ix2 p q))
  refine (block_apply (iblk2 V c 0 t) (iblk2 V c 1 t) p q).trans ?_
  unfold rowsByCols
  refine Finset.sum_congr rfl fun k _ => ?_
  have hX : iblk2 V c 0 t (ix2 p k) = V c (Pipeline.arrRef spec2 0) (ix2 ((((cfg2.win 2).blk t).view.emb (ix2 p q)) 0) k) := by
    show V c (Pipeline.arrRef spec2 0) (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 12 + 1 * k.val = k.val; omega
  have hW : iblk2 V c 1 t (ix2 k q) = V c (Pipeline.arrRef spec2 1) (ix2 k ((((cfg2.win 2).blk t).view.emb (ix2 p q)) 1)) := by
    show V c (Pipeline.arrRef spec2 1) (((cfg2.win 1).blk t).view.emb (ix2 k q)) = _
    refine congrArg _ (funext fun a => Fin.ext ?_)
    match a with
    | ⟨0, _⟩ => show win2_1.index t (0 : Fin 2) * 12 + 1 * k.val = k.val; omega
    | ⟨1, _⟩ => show win2_1.index t (1 : Fin 2) * 10 + 1 * q.val = win2_2.index t (1 : Fin 2) * 10 + 1 * q.val; omega
  rw [hX, hW]

/-- An index of the result is in point t's block iff each coordinate is in the block's range on its axis. -/
theorem mem_block (t : Fin cfg2.N) (i : S100000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole (Pipeline.arrRef spec2 2)).slice (win2_2.rect t)).set ↔ _
  rw [View.set_slice_whole, Rect.mem_set_unit]
  exact Iff.rfl

/-- Row r lies in block r / 5000: the 20 blocks cover the array. -/
theorem covered (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 20 := N_2
  let t : Fin cfg2.N := ⟨(i 0).val / 5000, by rw [hN]; omega⟩
  obtain ⟨e00, e01, e10, e11, e20, e21⟩ := index_facts t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 10 ≤ (i 1).val ∧ (i 1).val < win2_2.index t (1 : Fin 2) * 10 + 10; omega

/-- The array the region leaves is the whole product of the two arrays it found. -/
theorem final (c : Dev nD) :
    (dat2 V c).arrAt 2 cfg2.N = rowsByCols (V c (Pipeline.arrRef spec2 0)) (V c (Pipeline.arrRef spec2 1)) :=
  (dat2 V c).arrAt_eq_of_cover 2 _ (fun t _ => flushed_eq V c t) covered

/-- Rows times columns is the host's product of the two arrays: its contraction, read at (p, q), is the same sum. -/
theorem rowsByCols_eq_dense (X : FVec Ideal S100000x12 .f32) (W : FVec Ideal S12x10 .f32) :
    rowsByCols X W = Cert.Net.dense2 X W := by
  funext i
  obtain ⟨p, q, rfl⟩ : ∃ (p : Fin 100000) (q : Fin 10), i = ix2 p q := ⟨i 0, i 1, eq_ix2 i⟩
  unfold Cert.Net.dense2
  simp only [Host.dotGeneral]
  exact (Cert.Lib.dotGeneral_plain_apply _ none _ X W p q).symm

/-- The array the region leaves is the layer's dense product of the two arrays it found. -/
theorem final_dense (c : Dev nD) :
    (dat2 V c).arrAt 2 cfg2.N = Cert.Net.dense2 (V c (Pipeline.arrRef spec2 0)) (V c (Pipeline.arrRef spec2 1)) :=
  (final V c).trans (rowsByCols_eq_dense _ _)

end Cert.KernelIdeal.Product2

end
-- ==== Proof.Bias2.lean ====
/-
  Layer 2's bias and activation (max(·, 0)), block by block.

  Grid point t takes rows 5000·t … 5000·t + 4999 of the aggregated array and the one bias row [1, 10], adds the bias row to
  every row of the block and applies the activation entry by entry, and writes the same rows of the result. Entry (r, q) of
  the result is therefore f(agg(r, q) + bias(0, q)) whatever block r falls in, and the 20 blocks cover every row: the array
  the region leaves is the whole array agg + bias under the activation.
-/
import proofs.«145258_j55173149885091_1_alg».proof.Proof.Gen.KernelIdeal.Frame
import proofs.«145258_j55173149885091_1_alg».proof.Proof.LayersAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What one entry becomes: the sum with the bias entry, under the activation. -/
def entry : EReal → EReal := (fun v : EReal => max v (Ideal.ofBits .f32 0x00000000#32))

theorem zero_offsets : (![0, 0] : Fin 2 → Nat) = fun _ => 0 := funext fun a => by fin_cases a <;> rfl

/-- One block's arithmetic at (p, q): the block's entry plus the bias row's entry q, under the activation. -/
theorem block_apply (x0 : Vec Ideal S5000x10 .f32) (x1 : Vec Ideal S1x10 .f32) (p : Fin 5000) (q : Fin 10) :
    k3_pay1 x0 x1 (ix2 p q) = entry (x0 (ix2 p q) + x1 (ix2 (0 : Fin 1) q)) := by
  unfold k3_pay1 entry
  rw [shapeCast_self, shapeCast_self]
  show (fun v : EReal => max v (Ideal.ofBits .f32 0x00000000#32)) (x0 (ix2 p q) + broadcastTo S5000x10 x1 broadcasts_S1x10_S5000x10 (ix2 p q)) = _
  rw [broadcastTo_1b_ab_apply]

/-- The whole array the region leaves, as a function of the two arrays it finds: the aggregated array plus the bias row, under the activation. -/
def whole (A : FVec Ideal S100000x10 .f32) (B : FVec Ideal S1x10 .f32) : FVec Ideal S100000x10 .f32 :=
  Cert.Net.relu2 (Cert.Net.biased2 A B)

theorem whole_eq (A : FVec Ideal S100000x10 .f32) (B : FVec Ideal S1x10 .f32) :
    whole A B = Cert.Net.relu2 (Cert.Net.biased2 A B) := rfl

/-- The whole-array form at (r, q): the aggregated entry plus the bias row's entry q, under the activation. -/
theorem whole_apply (A : FVec Ideal S100000x10 .f32) (B : FVec Ideal S1x10 .f32) (r : Fin 100000) (q : Fin 10) :
    whole A B (ix2 r q) = entry (A (ix2 r q) + B (ix2 (0 : Fin 1) q)) := by
  rw [whole_eq]
  unfold entry
  rw [Cert.Net.relu2_apply, Cert.Net.biased2_apply]

attribute [local irreducible] whole

/-- The index maps over the 20 points: the row blocks of the aggregated array and of the result move together, block t at
    rows 5000·t; the bias row is one block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 2000000 in
/-- What point t writes back is block t of the whole array. -/
theorem flushed_eq (c : Dev nD) (t : Fin cfg3.N) :
    (dat3 V c).flushed 2 t = ((cfg3.win 2).blk t).view.read (Elt Ideal)
      (whole (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x10) zero_offsets, View.ld_unit_zero (S := S1x10) zero_offsets]
  obtain ⟨e00, e01, e10, e11, e20, e21⟩ := index_facts t
  funext j
  obtain ⟨p, q, rfl⟩ : ∃ (p : Fin 5000) (q : Fin 10), j = ix2 p q := ⟨j 0, j 1, eq_ix2 j⟩
  show k3_pay1 (iblk3 V c 0 t) (iblk3 V c 1 t) (ix2 p q)
    = (whole (V c (Pipeline.arrRef spec3 0)) (V c (Pipeline.arrRef spec3 1))) (((cfg3.win 2).blk t).view.emb (ix2 p q))
  refine (block_apply (iblk3 V c 0 t) (iblk3 V c 1 t) p q).trans ?_
  rw [eq_ix2 (((cfg3.win 2).blk t).view.emb (ix2 p q))]
  refine Eq.trans ?_ (whole_apply (V c (Pipeline.arrRef spec3 0)) (V c (Pipeline.arrRef spec3 1)) _ _).symm
  have hA : iblk3 V c 0 t (ix2 p q) = V c (Pipeline.arrRef spec3 0)
      (ix2 ((((cfg3.win 2).blk t).view.emb (ix2 p q)) 0) ((((cfg3.win 2).blk t).view.emb (ix2 p q)) 1)) := by
    show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 10 + 1 * q.val = win3_2.index t (1 : Fin 2) * 10 + 1 * q.val; omega
  have hB : iblk3 V c 1 t (ix2 (0 : Fin 1) q) = V c (Pipeline.arrRef spec3 1)
      (ix2 (0 : Fin 1) ((((cfg3.win 2).blk t).view.emb (ix2 p q)) 1)) := by
    show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 10 + 1 * q.val = win3_2.index t (1 : Fin 2) * 10 + 1 * q.val; omega
  exact congrArg entry (congrArg₂ (fun a b : EReal => a + b) hA hB)

/-- An index of the result is in point t's block iff each coordinate is in the block's range on its axis. -/
theorem mem_block (t : Fin cfg3.N) (i : S100000x10.Idx) :
    i ∈ ((cfg3.win 2).blk t).view.set ↔ ∀ a : Fin 2, win3_2.index t a * S5000x10.size a ≤ (i a).val ∧ (i a).val < win3_2.index t a * S5000x10.size a + S5000x10.size a := by
  show i ∈ ((View.whole (Pipeline.arrRef spec3 2)).slice (win3_2.rect t)).set ↔ _
  rw [View.set_slice_whole, Rect.mem_set_unit]
  exact Iff.rfl

/-- Row r lies in block r / 5000: the 20 blocks cover the array. -/
theorem covered (i : S100000x10.Idx) :
    ∃ t : Fin cfg3.N, (cfg3.win 2).flush t = true ∧ i ∈ ((cfg3.win 2).blk t).view.set := by
  have hi0 : (i 0).val < 100000 := (i 0).isLt
  have hi1 : (i 1).val < 10 := (i 1).isLt
  have hN : cfg3.N = 20 := N_3
  let t : Fin cfg3.N := ⟨(i 0).val / 5000, by rw [hN]; omega⟩
  obtain ⟨e00, e01, e10, e11, e20, e21⟩ := index_facts t
  have ht : t.val = (i 0).val / 5000 := rfl
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 10 ≤ (i 1).val ∧ (i 1).val < win3_2.index t (1 : Fin 2) * 10 + 10; omega

/-- The array the region leaves: the aggregated array it found plus the bias row it found, under the activation. -/
theorem final (c : Dev nD) :
    (dat3 V c).arrAt 2 cfg3.N = Cert.Net.relu2 (Cert.Net.biased2 (V c (Pipeline.arrRef spec3 0)) (V c (Pipeline.arrRef spec3 1))) :=
  ((dat3 V c).arrAt_eq_of_cover 2 _ (fun t _ => flushed_eq V c t) covered).trans (whole_eq _ _)

end Cert.KernelIdeal.Bias2

end
-- ==== Proof.Between2.lean ====
/-
  The host operations between layer 2's product and its bias step.

  From the product s they build the aggregated array — each edge's source index wrapped, the rows of s looked up at the sources,
  scaled by the edge values and added into zeros at the targets — and lay the bias vector out as one row. Read off the list of
  operations, the two buffers the next region takes hold exactly the layer's spread of s and the bias as a row (a reshape
  [10] → [1, 10] and a broadcast of [10] into [1, 10] are the same row).
-/
import proofs.«145258_j55173149885091_1_alg».proof.Proof.Gen.KernelIdeal.Frame
import proofs.«145258_j55173149885091_1_alg».proof.Proof.Layers
import proofs.«145258_j55173149885091_1_alg».proof.Proof.LibAsRow
import Idealize.ShloMosaic.Lib.StableHlo.Run

set_option maxRecDepth 16384

noncomputable section

namespace Cert.KernelIdeal.Between2

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated array the bias step takes is the layer's spread of the product over the edges. -/
theorem aggregated (c : Dev nD) :
    W5 m ρ c (Proc.devRef .tc main_v29) = Cert.Net.spread2 (W4 m ρ c (Proc.devRef .tc main_v16)) (W4 m ρ c (Proc.devRef .tc main_arg1))
      (W4 m ρ c (Proc.devRef .tc main_arg14)) (W4 m ρ c (Proc.devRef .tc main_arg15)) := by
  show StableHlo.after hostOps3 (W4 m ρ c) (Proc.devRef .tc main_v29) = _
  after_results_simp
  rfl

set_option maxHeartbeats 4000000 in
/-- The bias row the bias step takes is the bias vector laid as one row. -/
theorem biasRow (c : Dev nD) :
    W5 m ρ c (Proc.devRef .tc main_v30) = Cert.Net.biasRow2 (W4 m ρ c (Proc.devRef .tc main_arg5)) := by
  show StableHlo.after hostOps3 (W4 m ρ c) (Proc.devRef .tc main_v30) = _
  after_results_simp
  unfold Cert.Net.biasRow2
  rw [Cert.Lib.broadcastInDim_eq_asRow]
  exact Cert.Lib.shapeCast_eq_asRow _ _

end Cert.KernelIdeal.Between2

end
-- ==== Proof.Product3.lean ====
/-
  Layer 3's dense product, block by block.

  The node axis (100000 rows) is cut into 20 blocks of 5000 rows; grid point t multiplies rows 5000·t … 5000·t + 4999 of the
  [100000, 10] operand by the whole [10, 8] weight matrix and writes rows 5000·t … of the [100000, 8] result. Entry (r, q) of
  the result is therefore the sum over k of X(r, k) · W(k, q) whatever block r falls in, and the 20 blocks cover every row:
  the array the region leaves is the whole product X · W.
-/
import proofs.«145258_j55173149885091_1_alg».proof.Proof.Gen.KernelIdeal.Frame
import proofs.«145258_j55173149885091_1_alg».proof.Proof.LibMatDot
import proofs.«145258_j55173149885091_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Rows times columns: entry (r, q) is the sum over k of X(r, k) · W(k, q). -/
def rowsByCols (X : S100000x10.Idx → Elt Ideal .f32) (W : S10x8.Idx → Elt Ideal .f32) : S100000x8.Idx → Elt Ideal .f32 :=
  fun i => ∑ k : Fin 10, X (ix2 (i 0) k) * W (ix2 k (i 1))

theorem zero_offsets : (![0, 0] : Fin 2 → Nat) = fun _ => 0 := funext fun a => by fin_cases a <;> rfl

/-- One block's arithmetic: the product into a zero accumulator, at (p, q), is row p of the block against column q of the weights. -/
theorem block_apply (x0 : Vec Ideal S5000x10 .f32) (x1 : Vec Ideal S10x8 .f32) (p : Fin 5000) (q : Fin 8) :
    k4_pay1 x0 x1 (ix2 p q) = ∑ k : Fin 10, x0 (ix2 p k) * x1 (ix2 k q) := by
  unfold k4_pay1
  rw [shapeCast_self]
  exact Cert.Lib.matmul_plain_zero_apply dot_S5000x10_S10x8_S5000x8_1_0_0_1_n_n_wf none x0 x1 p q

/-- The index maps over the 20 points: the row blocks of the operand and of the result move together, block t at rows 5000·t;
    the weights are one block. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 2000000 in
/-- What point t writes back is block t of the whole product. -/
theorem flushed_eq (c : Dev nD) (t : Fin cfg4.N) :
    (dat4 V c).flushed 2 t = ((cfg4.win 2).blk t).view.read (Elt Ideal)
      (rowsByCols (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x10) zero_offsets, View.ld_unit_zero (S := S10x8) zero_offsets]
  obtain ⟨e00, e01, e10, e11, e20, e21⟩ := index_facts t
  funext j
  obtain ⟨p, q, rfl⟩ : ∃ (p : Fin 5000) (q : Fin 8), j = ix2 p q := ⟨j 0, j 1, eq_ix2 j⟩
  show k4_pay1 (iblk4 V c 0 t) (iblk4 V c 1 t) (ix2 p q)
    = rowsByCols (V c (Pipeline.arrRef spec4 0)) (V c (Pipeline.arrRef spec4 1)) (((cfg4.win 2).blk t).view.emb (ix2 p q))
  refine (block_apply (iblk4 V c 0 t) (iblk4 V c 1 t) p q).trans ?_
  unfold rowsByCols
  refine Finset.sum_congr rfl fun k _ => ?_
  have hX : iblk4 V c 0 t (ix2 p k) = V c (Pipeline.arrRef spec4 0) (ix2 ((((cfg4.win 2).blk t).view.emb (ix2 p q)) 0) k) := by
    show V c (Pipeline.arrRef spec4 0) (((cfg4.win 0).blk t).view.emb (ix2 p k)) = _
    refine congrArg _ (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 10 + 1 * k.val = k.val; omega
  have hW : iblk4 V c 1 t (ix2 k q) = V c (Pipeline.arrRef spec4 1) (ix2 k ((((cfg4.win 2).blk t).view.emb (ix2 p q)) 1)) := by
    show V c (Pipeline.arrRef spec4 1) (((cfg4.win 1).blk t).view.emb (ix2 k q)) = _
    refine congrArg _ (funext fun a => Fin.ext ?_)
    match a with
    | ⟨0, _⟩ => show win4_1.index t (0 : Fin 2) * 10 + 1 * k.val = k.val; omega
    | ⟨1, _⟩ => show win4_1.index t (1 : Fin 2) * 8 + 1 * q.val = win4_2.index t (1 : Fin 2) * 8 + 1 * q.val; omega
  rw [hX, hW]

/-- An index of the result is in point t's block iff each coordinate is in the block's range on its axis. -/
theorem mem_block (t : Fin cfg4.N) (i : S100000x8.Idx) :
    i ∈ ((cfg4.win 2).blk t).view.set ↔ ∀ a : Fin 2, win4_2.index t a * S5000x8.size a ≤ (i a).val ∧ (i a).val < win4_2.index t a * S5000x8.size a + S5000x8.size a := by
  show i ∈ ((View.whole (Pipeline.arrRef spec4 2)).slice (win4_2.rect t)).set ↔ _
  rw [View.set_slice_whole, Rect.mem_set_unit]
  exact Iff.rfl

/-- Row r lies in block r / 5000: the 20 blocks cover the array. -/
theorem covered (i : S100000x8.Idx) :
    ∃ t : Fin cfg4.N, (cfg4.win 2).flush t = true ∧ i ∈ ((cfg4.win 2).blk t).view.set := by
  have hi0 : (i 0).val < 100000 := (i 0).isLt
  have hi1 : (i 1).val < 8 := (i 1).isLt
  have hN : cfg4.N = 20 := N_4
  let t : Fin cfg4.N := ⟨(i 0).val / 5000, by rw [hN]; omega⟩
  obtain ⟨e00, e01, e10, e11, e20, e21⟩ := index_facts t
  have ht : t.val = (i 0).val / 5000 := rfl
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 8 ≤ (i 1).val ∧ (i 1).val < win4_2.index t (1 : Fin 2) * 8 + 8; omega

/-- The array the region leaves is the whole product of the two arrays it found. -/
theorem final (c : Dev nD) :
    (dat4 V c).arrAt 2 cfg4.N = rowsByCols (V c (Pipeline.arrRef spec4 0)) (V c (Pipeline.arrRef spec4 1)) :=
  (dat4 V c).arrAt_eq_of_cover 2 _ (fun t _ => flushed_eq V c t) covered

/-- Rows times columns is the host's product of the two arrays: its contraction, read at (p, q), is the same sum. -/
theorem rowsByCols_eq_dense (X : FVec Ideal S100000x10 .f32) (W : FVec Ideal S10x8 .f32) :
    rowsByCols X W = Cert.Net.dense3 X W := by
  funext i
  obtain ⟨p, q, rfl⟩ : ∃ (p : Fin 100000) (q : Fin 8), i = ix2 p q := ⟨i 0, i 1, eq_ix2 i⟩
  unfold Cert.Net.dense3
  simp only [Host.dotGeneral]
  exact (Cert.Lib.dotGeneral_plain_apply _ none _ X W p q).symm

/-- The array the region leaves is the layer's dense product of the two arrays it found. -/
theorem final_dense (c : Dev nD) :
    (dat4 V c).arrAt 2 cfg4.N = Cert.Net.dense3 (V c (Pipeline.arrRef spec4 0)) (V c (Pipeline.arrRef spec4 1)) :=
  (final V c).trans (rowsByCols_eq_dense _ _)

end Cert.KernelIdeal.Product3

end
-- ==== Proof.Bias3.lean ====
/-
  Layer 3's bias and activation (v − tanh v), block by block.

  Grid point t takes rows 5000·t … 5000·t + 4999 of the aggregated array and the one bias row [1, 8], adds the bias row to
  every row of the block and applies the activation entry by entry, and writes the same rows of the result. Entry (r, q) of
  the result is therefore f(agg(r, q) + bias(0, q)) whatever block r falls in, and the 20 blocks cover every row: the array
  the region leaves is the whole array agg + bias under the activation.
-/
import proofs.«145258_j55173149885091_1_alg».proof.Proof.Gen.KernelIdeal.Frame
import proofs.«145258_j55173149885091_1_alg».proof.Proof.LayersAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What one entry becomes: the sum with the bias entry, under the activation. -/
def entry : EReal → EReal := (fun v : EReal => v - Ideal.tanh v)

theorem zero_offsets : (![0, 0] : Fin 2 → Nat) = fun _ => 0 := funext fun a => by fin_cases a <;> rfl

/-- One block's arithmetic at (p, q): the block's entry plus the bias row's entry q, under the activation. -/
theorem block_apply (x0 : Vec Ideal S5000x8 .f32) (x1 : Vec Ideal S1x8 .f32) (p : Fin 5000) (q : Fin 8) :
    k5_pay1 x0 x1 (ix2 p q) = entry (x0 (ix2 p q) + x1 (ix2 (0 : Fin 1) q)) := by
  unfold k5_pay1 entry
  rw [shapeCast_self, shapeCast_self]
  show (fun v : EReal => v - Ideal.tanh v) (x0 (ix2 p q) + broadcastTo S5000x8 x1 broadcasts_S1x8_S5000x8 (ix2 p q)) = _
  rw [broadcastTo_1b_ab_apply]

/-- The whole array the region leaves, as a function of the two arrays it finds: the aggregated array plus the bias row, under the activation. -/
def whole (A : FVec Ideal S100000x8 .f32) (B : FVec Ideal S1x8 .f32) : FVec Ideal S100000x8 .f32 :=
  Cert.Net.tanhshrink (Cert.Net.biased3 A B)

theorem whole_eq (A : FVec Ideal S100000x8 .f32) (B : FVec Ideal S1x8 .f32) :
    whole A B = Cert.Net.tanhshrink (Cert.Net.biased3 A B) := rfl

/-- The whole-array form at (r, q): the aggregated entry plus the bias row's entry q, under the activation. -/
theorem whole_apply (A : FVec Ideal S100000x8 .f32) (B : FVec Ideal S1x8 .f32) (r : Fin 100000) (q : Fin 8) :
    whole A B (ix2 r q) = entry (A (ix2 r q) + B (ix2 (0 : Fin 1) q)) := by
  rw [whole_eq]
  unfold entry
  rw [Cert.Net.tanhshrink_apply, Cert.Net.biased3_apply]

attribute [local irreducible] whole

/-- The index maps over the 20 points: the row blocks of the aggregated array and of the result move together, block t at
    rows 5000·t; the bias row is one block. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

set_option maxHeartbeats 2000000 in
/-- What point t writes back is block t of the whole array. -/
theorem flushed_eq (c : Dev nD) (t : Fin cfg5.N) :
    (dat5 V c).flushed 2 t = ((cfg5.win 2).blk t).view.read (Elt Ideal)
      (whole (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S5000x8) zero_offsets, View.ld_unit_zero (S := S1x8) zero_offsets]
  obtain ⟨e00, e01, e10, e11, e20, e21⟩ := index_facts t
  funext j
  obtain ⟨p, q, rfl⟩ : ∃ (p : Fin 5000) (q : Fin 8), j = ix2 p q := ⟨j 0, j 1, eq_ix2 j⟩
  show k5_pay1 (iblk5 V c 0 t) (iblk5 V c 1 t) (ix2 p q)
    = (whole (V c (Pipeline.arrRef spec5 0)) (V c (Pipeline.arrRef spec5 1))) (((cfg5.win 2).blk t).view.emb (ix2 p q))
  refine (block_apply (iblk5 V c 0 t) (iblk5 V c 1 t) p q).trans ?_
  rw [eq_ix2 (((cfg5.win 2).blk t).view.emb (ix2 p q))]
  refine Eq.trans ?_ (whole_apply (V c (Pipeline.arrRef spec5 0)) (V c (Pipeline.arrRef spec5 1)) _ _).symm
  have hA : iblk5 V c 0 t (ix2 p q) = V c (Pipeline.arrRef spec5 0)
      (ix2 ((((cfg5.win 2).blk t).view.emb (ix2 p q)) 0) ((((cfg5.win 2).blk t).view.emb (ix2 p q)) 1)) := by
    show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 8 + 1 * q.val = win5_2.index t (1 : Fin 2) * 8 + 1 * q.val; omega
  have hB : iblk5 V c 1 t (ix2 (0 : Fin 1) q) = V c (Pipeline.arrRef spec5 1)
      (ix2 (0 : Fin 1) ((((cfg5.win 2).blk t).view.emb (ix2 p q)) 1)) := by
    show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 8 + 1 * q.val = win5_2.index t (1 : Fin 2) * 8 + 1 * q.val; omega
  exact congrArg entry (congrArg₂ (fun a b : EReal => a + b) hA hB)

/-- An index of the result is in point t's block iff each coordinate is in the block's range on its axis. -/
theorem mem_block (t : Fin cfg5.N) (i : S100000x8.Idx) :
    i ∈ ((cfg5.win 2).blk t).view.set ↔ ∀ a : Fin 2, win5_2.index t a * S5000x8.size a ≤ (i a).val ∧ (i a).val < win5_2.index t a * S5000x8.size a + S5000x8.size a := by
  show i ∈ ((View.whole (Pipeline.arrRef spec5 2)).slice (win5_2.rect t)).set ↔ _
  rw [View.set_slice_whole, Rect.mem_set_unit]
  exact Iff.rfl

/-- Row r lies in block r / 5000: the 20 blocks cover the array. -/
theorem covered (i : S100000x8.Idx) :
    ∃ t : Fin cfg5.N, (cfg5.win 2).flush t = true ∧ i ∈ ((cfg5.win 2).blk t).view.set := by
  have hi0 : (i 0).val < 100000 := (i 0).isLt
  have hi1 : (i 1).val < 8 := (i 1).isLt
  have hN : cfg5.N = 20 := N_5
  let t : Fin cfg5.N := ⟨(i 0).val / 5000, by rw [hN]; omega⟩
  obtain ⟨e00, e01, e10, e11, e20, e21⟩ := index_facts t
  have ht : t.val = (i 0).val / 5000 := rfl
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 8 ≤ (i 1).val ∧ (i 1).val < win5_2.index t (1 : Fin 2) * 8 + 8; omega

/-- The array the region leaves: the aggregated array it found plus the bias row it found, under the activation. -/
theorem final (c : Dev nD) :
    (dat5 V c).arrAt 2 cfg5.N = Cert.Net.tanhshrink (Cert.Net.biased3 (V c (Pipeline.arrRef spec5 0)) (V c (Pipeline.arrRef spec5 1))) :=
  ((dat5 V c).arrAt_eq_of_cover 2 _ (fun t _ => flushed_eq V c t) covered).trans (whole_eq _ _)

end Cert.KernelIdeal.Bias3

end
-- ==== Proof.Between3.lean ====
/-
  The host operations between layer 3's product and its bias step.

  From the product s they build the aggregated array — each edge's source index wrapped, the rows of s looked up at the sources,
  scaled by the edge values and added into zeros at the targets — and lay the bias vector out as one row. Read off the list of
  operations, the two buffers the next region takes hold exactly the layer's spread of s and the bias as a row (a reshape
  [8] → [1, 8] and a broadcast of [8] into [1, 8] are the same row).
-/
import proofs.«145258_j55173149885091_1_alg».proof.Proof.Gen.KernelIdeal.Frame
import proofs.«145258_j55173149885091_1_alg».proof.Proof.Layers
import proofs.«145258_j55173149885091_1_alg».proof.Proof.LibAsRow
import Idealize.ShloMosaic.Lib.StableHlo.Run

set_option maxRecDepth 16384

noncomputable section

namespace Cert.KernelIdeal.Between3

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated array the bias step takes is the layer's spread of the product over the edges. -/
theorem aggregated (c : Dev nD) :
    W8 m ρ c (Proc.devRef .tc main_v45) = Cert.Net.spread3 (W7 m ρ c (Proc.devRef .tc main_v32)) (W7 m ρ c (Proc.devRef .tc main_arg1))
      (W7 m ρ c (Proc.devRef .tc main_arg14)) (W7 m ρ c (Proc.devRef .tc main_arg15)) := by
  show StableHlo.after hostOps5 (W7 m ρ c) (Proc.devRef .tc main_v45) = _
  after_results_simp
  rfl

set_option maxHeartbeats 4000000 in
/-- The bias row the bias step takes is the bias vector laid as one row. -/
theorem biasRow (c : Dev nD) :
    W8 m ρ c (Proc.devRef .tc main_v46) = Cert.Net.biasRow3 (W7 m ρ c (Proc.devRef .tc main_arg7)) := by
  show StableHlo.after hostOps5 (W7 m ρ c) (Proc.devRef .tc main_v46) = _
  after_results_simp
  unfold Cert.Net.biasRow3
  rw [Cert.Lib.broadcastInDim_eq_asRow]
  exact Cert.Lib.shapeCast_eq_asRow _ _

end Cert.KernelIdeal.Between3

end
-- ==== Proof.Product4.lean ====
/-
  Layer 4's dense product, block by block.

  The node axis (100000 rows) is cut into 20 blocks of 5000 rows; grid point t multiplies rows 5000·t … 5000·t + 4999 of the
  [100000, 8] operand by the whole [8, 6] weight matrix and writes rows 5000·t … of the [100000, 6] result. Entry (r, q) of
  the result is therefore the sum over k of X(r, k) · W(k, q) whatever block r falls in, and the 20 blocks cover every row:
  the array the region leaves is the whole product X · W.
-/
import proofs.«145258_j55173149885091_1_alg».proof.Proof.Gen.KernelIdeal.Frame
import proofs.«145258_j55173149885091_1_alg».proof.Proof.LibMatDot
import proofs.«145258_j55173149885091_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Rows times columns: entry (r, q) is the sum over k of X(r, k) · W(k, q). -/
def rowsByCols (X : S100000x8.Idx → Elt Ideal .f32) (W : S8x6.Idx → Elt Ideal .f32) : S100000x6.Idx → Elt Ideal .f32 :=
  fun i => ∑ k : Fin 8, X (ix2 (i 0) k) * W (ix2 k (i 1))

theorem zero_offsets : (![0, 0] : Fin 2 → Nat) = fun _ => 0 := funext fun a => by fin_cases a <;> rfl

/-- One block's arithmetic: the product into a zero accumulator, at (p, q), is row p of the block against column q of the weights. -/
theorem block_apply (x0 : Vec Ideal S5000x8 .f32) (x1 : Vec Ideal S8x6 .f32) (p : Fin 5000) (q : Fin 6) :
    k6_pay1 x0 x1 (ix2 p q) = ∑ k : Fin 8, x0 (ix2 p k) * x1 (ix2 k q) := by
  unfold k6_pay1
  rw [shapeCast_self]
  exact Cert.Lib.matmul_plain_zero_apply dot_S5000x8_S8x6_S5000x6_1_0_0_1_n_n_wf none x0 x1 p q

/-- The index maps over the 20 points: the row blocks of the operand and of the result move together, block t at rows 5000·t;
    the weights are one block. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 2000000 in
/-- What point t writes back is block t of the whole product. -/
theorem flushed_eq (c : Dev nD) (t : Fin cfg6.N) :
    (dat6 V c).flushed 2 t = ((cfg6.win 2).blk t).view.read (Elt Ideal)
      (rowsByCols (V c (Pipeline.arrRef spec6 0)) (V c (Pipeline.arrRef spec6 1))) := by
  show (cfg6.win 2).cut (grid6.coords t) ((dat6 V c).after 2 t) = _
  rw [after6_2]
  unfold out6_2
  rw [View.canon_unit_zero zero_offsets]
  simp only [View.ld_unit_zero (S := S5000x8) zero_offsets, View.ld_unit_zero (S := S8x6) zero_offsets]
  obtain ⟨e00, e01, e10, e11, e20, e21⟩ := index_facts t
  funext j
  obtain ⟨p, q, rfl⟩ : ∃ (p : Fin 5000) (q : Fin 6), j = ix2 p q := ⟨j 0, j 1, eq_ix2 j⟩
  show k6_pay1 (iblk6 V c 0 t) (iblk6 V c 1 t) (ix2 p q)
    = rowsByCols (V c (Pipeline.arrRef spec6 0)) (V c (Pipeline.arrRef spec6 1)) (((cfg6.win 2).blk t).view.emb (ix2 p q))
  refine (block_apply (iblk6 V c 0 t) (iblk6 V c 1 t) p q).trans ?_
  unfold rowsByCols
  refine Finset.sum_congr rfl fun k _ => ?_
  have hX : iblk6 V c 0 t (ix2 p k) = V c (Pipeline.arrRef spec6 0) (ix2 ((((cfg6.win 2).blk t).view.emb (ix2 p q)) 0) k) := by
    show V c (Pipeline.arrRef spec6 0) (((cfg6.win 0).blk t).view.emb (ix2 p k)) = _
    refine congrArg _ (funext fun a => Fin.ext ?_)
    match a with
    | ⟨0, _⟩ => show win6_0.index t (0 : Fin 2) * 5000 + 1 * p.val = win6_2.index t (0 : Fin 2) * 5000 + 1 * p.val; omega
    | ⟨1, _⟩ => show win6_0.index t (1 : Fin 2) * 8 + 1 * k.val = k.val; omega
  have hW : iblk6 V c 1 t (ix2 k q) = V c (Pipeline.arrRef spec6 1) (ix2 k ((((cfg6.win 2).blk t).view.emb (ix2 p q)) 1)) := by
    show V c (Pipeline.arrRef spec6 1) (((cfg6.win 1).blk t).view.emb (ix2 k q)) = _
    refine congrArg _ (funext fun a => Fin.ext ?_)
    match a with
    | ⟨0, _⟩ => show win6_1.index t (0 : Fin 2) * 8 + 1 * k.val = k.val; omega
    | ⟨1, _⟩ => show win6_1.index t (1 : Fin 2) * 6 + 1 * q.val = win6_2.index t (1 : Fin 2) * 6 + 1 * q.val; omega
  rw [hX, hW]

/-- An index of the result is in point t's block iff each coordinate is in the block's range on its axis. -/
theorem mem_block (t : Fin cfg6.N) (i : S100000x6.Idx) :
    i ∈ ((cfg6.win 2).blk t).view.set ↔ ∀ a : Fin 2, win6_2.index t a * S5000x6.size a ≤ (i a).val ∧ (i a).val < win6_2.index t a * S5000x6.size a + S5000x6.size a := by
  show i ∈ ((View.whole (Pipeline.arrRef spec6 2)).slice (win6_2.rect t)).set ↔ _
  rw [View.set_slice_whole, Rect.mem_set_unit]
  exact Iff.rfl

/-- Row r lies in block r / 5000: the 20 blocks cover the array. -/
theorem covered (i : S100000x6.Idx) :
    ∃ t : Fin cfg6.N, (cfg6.win 2).flush t = true ∧ i ∈ ((cfg6.win 2).blk t).view.set := by
  have hi0 : (i 0).val < 100000 := (i 0).isLt
  have hi1 : (i 1).val < 6 := (i 1).isLt
  have hN : cfg6.N = 20 := N_6
  let t : Fin cfg6.N := ⟨(i 0).val / 5000, by rw [hN]; omega⟩
  obtain ⟨e00, e01, e10, e11, e20, e21⟩ := index_facts t
  have ht : t.val = (i 0).val / 5000 := rfl
  refine ⟨t, flush6_2 t, ?_⟩
  rw [mem_block]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 6 ≤ (i 1).val ∧ (i 1).val < win6_2.index t (1 : Fin 2) * 6 + 6; omega

/-- The array the region leaves is the whole product of the two arrays it found. -/
theorem final (c : Dev nD) :
    (dat6 V c).arrAt 2 cfg6.N = rowsByCols (V c (Pipeline.arrRef spec6 0)) (V c (Pipeline.arrRef spec6 1)) :=
  (dat6 V c).arrAt_eq_of_cover 2 _ (fun t _ => flushed_eq V c t) covered

/-- Rows times columns is the host's product of the two arrays: its contraction, read at (p, q), is the same sum. -/
theorem rowsByCols_eq_dense (X : FVec Ideal S100000x8 .f32) (W : FVec Ideal S8x6 .f32) :
    rowsByCols X W = Cert.Net.dense4 X W := by
  funext i
  obtain ⟨p, q, rfl⟩ : ∃ (p : Fin 100000) (q : Fin 6), i = ix2 p q := ⟨i 0, i 1, eq_ix2 i⟩
  unfold Cert.Net.dense4
  simp only [Host.dotGeneral]
  exact (Cert.Lib.dotGeneral_plain_apply _ none _ X W p q).symm

/-- The array the region leaves is the layer's dense product of the two arrays it found. -/
theorem final_dense (c : Dev nD) :
    (dat6 V c).arrAt 2 cfg6.N = Cert.Net.dense4 (V c (Pipeline.arrRef spec6 0)) (V c (Pipeline.arrRef spec6 1)) :=
  (final V c).trans (rowsByCols_eq_dense _ _)

end Cert.KernelIdeal.Product4

end
-- ==== Proof.Bias4.lean ====
/-
  Layer 4's bias and activation (v − tanh v), block by block.

  Grid point t takes rows 5000·t … 5000·t + 4999 of the aggregated array and the one bias row [1, 6], adds the bias row to
  every row of the block and applies the activation entry by entry, and writes the same rows of the result. Entry (r, q) of
  the result is therefore f(agg(r, q) + bias(0, q)) whatever block r falls in, and the 20 blocks cover every row: the array
  the region leaves is the whole array agg + bias under the activation.
-/
import proofs.«145258_j55173149885091_1_alg».proof.Proof.Gen.KernelIdeal.Frame
import proofs.«145258_j55173149885091_1_alg».proof.Proof.LayersAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What one entry becomes: the sum with the bias entry, under the activation. -/
def entry : EReal → EReal := (fun v : EReal => v - Ideal.tanh v)

theorem zero_offsets : (![0, 0] : Fin 2 → Nat) = fun _ => 0 := funext fun a => by fin_cases a <;> rfl

/-- One block's arithmetic at (p, q): the block's entry plus the bias row's entry q, under the activation. -/
theorem block_apply (x0 : Vec Ideal S5000x6 .f32) (x1 : Vec Ideal S1x6 .f32) (p : Fin 5000) (q : Fin 6) :
    k7_pay1 x0 x1 (ix2 p q) = entry (x0 (ix2 p q) + x1 (ix2 (0 : Fin 1) q)) := by
  unfold k7_pay1 entry
  rw [shapeCast_self, shapeCast_self]
  show (fun v : EReal => v - Ideal.tanh v) (x0 (ix2 p q) + broadcastTo S5000x6 x1 broadcasts_S1x6_S5000x6 (ix2 p q)) = _
  rw [broadcastTo_1b_ab_apply]

/-- The whole array the region leaves, as a function of the two arrays it finds: the aggregated array plus the bias row, under the activation. -/
def whole (A : FVec Ideal S100000x6 .f32) (B : FVec Ideal S1x6 .f32) : FVec Ideal S100000x6 .f32 :=
  Cert.Net.tanhshrink (Cert.Net.biased4 A B)

theorem whole_eq (A : FVec Ideal S100000x6 .f32) (B : FVec Ideal S1x6 .f32) :
    whole A B = Cert.Net.tanhshrink (Cert.Net.biased4 A B) := rfl

/-- The whole-array form at (r, q): the aggregated entry plus the bias row's entry q, under the activation. -/
theorem whole_apply (A : FVec Ideal S100000x6 .f32) (B : FVec Ideal S1x6 .f32) (r : Fin 100000) (q : Fin 6) :
    whole A B (ix2 r q) = entry (A (ix2 r q) + B (ix2 (0 : Fin 1) q)) := by
  rw [whole_eq]
  unfold entry
  rw [Cert.Net.tanhshrink_apply, Cert.Net.biased4_apply]

attribute [local irreducible] whole

/-- The index maps over the 20 points: the row blocks of the aggregated array and of the result move together, block t at
    rows 5000·t; the bias row is one block. -/
theorem index_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 2000000 in
/-- What point t writes back is block t of the whole array. -/
theorem flushed_eq (c : Dev nD) (t : Fin cfg7.N) :
    (dat7 V c).flushed 2 t = ((cfg7.win 2).blk t).view.read (Elt Ideal)
      (whole (V c (Pipeline.arrRef spec7 0)) (V c (Pipeline.arrRef spec7 1))) := by
  show (cfg7.win 2).cut (grid7.coords t) ((dat7 V c).after 2 t) = _
  rw [after7_2]
  unfold out7_2
  rw [View.canon_unit_zero zero_offsets]
  simp only [View.ld_unit_zero (S := S5000x6) zero_offsets, View.ld_unit_zero (S := S1x6) zero_offsets]
  obtain ⟨e00, e01, e10, e11, e20, e21⟩ := index_facts t
  funext j
  obtain ⟨p, q, rfl⟩ : ∃ (p : Fin 5000) (q : Fin 6), j = ix2 p q := ⟨j 0, j 1, eq_ix2 j⟩
  show k7_pay1 (iblk7 V c 0 t) (iblk7 V c 1 t) (ix2 p q)
    = (whole (V c (Pipeline.arrRef spec7 0)) (V c (Pipeline.arrRef spec7 1))) (((cfg7.win 2).blk t).view.emb (ix2 p q))
  refine (block_apply (iblk7 V c 0 t) (iblk7 V c 1 t) p q).trans ?_
  rw [eq_ix2 (((cfg7.win 2).blk t).view.emb (ix2 p q))]
  refine Eq.trans ?_ (whole_apply (V c (Pipeline.arrRef spec7 0)) (V c (Pipeline.arrRef spec7 1)) _ _).symm
  have hA : iblk7 V c 0 t (ix2 p q) = V c (Pipeline.arrRef spec7 0)
      (ix2 ((((cfg7.win 2).blk t).view.emb (ix2 p q)) 0) ((((cfg7.win 2).blk t).view.emb (ix2 p q)) 1)) := by
    show V c (Pipeline.arrRef spec7 0) (((cfg7.win 0).blk t).view.emb (ix2 p q)) = _
    refine congrArg _ (funext fun a => Fin.ext ?_)
    match a with
    | ⟨0, _⟩ => show win7_0.index t (0 : Fin 2) * 5000 + 1 * p.val = win7_2.index t (0 : Fin 2) * 5000 + 1 * p.val; omega
    | ⟨1, _⟩ => show win7_0.index t (1 : Fin 2) * 6 + 1 * q.val = win7_2.index t (1 : Fin 2) * 6 + 1 * q.val; omega
  have hB : iblk7 V c 1 t (ix2 (0 : Fin 1) q) = V c (Pipeline.arrRef spec7 1)
      (ix2 (0 : Fin 1) ((((cfg7.win 2).blk t).view.emb (ix2 p q)) 1)) := by
    show V c (Pipeline.arrRef spec7 1) (((cfg7.win 1).blk t).view.emb (ix2 (0 : Fin 1) q)) = _
    refine congrArg _ (funext fun a => Fin.ext ?_)
    match a with
    | ⟨0, _⟩ => show win7_1.index t (0 : Fin 2) * 1 + 1 * 0 = 0; omega
    | ⟨1, _⟩ => show win7_1.index t (1 : Fin 2) * 6 + 1 * q.val = win7_2.index t (1 : Fin 2) * 6 + 1 * q.val; omega
  exact congrArg entry (congrArg₂ (fun a b : EReal => a + b) hA hB)

/-- An index of the result is in point t's block iff each coordinate is in the block's range on its axis. -/
theorem mem_block (t : Fin cfg7.N) (i : S100000x6.Idx) :
    i ∈ ((cfg7.win 2).blk t).view.set ↔ ∀ a : Fin 2, win7_2.index t a * S5000x6.size a ≤ (i a).val ∧ (i a).val < win7_2.index t a * S5000x6.size a + S5000x6.size a := by
  show i ∈ ((View.whole (Pipeline.arrRef spec7 2)).slice (win7_2.rect t)).set ↔ _
  rw [View.set_slice_whole, Rect.mem_set_unit]
  exact Iff.rfl

/-- Row r lies in block r / 5000: the 20 blocks cover the array. -/
theorem covered (i : S100000x6.Idx) :
    ∃ t : Fin cfg7.N, (cfg7.win 2).flush t = true ∧ i ∈ ((cfg7.win 2).blk t).view.set := by
  have hi0 : (i 0).val < 100000 := (i 0).isLt
  have hi1 : (i 1).val < 6 := (i 1).isLt
  have hN : cfg7.N = 20 := N_7
  let t : Fin cfg7.N := ⟨(i 0).val / 5000, by rw [hN]; omega⟩
  obtain ⟨e00, e01, e10, e11, e20, e21⟩ := index_facts t
  have ht : t.val = (i 0).val / 5000 := rfl
  refine ⟨t, flush7_2 t, ?_⟩
  rw [mem_block]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 6 ≤ (i 1).val ∧ (i 1).val < win7_2.index t (1 : Fin 2) * 6 + 6; omega

/-- The array the region leaves: the aggregated array it found plus the bias row it found, under the activation. -/
theorem final (c : Dev nD) :
    (dat7 V c).arrAt 2 cfg7.N = Cert.Net.tanhshrink (Cert.Net.biased4 (V c (Pipeline.arrRef spec7 0)) (V c (Pipeline.arrRef spec7 1))) :=
  ((dat7 V c).arrAt_eq_of_cover 2 _ (fun t _ => flushed_eq V c t) covered).trans (whole_eq _ _)

end Cert.KernelIdeal.Bias4

end
-- ==== Proof.Between4.lean ====
/-
  The host operations between layer 4's product and its bias step.

  From the product s they build the aggregated array — each edge's source index wrapped, the rows of s looked up at the sources,
  scaled by the edge values and added into zeros at the targets — and lay the bias vector out as one row. Read off the list of
  operations, the two buffers the next region takes hold exactly the layer's spread of s and the bias as a row (a reshape
  [6] → [1, 6] and a broadcast of [6] into [1, 6] are the same row).
-/
import proofs.«145258_j55173149885091_1_alg».proof.Proof.Gen.KernelIdeal.Frame
import proofs.«145258_j55173149885091_1_alg».proof.Proof.Layers
import proofs.«145258_j55173149885091_1_alg».proof.Proof.LibAsRow
import Idealize.ShloMosaic.Lib.StableHlo.Run

set_option maxRecDepth 16384

noncomputable section

namespace Cert.KernelIdeal.Between4

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated array the bias step takes is the layer's spread of the product over the edges. -/
theorem aggregated (c : Dev nD) :
    W11 m ρ c (Proc.devRef .tc main_v61) = Cert.Net.spread4 (W10 m ρ c (Proc.devRef .tc main_v48)) (W10 m ρ c (Proc.devRef .tc main_arg1))
      (W10 m ρ c (Proc.devRef .tc main_arg14)) (W10 m ρ c (Proc.devRef .tc main_arg15)) := by
  show StableHlo.after hostOps7 (W10 m ρ c) (Proc.devRef .tc main_v61) = _
  after_results_simp
  rfl

set_option maxHeartbeats 4000000 in
/-- The bias row the bias step takes is the bias vector laid as one row. -/
theorem biasRow (c : Dev nD) :
    W11 m ρ c (Proc.devRef .tc main_v62) = Cert.Net.biasRow4 (W10 m ρ c (Proc.devRef .tc main_arg9)) := by
  show StableHlo.after hostOps7 (W10 m ρ c) (Proc.devRef .tc main_v62) = _
  after_results_simp
  unfold Cert.Net.biasRow4
  rw [Cert.Lib.broadcastInDim_eq_asRow]
  exact Cert.Lib.shapeCast_eq_asRow _ _

end Cert.KernelIdeal.Between4

end
-- ==== Proof.Product5.lean ====
/-
  Layer 5's dense product, block by block.

  The node axis (100000 rows) is cut into 20 blocks of 5000 rows; grid point t multiplies rows 5000·t … 5000·t + 4999 of the
  [100000, 6] operand by the whole [6, 4] weight matrix and writes rows 5000·t … of the [100000, 4] result. Entry (r, q) of
  the result is therefore the sum over k of X(r, k) · W(k, q) whatever block r falls in, and the 20 blocks cover every row:
  the array the region leaves is the whole product X · W.
-/
import proofs.«145258_j55173149885091_1_alg».proof.Proof.Gen.KernelIdeal.Frame
import proofs.«145258_j55173149885091_1_alg».proof.Proof.LibMatDot
import proofs.«145258_j55173149885091_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Rows times columns: entry (r, q) is the sum over k of X(r, k) · W(k, q). -/
def rowsByCols (X : S100000x6.Idx → Elt Ideal .f32) (W : S6x4.Idx → Elt Ideal .f32) : S100000x4.Idx → Elt Ideal .f32 :=
  fun i => ∑ k : Fin 6, X (ix2 (i 0) k) * W (ix2 k (i 1))

theorem zero_offsets : (![0, 0] : Fin 2 → Nat) = fun _ => 0 := funext fun a => by fin_cases a <;> rfl

/-- One block's arithmetic: the product into a zero accumulator, at (p, q), is row p of the block against column q of the weights. -/
theorem block_apply (x0 : Vec Ideal S5000x6 .f32) (x1 : Vec Ideal S6x4 .f32) (p : Fin 5000) (q : Fin 4) :
    k8_pay1 x0 x1 (ix2 p q) = ∑ k : Fin 6, x0 (ix2 p k) * x1 (ix2 k q) := by
  unfold k8_pay1
  rw [shapeCast_self]
  exact Cert.Lib.matmul_plain_zero_apply dot_S5000x6_S6x4_S5000x4_1_0_0_1_n_n_wf none x0 x1 p q

/-- The index maps over the 20 points: the row blocks of the operand and of the result move together, block t at rows 5000·t;
    the weights are one block. -/
theorem index_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

set_option maxHeartbeats 2000000 in
/-- What point t writes back is block t of the whole product. -/
theorem flushed_eq (c : Dev nD) (t : Fin cfg8.N) :
    (dat8 V c).flushed 2 t = ((cfg8.win 2).blk t).view.read (Elt Ideal)
      (rowsByCols (V c (Pipeline.arrRef spec8 0)) (V c (Pipeline.arrRef spec8 1))) := by
  show (cfg8.win 2).cut (grid8.coords t) ((dat8 V c).after 2 t) = _
  rw [after8_2]
  unfold out8_2
  rw [View.canon_unit_zero zero_offsets]
  simp only [View.ld_unit_zero (S := S5000x6) zero_offsets, View.ld_unit_zero (S := S6x4) zero_offsets]
  obtain ⟨e00, e01, e10, e11, e20, e21⟩ := index_facts t
  funext j
  obtain ⟨p, q, rfl⟩ : ∃ (p : Fin 5000) (q : Fin 4), j = ix2 p q := ⟨j 0, j 1, eq_ix2 j⟩
  show k8_pay1 (iblk8 V c 0 t) (iblk8 V c 1 t) (ix2 p q)
    = rowsByCols (V c (Pipeline.arrRef spec8 0)) (V c (Pipeline.arrRef spec8 1)) (((cfg8.win 2).blk t).view.emb (ix2 p q))
  refine (block_apply (iblk8 V c 0 t) (iblk8 V c 1 t) p q).trans ?_
  unfold rowsByCols
  refine Finset.sum_congr rfl fun k _ => ?_
  have hX : iblk8 V c 0 t (ix2 p k) = V c (Pipeline.arrRef spec8 0) (ix2 ((((cfg8.win 2).blk t).view.emb (ix2 p q)) 0) k) := by
    show V c (Pipeline.arrRef spec8 0) (((cfg8.win 0).blk t).view.emb (ix2 p k)) = _
    refine congrArg _ (funext fun a => Fin.ext ?_)
    match a with
    | ⟨0, _⟩ => show win8_0.index t (0 : Fin 2) * 5000 + 1 * p.val = win8_2.index t (0 : Fin 2) * 5000 + 1 * p.val; omega
    | ⟨1, _⟩ => show win8_0.index t (1 : Fin 2) * 6 + 1 * k.val = k.val; omega
  have hW : iblk8 V c 1 t (ix2 k q) = V c (Pipeline.arrRef spec8 1) (ix2 k ((((cfg8.win 2).blk t).view.emb (ix2 p q)) 1)) := by
    show V c (Pipeline.arrRef spec8 1) (((cfg8.win 1).blk t).view.emb (ix2 k q)) = _
    refine congrArg _ (funext fun a => Fin.ext ?_)
    match a with
    | ⟨0, _⟩ => show win8_1.index t (0 : Fin 2) * 6 + 1 * k.val = k.val; omega
    | ⟨1, _⟩ => show win8_1.index t (1 : Fin 2) * 4 + 1 * q.val = win8_2.index t (1 : Fin 2) * 4 + 1 * q.val; omega
  rw [hX, hW]

/-- An index of the result is in point t's block iff each coordinate is in the block's range on its axis. -/
theorem mem_block (t : Fin cfg8.N) (i : S100000x4.Idx) :
    i ∈ ((cfg8.win 2).blk t).view.set ↔ ∀ a : Fin 2, win8_2.index t a * S5000x4.size a ≤ (i a).val ∧ (i a).val < win8_2.index t a * S5000x4.size a + S5000x4.size a := by
  show i ∈ ((View.whole (Pipeline.arrRef spec8 2)).slice (win8_2.rect t)).set ↔ _
  rw [View.set_slice_whole, Rect.mem_set_unit]
  exact Iff.rfl

/-- Row r lies in block r / 5000: the 20 blocks cover the array. -/
theorem covered (i : S100000x4.Idx) :
    ∃ t : Fin cfg8.N, (cfg8.win 2).flush t = true ∧ i ∈ ((cfg8.win 2).blk t).view.set := by
  have hi0 : (i 0).val < 100000 := (i 0).isLt
  have hi1 : (i 1).val < 4 := (i 1).isLt
  have hN : cfg8.N = 20 := N_8
  let t : Fin cfg8.N := ⟨(i 0).val / 5000, by rw [hN]; omega⟩
  obtain ⟨e00, e01, e10, e11, e20, e21⟩ := index_facts t
  have ht : t.val = (i 0).val / 5000 := rfl
  refine ⟨t, flush8_2 t, ?_⟩
  rw [mem_block]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 4 ≤ (i 1).val ∧ (i 1).val < win8_2.index t (1 : Fin 2) * 4 + 4; omega

/-- The array the region leaves is the whole product of the two arrays it found. -/
theorem final (c : Dev nD) :
    (dat8 V c).arrAt 2 cfg8.N = rowsByCols (V c (Pipeline.arrRef spec8 0)) (V c (Pipeline.arrRef spec8 1)) :=
  (dat8 V c).arrAt_eq_of_cover 2 _ (fun t _ => flushed_eq V c t) covered

/-- Rows times columns is the host's product of the two arrays: its contraction, read at (p, q), is the same sum. -/
theorem rowsByCols_eq_dense (X : FVec Ideal S100000x6 .f32) (W : FVec Ideal S6x4 .f32) :
    rowsByCols X W = Cert.Net.dense5 X W := by
  funext i
  obtain ⟨p, q, rfl⟩ : ∃ (p : Fin 100000) (q : Fin 4), i = ix2 p q := ⟨i 0, i 1, eq_ix2 i⟩
  unfold Cert.Net.dense5
  simp only [Host.dotGeneral]
  exact (Cert.Lib.dotGeneral_plain_apply _ none _ X W p q).symm

/-- The array the region leaves is the layer's dense product of the two arrays it found. -/
theorem final_dense (c : Dev nD) :
    (dat8 V c).arrAt 2 cfg8.N = Cert.Net.dense5 (V c (Pipeline.arrRef spec8 0)) (V c (Pipeline.arrRef spec8 1)) :=
  (final V c).trans (rowsByCols_eq_dense _ _)

end Cert.KernelIdeal.Product5

end
-- ==== Proof.Bias5.lean ====
/-
  Layer 5's bias and activation (no activation), block by block.

  Grid point t takes rows 5000·t … 5000·t + 4999 of the aggregated array and the one bias row [1, 4], adds the bias row to
  every row of the block, and writes the same rows of the result. Entry (r, q) of
  the result is therefore f(agg(r, q) + bias(0, q)) whatever block r falls in, and the 20 blocks cover every row: the array
  the region leaves is the whole array agg + bias.
-/
import proofs.«145258_j55173149885091_1_alg».proof.Proof.Gen.KernelIdeal.Frame
import proofs.«145258_j55173149885091_1_alg».proof.Proof.LayersAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What one entry becomes: the sum with the bias entry. -/
def entry : EReal → EReal := (fun v : EReal => v)

theorem zero_offsets : (![0, 0] : Fin 2 → Nat) = fun _ => 0 := funext fun a => by fin_cases a <;> rfl

/-- One block's arithmetic at (p, q): the block's entry plus the bias row's entry q. -/
theorem block_apply (x0 : Vec Ideal S5000x4 .f32) (x1 : Vec Ideal S1x4 .f32) (p : Fin 5000) (q : Fin 4) :
    k9_pay1 x0 x1 (ix2 p q) = entry (x0 (ix2 p q) + x1 (ix2 (0 : Fin 1) q)) := by
  unfold k9_pay1 entry
  rw [shapeCast_self, shapeCast_self]
  show (fun v : EReal => v) (x0 (ix2 p q) + broadcastTo S5000x4 x1 broadcasts_S1x4_S5000x4 (ix2 p q)) = _
  rw [broadcastTo_1b_ab_apply]

/-- The whole array the region leaves, as a function of the two arrays it finds: the aggregated array plus the bias row. -/
def whole (A : FVec Ideal S100000x4 .f32) (B : FVec Ideal S1x4 .f32) : FVec Ideal S100000x4 .f32 :=
  Cert.Net.biased5 A B

theorem whole_eq (A : FVec Ideal S100000x4 .f32) (B : FVec Ideal S1x4 .f32) :
    whole A B = Cert.Net.biased5 A B := rfl

/-- The whole-array form at (r, q): the aggregated entry plus the bias row's entry q. -/
theorem whole_apply (A : FVec Ideal S100000x4 .f32) (B : FVec Ideal S1x4 .f32) (r : Fin 100000) (q : Fin 4) :
    whole A B (ix2 r q) = entry (A (ix2 r q) + B (ix2 (0 : Fin 1) q)) := by
  rw [whole_eq]
  unfold entry
  exact Cert.Net.biased5_apply A B r q

attribute [local irreducible] whole

/-- The index maps over the 20 points: the row blocks of the aggregated array and of the result move together, block t at
    rows 5000·t; the bias row is one block. -/
theorem index_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

set_option maxHeartbeats 2000000 in
/-- What point t writes back is block t of the whole array. -/
theorem flushed_eq (c : Dev nD) (t : Fin cfg9.N) :
    (dat9 V c).flushed 2 t = ((cfg9.win 2).blk t).view.read (Elt Ideal)
      (whole (V c (Pipeline.arrRef spec9 0)) (V c (Pipeline.arrRef spec9 1))) := by
  show (cfg9.win 2).cut (grid9.coords t) ((dat9 V c).after 2 t) = _
  rw [after9_2]
  unfold out9_2
  rw [View.canon_unit_zero zero_offsets]
  simp only [View.ld_unit_zero (S := S5000x4) zero_offsets, View.ld_unit_zero (S := S1x4) zero_offsets]
  obtain ⟨e00, e01, e10, e11, e20, e21⟩ := index_facts t
  funext j
  obtain ⟨p, q, rfl⟩ : ∃ (p : Fin 5000) (q : Fin 4), j = ix2 p q := ⟨j 0, j 1, eq_ix2 j⟩
  show k9_pay1 (iblk9 V c 0 t) (iblk9 V c 1 t) (ix2 p q)
    = (whole (V c (Pipeline.arrRef spec9 0)) (V c (Pipeline.arrRef spec9 1))) (((cfg9.win 2).blk t).view.emb (ix2 p q))
  refine (block_apply (iblk9 V c 0 t) (iblk9 V c 1 t) p q).trans ?_
  rw [eq_ix2 (((cfg9.win 2).blk t).view.emb (ix2 p q))]
  refine Eq.trans ?_ (whole_apply (V c (Pipeline.arrRef spec9 0)) (V c (Pipeline.arrRef spec9 1)) _ _).symm
  have hA : iblk9 V c 0 t (ix2 p q) = V c (Pipeline.arrRef spec9 0)
      (ix2 ((((cfg9.win 2).blk t).view.emb (ix2 p q)) 0) ((((cfg9.win 2).blk t).view.emb (ix2 p q)) 1)) := by
    show V c (Pipeline.arrRef spec9 0) (((cfg9.win 0).blk t).view.emb (ix2 p q)) = _
    refine congrArg _ (funext fun a => Fin.ext ?_)
    match a with
    | ⟨0, _⟩ => show win9_0.index t (0 : Fin 2) * 5000 + 1 * p.val = win9_2.index t (0 : Fin 2) * 5000 + 1 * p.val; omega
    | ⟨1, _⟩ => show win9_0.index t (1 : Fin 2) * 4 + 1 * q.val = win9_2.index t (1 : Fin 2) * 4 + 1 * q.val; omega
  have hB : iblk9 V c 1 t (ix2 (0 : Fin 1) q) = V c (Pipeline.arrRef spec9 1)
      (ix2 (0 : Fin 1) ((((cfg9.win 2).blk t).view.emb (ix2 p q)) 1)) := by
    show V c (Pipeline.arrRef spec9 1) (((cfg9.win 1).blk t).view.emb (ix2 (0 : Fin 1) q)) = _
    refine congrArg _ (funext fun a => Fin.ext ?_)
    match a with
    | ⟨0, _⟩ => show win9_1.index t (0 : Fin 2) * 1 + 1 * 0 = 0; omega
    | ⟨1, _⟩ => show win9_1.index t (1 : Fin 2) * 4 + 1 * q.val = win9_2.index t (1 : Fin 2) * 4 + 1 * q.val; omega
  exact congrArg entry (congrArg₂ (fun a b : EReal => a + b) hA hB)

/-- An index of the result is in point t's block iff each coordinate is in the block's range on its axis. -/
theorem mem_block (t : Fin cfg9.N) (i : S100000x4.Idx) :
    i ∈ ((cfg9.win 2).blk t).view.set ↔ ∀ a : Fin 2, win9_2.index t a * S5000x4.size a ≤ (i a).val ∧ (i a).val < win9_2.index t a * S5000x4.size a + S5000x4.size a := by
  show i ∈ ((View.whole (Pipeline.arrRef spec9 2)).slice (win9_2.rect t)).set ↔ _
  rw [View.set_slice_whole, Rect.mem_set_unit]
  exact Iff.rfl

/-- Row r lies in block r / 5000: the 20 blocks cover the array. -/
theorem covered (i : S100000x4.Idx) :
    ∃ t : Fin cfg9.N, (cfg9.win 2).flush t = true ∧ i ∈ ((cfg9.win 2).blk t).view.set := by
  have hi0 : (i 0).val < 100000 := (i 0).isLt
  have hi1 : (i 1).val < 4 := (i 1).isLt
  have hN : cfg9.N = 20 := N_9
  let t : Fin cfg9.N := ⟨(i 0).val / 5000, by rw [hN]; omega⟩
  obtain ⟨e00, e01, e10, e11, e20, e21⟩ := index_facts t
  have ht : t.val = (i 0).val / 5000 := rfl
  refine ⟨t, flush9_2 t, ?_⟩
  rw [mem_block]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 4 ≤ (i 1).val ∧ (i 1).val < win9_2.index t (1 : Fin 2) * 4 + 4; omega

/-- The array the region leaves: the aggregated array it found plus the bias row it found. -/
theorem final (c : Dev nD) :
    (dat9 V c).arrAt 2 cfg9.N = Cert.Net.biased5 (V c (Pipeline.arrRef spec9 0)) (V c (Pipeline.arrRef spec9 1)) :=
  ((dat9 V c).arrAt_eq_of_cover 2 _ (fun t _ => flushed_eq V c t) covered).trans (whole_eq _ _)

end Cert.KernelIdeal.Bias5

end
-- ==== Proof.Between5.lean ====
/-
  The host operations between layer 5's product and its bias step.

  From the product s they build the aggregated array — each edge's source index wrapped, the rows of s looked up at the sources,
  scaled by the edge values and added into zeros at the targets — and lay the bias vector out as one row. Read off the list of
  operations, the two buffers the next region takes hold exactly the layer's spread of s and the bias as a row (a reshape
  [4] → [1, 4] and a broadcast of [4] into [1, 4] are the same row).
-/
import proofs.«145258_j55173149885091_1_alg».proof.Proof.Gen.KernelIdeal.Frame
import proofs.«145258_j55173149885091_1_alg».proof.Proof.Layers
import proofs.«145258_j55173149885091_1_alg».proof.Proof.LibAsRow
import Idealize.ShloMosaic.Lib.StableHlo.Run

set_option maxRecDepth 16384

noncomputable section

namespace Cert.KernelIdeal.Between5

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated array the bias step takes is the layer's spread of the product over the edges. -/
theorem aggregated (c : Dev nD) :
    W14 m ρ c (Proc.devRef .tc main_v77) = Cert.Net.spread5 (W13 m ρ c (Proc.devRef .tc main_v64)) (W13 m ρ c (Proc.devRef .tc main_arg1))
      (W13 m ρ c (Proc.devRef .tc main_arg14)) (W13 m ρ c (Proc.devRef .tc main_arg15)) := by
  show StableHlo.after hostOps9 (W13 m ρ c) (Proc.devRef .tc main_v77) = _
  after_results_simp
  rfl

set_option maxHeartbeats 4000000 in
/-- The bias row the bias step takes is the bias vector laid as one row. -/
theorem biasRow (c : Dev nD) :
    W14 m ρ c (Proc.devRef .tc main_v78) = Cert.Net.biasRow5 (W13 m ρ c (Proc.devRef .tc main_arg11)) := by
  show StableHlo.after hostOps9 (W13 m ρ c) (Proc.devRef .tc main_v78) = _
  after_results_simp
  unfold Cert.Net.biasRow5
  rw [Cert.Lib.broadcastInDim_eq_asRow]
  exact Cert.Lib.shapeCast_eq_asRow _ _

end Cert.KernelIdeal.Between5

end
-- ==== Proof.Product6.lean ====
/-
  Layer 6's dense product, block by block.

  The node axis (100000 rows) is cut into 20 blocks of 5000 rows; grid point t multiplies rows 5000·t … 5000·t + 4999 of the
  [100000, 4] operand by the whole [4, 7] weight matrix and writes rows 5000·t … of the [100000, 7] result. Entry (r, q) of
  the result is therefore the sum over k of X(r, k) · W(k, q) whatever block r falls in, and the 20 blocks cover every row:
  the array the region leaves is the whole product X · W.
-/
import proofs.«145258_j55173149885091_1_alg».proof.Proof.Gen.KernelIdeal.Frame
import proofs.«145258_j55173149885091_1_alg».proof.Proof.LibMatDot
import proofs.«145258_j55173149885091_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Rows times columns: entry (r, q) is the sum over k of X(r, k) · W(k, q). -/
def rowsByCols (X : S100000x4.Idx → Elt Ideal .f32) (W : S4x7.Idx → Elt Ideal .f32) : S100000x7.Idx → Elt Ideal .f32 :=
  fun i => ∑ k : Fin 4, X (ix2 (i 0) k) * W (ix2 k (i 1))

theorem zero_offsets : (![0, 0] : Fin 2 → Nat) = fun _ => 0 := funext fun a => by fin_cases a <;> rfl

/-- One block's arithmetic: the product into a zero accumulator, at (p, q), is row p of the block against column q of the weights. -/
theorem block_apply (x0 : Vec Ideal S5000x4 .f32) (x1 : Vec Ideal S4x7 .f32) (p : Fin 5000) (q : Fin 7) :
    k10_pay1 x0 x1 (ix2 p q) = ∑ k : Fin 4, x0 (ix2 p k) * x1 (ix2 k q) := by
  unfold k10_pay1
  rw [shapeCast_self]
  exact Cert.Lib.matmul_plain_zero_apply dot_S5000x4_S4x7_S5000x7_1_0_0_1_n_n_wf none x0 x1 p q

/-- The index maps over the 20 points: the row blocks of the operand and of the result move together, block t at rows 5000·t;
    the weights are one block. -/
theorem index_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

set_option maxHeartbeats 2000000 in
/-- What point t writes back is block t of the whole product. -/
theorem flushed_eq (c : Dev nD) (t : Fin cfg10.N) :
    (dat10 V c).flushed 2 t = ((cfg10.win 2).blk t).view.read (Elt Ideal)
      (rowsByCols (V c (Pipeline.arrRef spec10 0)) (V c (Pipeline.arrRef spec10 1))) := by
  show (cfg10.win 2).cut (grid10.coords t) ((dat10 V c).after 2 t) = _
  rw [after10_2]
  unfold out10_2
  rw [View.canon_unit_zero zero_offsets]
  simp only [View.ld_unit_zero (S := S5000x4) zero_offsets, View.ld_unit_zero (S := S4x7) zero_offsets]
  obtain ⟨e00, e01, e10, e11, e20, e21⟩ := index_facts t
  funext j
  obtain ⟨p, q, rfl⟩ : ∃ (p : Fin 5000) (q : Fin 7), j = ix2 p q := ⟨j 0, j 1, eq_ix2 j⟩
  show k10_pay1 (iblk10 V c 0 t) (iblk10 V c 1 t) (ix2 p q)
    = rowsByCols (V c (Pipeline.arrRef spec10 0)) (V c (Pipeline.arrRef spec10 1)) (((cfg10.win 2).blk t).view.emb (ix2 p q))
  refine (block_apply (iblk10 V c 0 t) (iblk10 V c 1 t) p q).trans ?_
  unfold rowsByCols
  refine Finset.sum_congr rfl fun k _ => ?_
  have hX : iblk10 V c 0 t (ix2 p k) = V c (Pipeline.arrRef spec10 0) (ix2 ((((cfg10.win 2).blk t).view.emb (ix2 p q)) 0) k) := by
    show V c (Pipeline.arrRef spec10 0) (((cfg10.win 0).blk t).view.emb (ix2 p k)) = _
    refine congrArg _ (funext fun a => Fin.ext ?_)
    match a with
    | ⟨0, _⟩ => show win10_0.index t (0 : Fin 2) * 5000 + 1 * p.val = win10_2.index t (0 : Fin 2) * 5000 + 1 * p.val; omega
    | ⟨1, _⟩ => show win10_0.index t (1 : Fin 2) * 4 + 1 * k.val = k.val; omega
  have hW : iblk10 V c 1 t (ix2 k q) = V c (Pipeline.arrRef spec10 1) (ix2 k ((((cfg10.win 2).blk t).view.emb (ix2 p q)) 1)) := by
    show V c (Pipeline.arrRef spec10 1) (((cfg10.win 1).blk t).view.emb (ix2 k q)) = _
    refine congrArg _ (funext fun a => Fin.ext ?_)
    match a with
    | ⟨0, _⟩ => show win10_1.index t (0 : Fin 2) * 4 + 1 * k.val = k.val; omega
    | ⟨1, _⟩ => show win10_1.index t (1 : Fin 2) * 7 + 1 * q.val = win10_2.index t (1 : Fin 2) * 7 + 1 * q.val; omega
  rw [hX, hW]

/-- An index of the result is in point t's block iff each coordinate is in the block's range on its axis. -/
theorem mem_block (t : Fin cfg10.N) (i : S100000x7.Idx) :
    i ∈ ((cfg10.win 2).blk t).view.set ↔ ∀ a : Fin 2, win10_2.index t a * S5000x7.size a ≤ (i a).val ∧ (i a).val < win10_2.index t a * S5000x7.size a + S5000x7.size a := by
  show i ∈ ((View.whole (Pipeline.arrRef spec10 2)).slice (win10_2.rect t)).set ↔ _
  rw [View.set_slice_whole, Rect.mem_set_unit]
  exact Iff.rfl

/-- Row r lies in block r / 5000: the 20 blocks cover the array. -/
theorem covered (i : S100000x7.Idx) :
    ∃ t : Fin cfg10.N, (cfg10.win 2).flush t = true ∧ i ∈ ((cfg10.win 2).blk t).view.set := by
  have hi0 : (i 0).val < 100000 := (i 0).isLt
  have hi1 : (i 1).val < 7 := (i 1).isLt
  have hN : cfg10.N = 20 := N_10
  let t : Fin cfg10.N := ⟨(i 0).val / 5000, by rw [hN]; omega⟩
  obtain ⟨e00, e01, e10, e11, e20, e21⟩ := index_facts t
  have ht : t.val = (i 0).val / 5000 := rfl
  refine ⟨t, flush10_2 t, ?_⟩
  rw [mem_block]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 7 ≤ (i 1).val ∧ (i 1).val < win10_2.index t (1 : Fin 2) * 7 + 7; omega

/-- The array the region leaves is the whole product of the two arrays it found. -/
theorem final (c : Dev nD) :
    (dat10 V c).arrAt 2 cfg10.N = rowsByCols (V c (Pipeline.arrRef spec10 0)) (V c (Pipeline.arrRef spec10 1)) :=
  (dat10 V c).arrAt_eq_of_cover 2 _ (fun t _ => flushed_eq V c t) covered

/-- Rows times columns is the host's product of the two arrays: its contraction, read at (p, q), is the same sum. -/
theorem rowsByCols_eq_dense (X : FVec Ideal S100000x4 .f32) (W : FVec Ideal S4x7 .f32) :
    rowsByCols X W = Cert.Net.dense6 X W := by
  funext i
  obtain ⟨p, q, rfl⟩ : ∃ (p : Fin 100000) (q : Fin 7), i = ix2 p q := ⟨i 0, i 1, eq_ix2 i⟩
  unfold Cert.Net.dense6
  simp only [Host.dotGeneral]
  exact (Cert.Lib.dotGeneral_plain_apply _ none _ X W p q).symm

/-- The array the region leaves is the layer's dense product of the two arrays it found. -/
theorem final_dense (c : Dev nD) :
    (dat10 V c).arrAt 2 cfg10.N = Cert.Net.dense6 (V c (Pipeline.arrRef spec10 0)) (V c (Pipeline.arrRef spec10 1)) :=
  (final V c).trans (rowsByCols_eq_dense _ _)

end Cert.KernelIdeal.Product6

end
-- ==== Proof.Bias6.lean ====
/-
  Layer 6's bias and activation (no activation), block by block.

  Grid point t takes rows 5000·t … 5000·t + 4999 of the aggregated array and the one bias row [1, 7], adds the bias row to
  every row of the block, and writes the same rows of the result. Entry (r, q) of
  the result is therefore f(agg(r, q) + bias(0, q)) whatever block r falls in, and the 20 blocks cover every row: the array
  the region leaves is the whole array agg + bias.
-/
import proofs.«145258_j55173149885091_1_alg».proof.Proof.Gen.KernelIdeal.Frame
import proofs.«145258_j55173149885091_1_alg».proof.Proof.LayersAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What one entry becomes: the sum with the bias entry. -/
def entry : EReal → EReal := (fun v : EReal => v)

theorem zero_offsets : (![0, 0] : Fin 2 → Nat) = fun _ => 0 := funext fun a => by fin_cases a <;> rfl

/-- One block's arithmetic at (p, q): the block's entry plus the bias row's entry q. -/
theorem block_apply (x0 : Vec Ideal S5000x7 .f32) (x1 : Vec Ideal S1x7 .f32) (p : Fin 5000) (q : Fin 7) :
    k11_pay1 x0 x1 (ix2 p q) = entry (x0 (ix2 p q) + x1 (ix2 (0 : Fin 1) q)) := by
  unfold k11_pay1 entry
  rw [shapeCast_self, shapeCast_self]
  show (fun v : EReal => v) (x0 (ix2 p q) + broadcastTo S5000x7 x1 broadcasts_S1x7_S5000x7 (ix2 p q)) = _
  rw [broadcastTo_1b_ab_apply]

/-- The whole array the region leaves, as a function of the two arrays it finds: the aggregated array plus the bias row. -/
def whole (A : FVec Ideal S100000x7 .f32) (B : FVec Ideal S1x7 .f32) : FVec Ideal S100000x7 .f32 :=
  Cert.Net.biased6 A B

theorem whole_eq (A : FVec Ideal S100000x7 .f32) (B : FVec Ideal S1x7 .f32) :
    whole A B = Cert.Net.biased6 A B := rfl

/-- The whole-array form at (r, q): the aggregated entry plus the bias row's entry q. -/
theorem whole_apply (A : FVec Ideal S100000x7 .f32) (B : FVec Ideal S1x7 .f32) (r : Fin 100000) (q : Fin 7) :
    whole A B (ix2 r q) = entry (A (ix2 r q) + B (ix2 (0 : Fin 1) q)) := by
  rw [whole_eq]
  unfold entry
  exact Cert.Net.biased6_apply A B r q

attribute [local irreducible] whole

/-- The index maps over the 20 points: the row blocks of the aggregated array and of the result move together, block t at
    rows 5000·t; the bias row is one block. -/
theorem index_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

set_option maxHeartbeats 2000000 in
/-- What point t writes back is block t of the whole array. -/
theorem flushed_eq (c : Dev nD) (t : Fin cfg11.N) :
    (dat11 V c).flushed 2 t = ((cfg11.win 2).blk t).view.read (Elt Ideal)
      (whole (V c (Pipeline.arrRef spec11 0)) (V c (Pipeline.arrRef spec11 1))) := by
  show (cfg11.win 2).cut (grid11.coords t) ((dat11 V c).after 2 t) = _
  rw [after11_2]
  unfold out11_2
  rw [View.canon_unit_zero zero_offsets]
  simp only [View.ld_unit_zero (S := S5000x7) zero_offsets, View.ld_unit_zero (S := S1x7) zero_offsets]
  obtain ⟨e00, e01, e10, e11, e20, e21⟩ := index_facts t
  funext j
  obtain ⟨p, q, rfl⟩ : ∃ (p : Fin 5000) (q : Fin 7), j = ix2 p q := ⟨j 0, j 1, eq_ix2 j⟩
  show k11_pay1 (iblk11 V c 0 t) (iblk11 V c 1 t) (ix2 p q)
    = (whole (V c (Pipeline.arrRef spec11 0)) (V c (Pipeline.arrRef spec11 1))) (((cfg11.win 2).blk t).view.emb (ix2 p q))
  refine (block_apply (iblk11 V c 0 t) (iblk11 V c 1 t) p q).trans ?_
  rw [eq_ix2 (((cfg11.win 2).blk t).view.emb (ix2 p q))]
  refine Eq.trans ?_ (whole_apply (V c (Pipeline.arrRef spec11 0)) (V c (Pipeline.arrRef spec11 1)) _ _).symm
  have hA : iblk11 V c 0 t (ix2 p q) = V c (Pipeline.arrRef spec11 0)
      (ix2 ((((cfg11.win 2).blk t).view.emb (ix2 p q)) 0) ((((cfg11.win 2).blk t).view.emb (ix2 p q)) 1)) := by
    show V c (Pipeline.arrRef spec11 0) (((cfg11.win 0).blk t).view.emb (ix2 p q)) = _
    refine congrArg _ (funext fun a => Fin.ext ?_)
    match a with
    | ⟨0, _⟩ => show win11_0.index t (0 : Fin 2) * 5000 + 1 * p.val = win11_2.index t (0 : Fin 2) * 5000 + 1 * p.val; omega
    | ⟨1, _⟩ => show win11_0.index t (1 : Fin 2) * 7 + 1 * q.val = win11_2.index t (1 : Fin 2) * 7 + 1 * q.val; omega
  have hB : iblk11 V c 1 t (ix2 (0 : Fin 1) q) = V c (Pipeline.arrRef spec11 1)
      (ix2 (0 : Fin 1) ((((cfg11.win 2).blk t).view.emb (ix2 p q)) 1)) := by
    show V c (Pipeline.arrRef spec11 1) (((cfg11.win 1).blk t).view.emb (ix2 (0 : Fin 1) q)) = _
    refine congrArg _ (funext fun a => Fin.ext ?_)
    match a with
    | ⟨0, _⟩ => show win11_1.index t (0 : Fin 2) * 1 + 1 * 0 = 0; omega
    | ⟨1, _⟩ => show win11_1.index t (1 : Fin 2) * 7 + 1 * q.val = win11_2.index t (1 : Fin 2) * 7 + 1 * q.val; omega
  exact congrArg entry (congrArg₂ (fun a b : EReal => a + b) hA hB)

/-- An index of the result is in point t's block iff each coordinate is in the block's range on its axis. -/
theorem mem_block (t : Fin cfg11.N) (i : S100000x7.Idx) :
    i ∈ ((cfg11.win 2).blk t).view.set ↔ ∀ a : Fin 2, win11_2.index t a * S5000x7.size a ≤ (i a).val ∧ (i a).val < win11_2.index t a * S5000x7.size a + S5000x7.size a := by
  show i ∈ ((View.whole (Pipeline.arrRef spec11 2)).slice (win11_2.rect t)).set ↔ _
  rw [View.set_slice_whole, Rect.mem_set_unit]
  exact Iff.rfl

/-- Row r lies in block r / 5000: the 20 blocks cover the array. -/
theorem covered (i : S100000x7.Idx) :
    ∃ t : Fin cfg11.N, (cfg11.win 2).flush t = true ∧ i ∈ ((cfg11.win 2).blk t).view.set := by
  have hi0 : (i 0).val < 100000 := (i 0).isLt
  have hi1 : (i 1).val < 7 := (i 1).isLt
  have hN : cfg11.N = 20 := N_11
  let t : Fin cfg11.N := ⟨(i 0).val / 5000, by rw [hN]; omega⟩
  obtain ⟨e00, e01, e10, e11, e20, e21⟩ := index_facts t
  have ht : t.val = (i 0).val / 5000 := rfl
  refine ⟨t, flush11_2 t, ?_⟩
  rw [mem_block]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 7 ≤ (i 1).val ∧ (i 1).val < win11_2.index t (1 : Fin 2) * 7 + 7; omega

/-- The array the region leaves: the aggregated array it found plus the bias row it found. -/
theorem final (c : Dev nD) :
    (dat11 V c).arrAt 2 cfg11.N = Cert.Net.biased6 (V c (Pipeline.arrRef spec11 0)) (V c (Pipeline.arrRef spec11 1)) :=
  ((dat11 V c).arrAt_eq_of_cover 2 _ (fun t _ => flushed_eq V c t) covered).trans (whole_eq _ _)

end Cert.KernelIdeal.Bias6

end
-- ==== Proof.Between6.lean ====
/-
  The host operations between layer 6's product and its bias step.

  From the product s they build the aggregated array — each edge's source index wrapped, the rows of s looked up at the sources,
  scaled by the edge values and added into zeros at the targets — and lay the bias vector out as one row. Read off the list of
  operations, the two buffers the next region takes hold exactly the layer's spread of s and the bias as a row (a reshape
  [7] → [1, 7] and a broadcast of [7] into [1, 7] are the same row).
-/
import proofs.«145258_j55173149885091_1_alg».proof.Proof.Gen.KernelIdeal.Frame
import proofs.«145258_j55173149885091_1_alg».proof.Proof.Layers
import proofs.«145258_j55173149885091_1_alg».proof.Proof.LibAsRow
import Idealize.ShloMosaic.Lib.StableHlo.Run

set_option maxRecDepth 16384

noncomputable section

namespace Cert.KernelIdeal.Between6

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated array the bias step takes is the layer's spread of the product over the edges. -/
theorem aggregated (c : Dev nD) :
    W17 m ρ c (Proc.devRef .tc main_v93) = Cert.Net.spread6 (W16 m ρ c (Proc.devRef .tc main_v80)) (W16 m ρ c (Proc.devRef .tc main_arg1))
      (W16 m ρ c (Proc.devRef .tc main_arg14)) (W16 m ρ c (Proc.devRef .tc main_arg15)) := by
  show StableHlo.after hostOps11 (W16 m ρ c) (Proc.devRef .tc main_v93) = _
  after_results_simp
  rfl

set_option maxHeartbeats 4000000 in
/-- The bias row the bias step takes is the bias vector laid as one row. -/
theorem biasRow (c : Dev nD) :
    W17 m ρ c (Proc.devRef .tc main_v94) = Cert.Net.biasRow6 (W16 m ρ c (Proc.devRef .tc main_arg13)) := by
  show StableHlo.after hostOps11 (W16 m ρ c) (Proc.devRef .tc main_v94) = _
  after_results_simp
  unfold Cert.Net.biasRow6
  rw [Cert.Lib.broadcastInDim_eq_asRow]
  exact Cert.Lib.shapeCast_eq_asRow _ _

end Cert.KernelIdeal.Between6

end
-- ==== Proof.KeptEdges.lean ====
/-
  The edge list (values, sources, targets) is as launched at every boundary where a stretch of host operations reads it.

  No host operation writes an argument's buffer and no region has it as an output, so at every boundary of @main it still
  holds what it held at launch: each step back through the fold — a region's exit to its entry, a stretch of host operations
  to the contents before it — leaves the buffer alone.
-/
import proofs.«145258_j55173149885091_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## argument 1, up to boundary 16 -/

theorem arg1_at1 (c : Dev nD) : W1 m ρ c (Proc.devRef .tc main_arg1) = m ((c : Thread nD τ).loc main_arg1) :=
  (W1_of_ne m ρ c main_arg1 (by decide)).trans rfl
theorem arg1_at2 (c : Dev nD) : W2 m ρ c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg1_at1 m ρ c)
theorem arg1_at3 (c : Dev nD) : W3 m ρ c (Proc.devRef .tc main_arg1) = m ((c : Thread nD τ).loc main_arg1) :=
  (W3_of_ne m ρ c main_arg1 (by decide)).trans (arg1_at2 m ρ c)
theorem arg1_at4 (c : Dev nD) : W4 m ρ c (Proc.devRef .tc main_arg1) = m ((c : Thread nD τ).loc main_arg1) :=
  (W4_of_ne m ρ c main_arg1 (by decide)).trans (arg1_at3 m ρ c)
theorem arg1_at5 (c : Dev nD) : W5 m ρ c (Proc.devRef .tc main_arg1) = m ((c : Thread nD τ).loc main_arg1) :=
  (StableHlo.after_of_forall_not_mem (b := Proc.devRef .tc main_arg1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg1_at4 m ρ c)
theorem arg1_at6 (c : Dev nD) : W6 m ρ c (Proc.devRef .tc main_arg1) = m ((c : Thread nD τ).loc main_arg1) :=
  (W6_of_ne m ρ c main_arg1 (by decide)).trans (arg1_at5 m ρ c)
theorem arg1_at7 (c : Dev nD) : W7 m ρ c (Proc.devRef .tc main_arg1) = m ((c : Thread nD τ).loc main_arg1) :=
  (W7_of_ne m ρ c main_arg1 (by decide)).trans (arg1_at6 m ρ c)
theorem arg1_at8 (c : Dev nD) : W8 m ρ c (Proc.devRef .tc main_arg1) = m ((c : Thread nD τ).loc main_arg1) :=
  (StableHlo.after_of_forall_not_mem (b := Proc.devRef .tc main_arg1) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg1_at7 m ρ c)
theorem arg1_at9 (c : Dev nD) : W9 m ρ c (Proc.devRef .tc main_arg1) = m ((c : Thread nD τ).loc main_arg1) :=
  (W9_of_ne m ρ c main_arg1 (by decide)).trans (arg1_at8 m ρ c)
theorem arg1_at10 (c : Dev nD) : W10 m ρ c (Proc.devRef .tc main_arg1) = m ((c : Thread nD τ).loc main_arg1) :=
  (W10_of_ne m ρ c main_arg1 (by decide)).trans (arg1_at9 m ρ c)
theorem arg1_at11 (c : Dev nD) : W11 m ρ c (Proc.devRef .tc main_arg1) = m ((c : Thread nD τ).loc main_arg1) :=
  (StableHlo.after_of_forall_not_mem (b := Proc.devRef .tc main_arg1) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg1_at10 m ρ c)
theorem arg1_at12 (c : Dev nD) : W12 m ρ c (Proc.devRef .tc main_arg1) = m ((c : Thread nD τ).loc main_arg1) :=
  (W12_of_ne m ρ c main_arg1 (by decide)).trans (arg1_at11 m ρ c)
theorem arg1_at13 (c : Dev nD) : W13 m ρ c (Proc.devRef .tc main_arg1) = m ((c : Thread nD τ).loc main_arg1) :=
  (W13_of_ne m ρ c main_arg1 (by decide)).trans (arg1_at12 m ρ c)
theorem arg1_at14 (c : Dev nD) : W14 m ρ c (Proc.devRef .tc main_arg1) = m ((c : Thread nD τ).loc main_arg1) :=
  (StableHlo.after_of_forall_not_mem (b := Proc.devRef .tc main_arg1) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg1_at13 m ρ c)
theorem arg1_at15 (c : Dev nD) : W15 m ρ c (Proc.devRef .tc main_arg1) = m ((c : Thread nD τ).loc main_arg1) :=
  (W15_of_ne m ρ c main_arg1 (by decide)).trans (arg1_at14 m ρ c)
theorem arg1_at16 (c : Dev nD) : W16 m ρ c (Proc.devRef .tc main_arg1) = m ((c : Thread nD τ).loc main_arg1) :=
  (W16_of_ne m ρ c main_arg1 (by decide)).trans (arg1_at15 m ρ c)

/-! ## argument 14, up to boundary 16 -/

theorem arg14_at1 (c : Dev nD) : W1 m ρ c (Proc.devRef .tc main_arg14) = m ((c : Thread nD τ).loc main_arg14) :=
  (W1_of_ne m ρ c main_arg14 (by decide)).trans rfl
theorem arg14_at2 (c : Dev nD) : W2 m ρ c (Proc.devRef .tc main_arg14) = m ((c : Thread nD τ).loc main_arg14) :=
  (StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg14_at1 m ρ c)
theorem arg14_at3 (c : Dev nD) : W3 m ρ c (Proc.devRef .tc main_arg14) = m ((c : Thread nD τ).loc main_arg14) :=
  (W3_of_ne m ρ c main_arg14 (by decide)).trans (arg14_at2 m ρ c)
theorem arg14_at4 (c : Dev nD) : W4 m ρ c (Proc.devRef .tc main_arg14) = m ((c : Thread nD τ).loc main_arg14) :=
  (W4_of_ne m ρ c main_arg14 (by decide)).trans (arg14_at3 m ρ c)
theorem arg14_at5 (c : Dev nD) : W5 m ρ c (Proc.devRef .tc main_arg14) = m ((c : Thread nD τ).loc main_arg14) :=
  (StableHlo.after_of_forall_not_mem (b := Proc.devRef .tc main_arg14) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg14_at4 m ρ c)
theorem arg14_at6 (c : Dev nD) : W6 m ρ c (Proc.devRef .tc main_arg14) = m ((c : Thread nD τ).loc main_arg14) :=
  (W6_of_ne m ρ c main_arg14 (by decide)).trans (arg14_at5 m ρ c)
theorem arg14_at7 (c : Dev nD) : W7 m ρ c (Proc.devRef .tc main_arg14) = m ((c : Thread nD τ).loc main_arg14) :=
  (W7_of_ne m ρ c main_arg14 (by decide)).trans (arg14_at6 m ρ c)
theorem arg14_at8 (c : Dev nD) : W8 m ρ c (Proc.devRef .tc main_arg14) = m ((c : Thread nD τ).loc main_arg14) :=
  (StableHlo.after_of_forall_not_mem (b := Proc.devRef .tc main_arg14) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg14_at7 m ρ c)
theorem arg14_at9 (c : Dev nD) : W9 m ρ c (Proc.devRef .tc main_arg14) = m ((c : Thread nD τ).loc main_arg14) :=
  (W9_of_ne m ρ c main_arg14 (by decide)).trans (arg14_at8 m ρ c)
theorem arg14_at10 (c : Dev nD) : W10 m ρ c (Proc.devRef .tc main_arg14) = m ((c : Thread nD τ).loc main_arg14) :=
  (W10_of_ne m ρ c main_arg14 (by decide)).trans (arg14_at9 m ρ c)
theorem arg14_at11 (c : Dev nD) : W11 m ρ c (Proc.devRef .tc main_arg14) = m ((c : Thread nD τ).loc main_arg14) :=
  (StableHlo.after_of_forall_not_mem (b := Proc.devRef .tc main_arg14) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg14_at10 m ρ c)
theorem arg14_at12 (c : Dev nD) : W12 m ρ c (Proc.devRef .tc main_arg14) = m ((c : Thread nD τ).loc main_arg14) :=
  (W12_of_ne m ρ c main_arg14 (by decide)).trans (arg14_at11 m ρ c)
theorem arg14_at13 (c : Dev nD) : W13 m ρ c (Proc.devRef .tc main_arg14) = m ((c : Thread nD τ).loc main_arg14) :=
  (W13_of_ne m ρ c main_arg14 (by decide)).trans (arg14_at12 m ρ c)
theorem arg14_at14 (c : Dev nD) : W14 m ρ c (Proc.devRef .tc main_arg14) = m ((c : Thread nD τ).loc main_arg14) :=
  (StableHlo.after_of_forall_not_mem (b := Proc.devRef .tc main_arg14) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg14_at13 m ρ c)
theorem arg14_at15 (c : Dev nD) : W15 m ρ c (Proc.devRef .tc main_arg14) = m ((c : Thread nD τ).loc main_arg14) :=
  (W15_of_ne m ρ c main_arg14 (by decide)).trans (arg14_at14 m ρ c)
theorem arg14_at16 (c : Dev nD) : W16 m ρ c (Proc.devRef .tc main_arg14) = m ((c : Thread nD τ).loc main_arg14) :=
  (W16_of_ne m ρ c main_arg14 (by decide)).trans (arg14_at15 m ρ c)

/-! ## argument 15, up to boundary 16 -/

theorem arg15_at1 (c : Dev nD) : W1 m ρ c (Proc.devRef .tc main_arg15) = m ((c : Thread nD τ).loc main_arg15) :=
  (W1_of_ne m ρ c main_arg15 (by decide)).trans rfl
theorem arg15_at2 (c : Dev nD) : W2 m ρ c (Proc.devRef .tc main_arg15) = m ((c : Thread nD τ).loc main_arg15) :=
  (StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg15_at1 m ρ c)
theorem arg15_at3 (c : Dev nD) : W3 m ρ c (Proc.devRef .tc main_arg15) = m ((c : Thread nD τ).loc main_arg15) :=
  (W3_of_ne m ρ c main_arg15 (by decide)).trans (arg15_at2 m ρ c)
theorem arg15_at4 (c : Dev nD) : W4 m ρ c (Proc.devRef .tc main_arg15) = m ((c : Thread nD τ).loc main_arg15) :=
  (W4_of_ne m ρ c main_arg15 (by decide)).trans (arg15_at3 m ρ c)
theorem arg15_at5 (c : Dev nD) : W5 m ρ c (Proc.devRef .tc main_arg15) = m ((c : Thread nD τ).loc main_arg15) :=
  (StableHlo.after_of_forall_not_mem (b := Proc.devRef .tc main_arg15) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg15_at4 m ρ c)
theorem arg15_at6 (c : Dev nD) : W6 m ρ c (Proc.devRef .tc main_arg15) = m ((c : Thread nD τ).loc main_arg15) :=
  (W6_of_ne m ρ c main_arg15 (by decide)).trans (arg15_at5 m ρ c)
theorem arg15_at7 (c : Dev nD) : W7 m ρ c (Proc.devRef .tc main_arg15) = m ((c : Thread nD τ).loc main_arg15) :=
  (W7_of_ne m ρ c main_arg15 (by decide)).trans (arg15_at6 m ρ c)
theorem arg15_at8 (c : Dev nD) : W8 m ρ c (Proc.devRef .tc main_arg15) = m ((c : Thread nD τ).loc main_arg15) :=
  (StableHlo.after_of_forall_not_mem (b := Proc.devRef .tc main_arg15) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg15_at7 m ρ c)
theorem arg15_at9 (c : Dev nD) : W9 m ρ c (Proc.devRef .tc main_arg15) = m ((c : Thread nD τ).loc main_arg15) :=
  (W9_of_ne m ρ c main_arg15 (by decide)).trans (arg15_at8 m ρ c)
theorem arg15_at10 (c : Dev nD) : W10 m ρ c (Proc.devRef .tc main_arg15) = m ((c : Thread nD τ).loc main_arg15) :=
  (W10_of_ne m ρ c main_arg15 (by decide)).trans (arg15_at9 m ρ c)
theorem arg15_at11 (c : Dev nD) : W11 m ρ c (Proc.devRef .tc main_arg15) = m ((c : Thread nD τ).loc main_arg15) :=
  (StableHlo.after_of_forall_not_mem (b := Proc.devRef .tc main_arg15) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg15_at10 m ρ c)
theorem arg15_at12 (c : Dev nD) : W12 m ρ c (Proc.devRef .tc main_arg15) = m ((c : Thread nD τ).loc main_arg15) :=
  (W12_of_ne m ρ c main_arg15 (by decide)).trans (arg15_at11 m ρ c)
theorem arg15_at13 (c : Dev nD) : W13 m ρ c (Proc.devRef .tc main_arg15) = m ((c : Thread nD τ).loc main_arg15) :=
  (W13_of_ne m ρ c main_arg15 (by decide)).trans (arg15_at12 m ρ c)
theorem arg15_at14 (c : Dev nD) : W14 m ρ c (Proc.devRef .tc main_arg15) = m ((c : Thread nD τ).loc main_arg15) :=
  (StableHlo.after_of_forall_not_mem (b := Proc.devRef .tc main_arg15) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg15_at13 m ρ c)
theorem arg15_at15 (c : Dev nD) : W15 m ρ c (Proc.devRef .tc main_arg15) = m ((c : Thread nD τ).loc main_arg15) :=
  (W15_of_ne m ρ c main_arg15 (by decide)).trans (arg15_at14 m ρ c)
theorem arg15_at16 (c : Dev nD) : W16 m ρ c (Proc.devRef .tc main_arg15) = m ((c : Thread nD τ).loc main_arg15) :=
  (W16_of_ne m ρ c main_arg15 (by decide)).trans (arg15_at15 m ρ c)

end Cert.KernelIdeal.Kept

end
-- ==== Proof.KeptBiases.lean ====
/-
  Each bias vector is as launched at the boundary where its layer's host operations read it.

  No host operation writes an argument's buffer and no region has it as an output, so at every boundary of @main it still
  holds what it held at launch: each step back through the fold — a region's exit to its entry, a stretch of host operations
  to the contents before it — leaves the buffer alone.
-/
import proofs.«145258_j55173149885091_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## argument 3, up to boundary 1 -/

theorem arg3_at1 (c : Dev nD) : W1 m ρ c (Proc.devRef .tc main_arg3) = m ((c : Thread nD τ).loc main_arg3) :=
  (W1_of_ne m ρ c main_arg3 (by decide)).trans rfl

/-! ## argument 5, up to boundary 4 -/

theorem arg5_at1 (c : Dev nD) : W1 m ρ c (Proc.devRef .tc main_arg5) = m ((c : Thread nD τ).loc main_arg5) :=
  (W1_of_ne m ρ c main_arg5 (by decide)).trans rfl
theorem arg5_at2 (c : Dev nD) : W2 m ρ c (Proc.devRef .tc main_arg5) = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg5_at1 m ρ c)
theorem arg5_at3 (c : Dev nD) : W3 m ρ c (Proc.devRef .tc main_arg5) = m ((c : Thread nD τ).loc main_arg5) :=
  (W3_of_ne m ρ c main_arg5 (by decide)).trans (arg5_at2 m ρ c)
theorem arg5_at4 (c : Dev nD) : W4 m ρ c (Proc.devRef .tc main_arg5) = m ((c : Thread nD τ).loc main_arg5) :=
  (W4_of_ne m ρ c main_arg5 (by decide)).trans (arg5_at3 m ρ c)

/-! ## argument 7, up to boundary 7 -/

theorem arg7_at1 (c : Dev nD) : W1 m ρ c (Proc.devRef .tc main_arg7) = m ((c : Thread nD τ).loc main_arg7) :=
  (W1_of_ne m ρ c main_arg7 (by decide)).trans rfl
theorem arg7_at2 (c : Dev nD) : W2 m ρ c (Proc.devRef .tc main_arg7) = m ((c : Thread nD τ).loc main_arg7) :=
  (StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg7_at1 m ρ c)
theorem arg7_at3 (c : Dev nD) : W3 m ρ c (Proc.devRef .tc main_arg7) = m ((c : Thread nD τ).loc main_arg7) :=
  (W3_of_ne m ρ c main_arg7 (by decide)).trans (arg7_at2 m ρ c)
theorem arg7_at4 (c : Dev nD) : W4 m ρ c (Proc.devRef .tc main_arg7) = m ((c : Thread nD τ).loc main_arg7) :=
  (W4_of_ne m ρ c main_arg7 (by decide)).trans (arg7_at3 m ρ c)
theorem arg7_at5 (c : Dev nD) : W5 m ρ c (Proc.devRef .tc main_arg7) = m ((c : Thread nD τ).loc main_arg7) :=
  (StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg7_at4 m ρ c)
theorem arg7_at6 (c : Dev nD) : W6 m ρ c (Proc.devRef .tc main_arg7) = m ((c : Thread nD τ).loc main_arg7) :=
  (W6_of_ne m ρ c main_arg7 (by decide)).trans (arg7_at5 m ρ c)
theorem arg7_at7 (c : Dev nD) : W7 m ρ c (Proc.devRef .tc main_arg7) = m ((c : Thread nD τ).loc main_arg7) :=
  (W7_of_ne m ρ c main_arg7 (by decide)).trans (arg7_at6 m ρ c)

/-! ## argument 9, up to boundary 10 -/

theorem arg9_at1 (c : Dev nD) : W1 m ρ c (Proc.devRef .tc main_arg9) = m ((c : Thread nD τ).loc main_arg9) :=
  (W1_of_ne m ρ c main_arg9 (by decide)).trans rfl
theorem arg9_at2 (c : Dev nD) : W2 m ρ c (Proc.devRef .tc main_arg9) = m ((c : Thread nD τ).loc main_arg9) :=
  (StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg9_at1 m ρ c)
theorem arg9_at3 (c : Dev nD) : W3 m ρ c (Proc.devRef .tc main_arg9) = m ((c : Thread nD τ).loc main_arg9) :=
  (W3_of_ne m ρ c main_arg9 (by decide)).trans (arg9_at2 m ρ c)
theorem arg9_at4 (c : Dev nD) : W4 m ρ c (Proc.devRef .tc main_arg9) = m ((c : Thread nD τ).loc main_arg9) :=
  (W4_of_ne m ρ c main_arg9 (by decide)).trans (arg9_at3 m ρ c)
theorem arg9_at5 (c : Dev nD) : W5 m ρ c (Proc.devRef .tc main_arg9) = m ((c : Thread nD τ).loc main_arg9) :=
  (StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg9_at4 m ρ c)
theorem arg9_at6 (c : Dev nD) : W6 m ρ c (Proc.devRef .tc main_arg9) = m ((c : Thread nD τ).loc main_arg9) :=
  (W6_of_ne m ρ c main_arg9 (by decide)).trans (arg9_at5 m ρ c)
theorem arg9_at7 (c : Dev nD) : W7 m ρ c (Proc.devRef .tc main_arg9) = m ((c : Thread nD τ).loc main_arg9) :=
  (W7_of_ne m ρ c main_arg9 (by decide)).trans (arg9_at6 m ρ c)
theorem arg9_at8 (c : Dev nD) : W8 m ρ c (Proc.devRef .tc main_arg9) = m ((c : Thread nD τ).loc main_arg9) :=
  (StableHlo.after_of_forall_not_mem (b := Proc.devRef .tc main_arg9) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg9_at7 m ρ c)
theorem arg9_at9 (c : Dev nD) : W9 m ρ c (Proc.devRef .tc main_arg9) = m ((c : Thread nD τ).loc main_arg9) :=
  (W9_of_ne m ρ c main_arg9 (by decide)).trans (arg9_at8 m ρ c)
theorem arg9_at10 (c : Dev nD) : W10 m ρ c (Proc.devRef .tc main_arg9) = m ((c : Thread nD τ).loc main_arg9) :=
  (W10_of_ne m ρ c main_arg9 (by decide)).trans (arg9_at9 m ρ c)

/-! ## argument 11, up to boundary 13 -/

theorem arg11_at1 (c : Dev nD) : W1 m ρ c (Proc.devRef .tc main_arg11) = m ((c : Thread nD τ).loc main_arg11) :=
  (W1_of_ne m ρ c main_arg11 (by decide)).trans rfl
theorem arg11_at2 (c : Dev nD) : W2 m ρ c (Proc.devRef .tc main_arg11) = m ((c : Thread nD τ).loc main_arg11) :=
  (StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg11_at1 m ρ c)
theorem arg11_at3 (c : Dev nD) : W3 m ρ c (Proc.devRef .tc main_arg11) = m ((c : Thread nD τ).loc main_arg11) :=
  (W3_of_ne m ρ c main_arg11 (by decide)).trans (arg11_at2 m ρ c)
theorem arg11_at4 (c : Dev nD) : W4 m ρ c (Proc.devRef .tc main_arg11) = m ((c : Thread nD τ).loc main_arg11) :=
  (W4_of_ne m ρ c main_arg11 (by decide)).trans (arg11_at3 m ρ c)
theorem arg11_at5 (c : Dev nD) : W5 m ρ c (Proc.devRef .tc main_arg11) = m ((c : Thread nD τ).loc main_arg11) :=
  (StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg11_at4 m ρ c)
theorem arg11_at6 (c : Dev nD) : W6 m ρ c (Proc.devRef .tc main_arg11) = m ((c : Thread nD τ).loc main_arg11) :=
  (W6_of_ne m ρ c main_arg11 (by decide)).trans (arg11_at5 m ρ c)
theorem arg11_at7 (c : Dev nD) : W7 m ρ c (Proc.devRef .tc main_arg11) = m ((c : Thread nD τ).loc main_arg11) :=
  (W7_of_ne m ρ c main_arg11 (by decide)).trans (arg11_at6 m ρ c)
theorem arg11_at8 (c : Dev nD) : W8 m ρ c (Proc.devRef .tc main_arg11) = m ((c : Thread nD τ).loc main_arg11) :=
  (StableHlo.after_of_forall_not_mem (b := Proc.devRef .tc main_arg11) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg11_at7 m ρ c)
theorem arg11_at9 (c : Dev nD) : W9 m ρ c (Proc.devRef .tc main_arg11) = m ((c : Thread nD τ).loc main_arg11) :=
  (W9_of_ne m ρ c main_arg11 (by decide)).trans (arg11_at8 m ρ c)
theorem arg11_at10 (c : Dev nD) : W10 m ρ c (Proc.devRef .tc main_arg11) = m ((c : Thread nD τ).loc main_arg11) :=
  (W10_of_ne m ρ c main_arg11 (by decide)).trans (arg11_at9 m ρ c)
theorem arg11_at11 (c : Dev nD) : W11 m ρ c (Proc.devRef .tc main_arg11) = m ((c : Thread nD τ).loc main_arg11) :=
  (StableHlo.after_of_forall_not_mem (b := Proc.devRef .tc main_arg11) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg11_at10 m ρ c)
theorem arg11_at12 (c : Dev nD) : W12 m ρ c (Proc.devRef .tc main_arg11) = m ((c : Thread nD τ).loc main_arg11) :=
  (W12_of_ne m ρ c main_arg11 (by decide)).trans (arg11_at11 m ρ c)
theorem arg11_at13 (c : Dev nD) : W13 m ρ c (Proc.devRef .tc main_arg11) = m ((c : Thread nD τ).loc main_arg11) :=
  (W13_of_ne m ρ c main_arg11 (by decide)).trans (arg11_at12 m ρ c)

/-! ## argument 13, up to boundary 16 -/

theorem arg13_at1 (c : Dev nD) : W1 m ρ c (Proc.devRef .tc main_arg13) = m ((c : Thread nD τ).loc main_arg13) :=
  (W1_of_ne m ρ c main_arg13 (by decide)).trans rfl
theorem arg13_at2 (c : Dev nD) : W2 m ρ c (Proc.devRef .tc main_arg13) = m ((c : Thread nD τ).loc main_arg13) :=
  (StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg13_at1 m ρ c)
theorem arg13_at3 (c : Dev nD) : W3 m ρ c (Proc.devRef .tc main_arg13) = m ((c : Thread nD τ).loc main_arg13) :=
  (W3_of_ne m ρ c main_arg13 (by decide)).trans (arg13_at2 m ρ c)
theorem arg13_at4 (c : Dev nD) : W4 m ρ c (Proc.devRef .tc main_arg13) = m ((c : Thread nD τ).loc main_arg13) :=
  (W4_of_ne m ρ c main_arg13 (by decide)).trans (arg13_at3 m ρ c)
theorem arg13_at5 (c : Dev nD) : W5 m ρ c (Proc.devRef .tc main_arg13) = m ((c : Thread nD τ).loc main_arg13) :=
  (StableHlo.after_of_forall_not_mem (b := Proc.devRef .tc main_arg13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg13_at4 m ρ c)
theorem arg13_at6 (c : Dev nD) : W6 m ρ c (Proc.devRef .tc main_arg13) = m ((c : Thread nD τ).loc main_arg13) :=
  (W6_of_ne m ρ c main_arg13 (by decide)).trans (arg13_at5 m ρ c)
theorem arg13_at7 (c : Dev nD) : W7 m ρ c (Proc.devRef .tc main_arg13) = m ((c : Thread nD τ).loc main_arg13) :=
  (W7_of_ne m ρ c main_arg13 (by decide)).trans (arg13_at6 m ρ c)
theorem arg13_at8 (c : Dev nD) : W8 m ρ c (Proc.devRef .tc main_arg13) = m ((c : Thread nD τ).loc main_arg13) :=
  (StableHlo.after_of_forall_not_mem (b := Proc.devRef .tc main_arg13) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg13_at7 m ρ c)
theorem arg13_at9 (c : Dev nD) : W9 m ρ c (Proc.devRef .tc main_arg13) = m ((c : Thread nD τ).loc main_arg13) :=
  (W9_of_ne m ρ c main_arg13 (by decide)).trans (arg13_at8 m ρ c)
theorem arg13_at10 (c : Dev nD) : W10 m ρ c (Proc.devRef .tc main_arg13) = m ((c : Thread nD τ).loc main_arg13) :=
  (W10_of_ne m ρ c main_arg13 (by decide)).trans (arg13_at9 m ρ c)
theorem arg13_at11 (c : Dev nD) : W11 m ρ c (Proc.devRef .tc main_arg13) = m ((c : Thread nD τ).loc main_arg13) :=
  (StableHlo.after_of_forall_not_mem (b := Proc.devRef .tc main_arg13) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg13_at10 m ρ c)
theorem arg13_at12 (c : Dev nD) : W12 m ρ c (Proc.devRef .tc main_arg13) = m ((c : Thread nD τ).loc main_arg13) :=
  (W12_of_ne m ρ c main_arg13 (by decide)).trans (arg13_at11 m ρ c)
theorem arg13_at13 (c : Dev nD) : W13 m ρ c (Proc.devRef .tc main_arg13) = m ((c : Thread nD τ).loc main_arg13) :=
  (W13_of_ne m ρ c main_arg13 (by decide)).trans (arg13_at12 m ρ c)
theorem arg13_at14 (c : Dev nD) : W14 m ρ c (Proc.devRef .tc main_arg13) = m ((c : Thread nD τ).loc main_arg13) :=
  (StableHlo.after_of_forall_not_mem (b := Proc.devRef .tc main_arg13) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg13_at13 m ρ c)
theorem arg13_at15 (c : Dev nD) : W15 m ρ c (Proc.devRef .tc main_arg13) = m ((c : Thread nD τ).loc main_arg13) :=
  (W15_of_ne m ρ c main_arg13 (by decide)).trans (arg13_at14 m ρ c)
theorem arg13_at16 (c : Dev nD) : W16 m ρ c (Proc.devRef .tc main_arg13) = m ((c : Thread nD τ).loc main_arg13) :=
  (W16_of_ne m ρ c main_arg13 (by decide)).trans (arg13_at15 m ρ c)

end Cert.KernelIdeal.Kept

end
-- ==== Proof.KeptWeights.lean ====
/-
  Each weight matrix is as launched at the entry of its layer's product region.

  No host operation writes an argument's buffer and no region has it as an output, so at every boundary of @main it still
  holds what it held at launch: each step back through the fold — a region's exit to its entry, a stretch of host operations
  to the contents before it — leaves the buffer alone.
-/
import proofs.«145258_j55173149885091_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## argument 4, up to boundary 3 -/

theorem arg4_at1 (c : Dev nD) : W1 m ρ c (Proc.devRef .tc main_arg4) = m ((c : Thread nD τ).loc main_arg4) :=
  (W1_of_ne m ρ c main_arg4 (by decide)).trans rfl
theorem arg4_at2 (c : Dev nD) : W2 m ρ c (Proc.devRef .tc main_arg4) = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg4_at1 m ρ c)
theorem arg4_at3 (c : Dev nD) : W3 m ρ c (Proc.devRef .tc main_arg4) = m ((c : Thread nD τ).loc main_arg4) :=
  (W3_of_ne m ρ c main_arg4 (by decide)).trans (arg4_at2 m ρ c)

/-! ## argument 6, up to boundary 6 -/

theorem arg6_at1 (c : Dev nD) : W1 m ρ c (Proc.devRef .tc main_arg6) = m ((c : Thread nD τ).loc main_arg6) :=
  (W1_of_ne m ρ c main_arg6 (by decide)).trans rfl
theorem arg6_at2 (c : Dev nD) : W2 m ρ c (Proc.devRef .tc main_arg6) = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg6_at1 m ρ c)
theorem arg6_at3 (c : Dev nD) : W3 m ρ c (Proc.devRef .tc main_arg6) = m ((c : Thread nD τ).loc main_arg6) :=
  (W3_of_ne m ρ c main_arg6 (by decide)).trans (arg6_at2 m ρ c)
theorem arg6_at4 (c : Dev nD) : W4 m ρ c (Proc.devRef .tc main_arg6) = m ((c : Thread nD τ).loc main_arg6) :=
  (W4_of_ne m ρ c main_arg6 (by decide)).trans (arg6_at3 m ρ c)
theorem arg6_at5 (c : Dev nD) : W5 m ρ c (Proc.devRef .tc main_arg6) = m ((c : Thread nD τ).loc main_arg6) :=
  (StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg6_at4 m ρ c)
theorem arg6_at6 (c : Dev nD) : W6 m ρ c (Proc.devRef .tc main_arg6) = m ((c : Thread nD τ).loc main_arg6) :=
  (W6_of_ne m ρ c main_arg6 (by decide)).trans (arg6_at5 m ρ c)

/-! ## argument 8, up to boundary 9 -/

theorem arg8_at1 (c : Dev nD) : W1 m ρ c (Proc.devRef .tc main_arg8) = m ((c : Thread nD τ).loc main_arg8) :=
  (W1_of_ne m ρ c main_arg8 (by decide)).trans rfl
theorem arg8_at2 (c : Dev nD) : W2 m ρ c (Proc.devRef .tc main_arg8) = m ((c : Thread nD τ).loc main_arg8) :=
  (StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg8_at1 m ρ c)
theorem arg8_at3 (c : Dev nD) : W3 m ρ c (Proc.devRef .tc main_arg8) = m ((c : Thread nD τ).loc main_arg8) :=
  (W3_of_ne m ρ c main_arg8 (by decide)).trans (arg8_at2 m ρ c)
theorem arg8_at4 (c : Dev nD) : W4 m ρ c (Proc.devRef .tc main_arg8) = m ((c : Thread nD τ).loc main_arg8) :=
  (W4_of_ne m ρ c main_arg8 (by decide)).trans (arg8_at3 m ρ c)
theorem arg8_at5 (c : Dev nD) : W5 m ρ c (Proc.devRef .tc main_arg8) = m ((c : Thread nD τ).loc main_arg8) :=
  (StableHlo.after_of_forall_not_mem (b := Proc.devRef .tc main_arg8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg8_at4 m ρ c)
theorem arg8_at6 (c : Dev nD) : W6 m ρ c (Proc.devRef .tc main_arg8) = m ((c : Thread nD τ).loc main_arg8) :=
  (W6_of_ne m ρ c main_arg8 (by decide)).trans (arg8_at5 m ρ c)
theorem arg8_at7 (c : Dev nD) : W7 m ρ c (Proc.devRef .tc main_arg8) = m ((c : Thread nD τ).loc main_arg8) :=
  (W7_of_ne m ρ c main_arg8 (by decide)).trans (arg8_at6 m ρ c)
theorem arg8_at8 (c : Dev nD) : W8 m ρ c (Proc.devRef .tc main_arg8) = m ((c : Thread nD τ).loc main_arg8) :=
  (StableHlo.after_of_forall_not_mem (b := Proc.devRef .tc main_arg8) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg8_at7 m ρ c)
theorem arg8_at9 (c : Dev nD) : W9 m ρ c (Proc.devRef .tc main_arg8) = m ((c : Thread nD τ).loc main_arg8) :=
  (W9_of_ne m ρ c main_arg8 (by decide)).trans (arg8_at8 m ρ c)

/-! ## argument 10, up to boundary 12 -/

theorem arg10_at1 (c : Dev nD) : W1 m ρ c (Proc.devRef .tc main_arg10) = m ((c : Thread nD τ).loc main_arg10) :=
  (W1_of_ne m ρ c main_arg10 (by decide)).trans rfl
theorem arg10_at2 (c : Dev nD) : W2 m ρ c (Proc.devRef .tc main_arg10) = m ((c : Thread nD τ).loc main_arg10) :=
  (StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg10_at1 m ρ c)
theorem arg10_at3 (c : Dev nD) : W3 m ρ c (Proc.devRef .tc main_arg10) = m ((c : Thread nD τ).loc main_arg10) :=
  (W3_of_ne m ρ c main_arg10 (by decide)).trans (arg10_at2 m ρ c)
theorem arg10_at4 (c : Dev nD) : W4 m ρ c (Proc.devRef .tc main_arg10) = m ((c : Thread nD τ).loc main_arg10) :=
  (W4_of_ne m ρ c main_arg10 (by decide)).trans (arg10_at3 m ρ c)
theorem arg10_at5 (c : Dev nD) : W5 m ρ c (Proc.devRef .tc main_arg10) = m ((c : Thread nD τ).loc main_arg10) :=
  (StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg10_at4 m ρ c)
theorem arg10_at6 (c : Dev nD) : W6 m ρ c (Proc.devRef .tc main_arg10) = m ((c : Thread nD τ).loc main_arg10) :=
  (W6_of_ne m ρ c main_arg10 (by decide)).trans (arg10_at5 m ρ c)
theorem arg10_at7 (c : Dev nD) : W7 m ρ c (Proc.devRef .tc main_arg10) = m ((c : Thread nD τ).loc main_arg10) :=
  (W7_of_ne m ρ c main_arg10 (by decide)).trans (arg10_at6 m ρ c)
theorem arg10_at8 (c : Dev nD) : W8 m ρ c (Proc.devRef .tc main_arg10) = m ((c : Thread nD τ).loc main_arg10) :=
  (StableHlo.after_of_forall_not_mem (b := Proc.devRef .tc main_arg10) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg10_at7 m ρ c)
theorem arg10_at9 (c : Dev nD) : W9 m ρ c (Proc.devRef .tc main_arg10) = m ((c : Thread nD τ).loc main_arg10) :=
  (W9_of_ne m ρ c main_arg10 (by decide)).trans (arg10_at8 m ρ c)
theorem arg10_at10 (c : Dev nD) : W10 m ρ c (Proc.devRef .tc main_arg10) = m ((c : Thread nD τ).loc main_arg10) :=
  (W10_of_ne m ρ c main_arg10 (by decide)).trans (arg10_at9 m ρ c)
theorem arg10_at11 (c : Dev nD) : W11 m ρ c (Proc.devRef .tc main_arg10) = m ((c : Thread nD τ).loc main_arg10) :=
  (StableHlo.after_of_forall_not_mem (b := Proc.devRef .tc main_arg10) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg10_at10 m ρ c)
theorem arg10_at12 (c : Dev nD) : W12 m ρ c (Proc.devRef .tc main_arg10) = m ((c : Thread nD τ).loc main_arg10) :=
  (W12_of_ne m ρ c main_arg10 (by decide)).trans (arg10_at11 m ρ c)

/-! ## argument 12, up to boundary 15 -/

theorem arg12_at1 (c : Dev nD) : W1 m ρ c (Proc.devRef .tc main_arg12) = m ((c : Thread nD τ).loc main_arg12) :=
  (W1_of_ne m ρ c main_arg12 (by decide)).trans rfl
theorem arg12_at2 (c : Dev nD) : W2 m ρ c (Proc.devRef .tc main_arg12) = m ((c : Thread nD τ).loc main_arg12) :=
  (StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg12_at1 m ρ c)
theorem arg12_at3 (c : Dev nD) : W3 m ρ c (Proc.devRef .tc main_arg12) = m ((c : Thread nD τ).loc main_arg12) :=
  (W3_of_ne m ρ c main_arg12 (by decide)).trans (arg12_at2 m ρ c)
theorem arg12_at4 (c : Dev nD) : W4 m ρ c (Proc.devRef .tc main_arg12) = m ((c : Thread nD τ).loc main_arg12) :=
  (W4_of_ne m ρ c main_arg12 (by decide)).trans (arg12_at3 m ρ c)
theorem arg12_at5 (c : Dev nD) : W5 m ρ c (Proc.devRef .tc main_arg12) = m ((c : Thread nD τ).loc main_arg12) :=
  (StableHlo.after_of_forall_not_mem (b := Proc.devRef .tc main_arg12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg12_at4 m ρ c)
theorem arg12_at6 (c : Dev nD) : W6 m ρ c (Proc.devRef .tc main_arg12) = m ((c : Thread nD τ).loc main_arg12) :=
  (W6_of_ne m ρ c main_arg12 (by decide)).trans (arg12_at5 m ρ c)
theorem arg12_at7 (c : Dev nD) : W7 m ρ c (Proc.devRef .tc main_arg12) = m ((c : Thread nD τ).loc main_arg12) :=
  (W7_of_ne m ρ c main_arg12 (by decide)).trans (arg12_at6 m ρ c)
theorem arg12_at8 (c : Dev nD) : W8 m ρ c (Proc.devRef .tc main_arg12) = m ((c : Thread nD τ).loc main_arg12) :=
  (StableHlo.after_of_forall_not_mem (b := Proc.devRef .tc main_arg12) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg12_at7 m ρ c)
theorem arg12_at9 (c : Dev nD) : W9 m ρ c (Proc.devRef .tc main_arg12) = m ((c : Thread nD τ).loc main_arg12) :=
  (W9_of_ne m ρ c main_arg12 (by decide)).trans (arg12_at8 m ρ c)
theorem arg12_at10 (c : Dev nD) : W10 m ρ c (Proc.devRef .tc main_arg12) = m ((c : Thread nD τ).loc main_arg12) :=
  (W10_of_ne m ρ c main_arg12 (by decide)).trans (arg12_at9 m ρ c)
theorem arg12_at11 (c : Dev nD) : W11 m ρ c (Proc.devRef .tc main_arg12) = m ((c : Thread nD τ).loc main_arg12) :=
  (StableHlo.after_of_forall_not_mem (b := Proc.devRef .tc main_arg12) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg12_at10 m ρ c)
theorem arg12_at12 (c : Dev nD) : W12 m ρ c (Proc.devRef .tc main_arg12) = m ((c : Thread nD τ).loc main_arg12) :=
  (W12_of_ne m ρ c main_arg12 (by decide)).trans (arg12_at11 m ρ c)
theorem arg12_at13 (c : Dev nD) : W13 m ρ c (Proc.devRef .tc main_arg12) = m ((c : Thread nD τ).loc main_arg12) :=
  (W13_of_ne m ρ c main_arg12 (by decide)).trans (arg12_at12 m ρ c)
theorem arg12_at14 (c : Dev nD) : W14 m ρ c (Proc.devRef .tc main_arg12) = m ((c : Thread nD τ).loc main_arg12) :=
  (StableHlo.after_of_forall_not_mem (b := Proc.devRef .tc main_arg12) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (arg12_at13 m ρ c)
theorem arg12_at15 (c : Dev nD) : W15 m ρ c (Proc.devRef .tc main_arg12) = m ((c : Thread nD τ).loc main_arg12) :=
  (W15_of_ne m ρ c main_arg12 (by decide)).trans (arg12_at14 m ρ c)

end Cert.KernelIdeal.Kept

end
-- ==== Proof.KernelNet.lean ====
/-
  What the kernel program leaves in its result buffer: the six layers composed.

  Walking the fold through @main: a product region leaves the dense product of what it found (the previous layer's hidden
  array and the launch's weight matrix, which nothing has written); the host operations after it leave the spread of that
  product over the edges (the launch's edge list) and the bias as a row; the bias region leaves their sum under the layer's
  activation. Six times over, the result buffer ends at the network of the argument arrays.
-/
import proofs.«145258_j55173149885091_1_alg».proof.Proof.Gen.KernelIdeal.Frame
import proofs.«145258_j55173149885091_1_alg».proof.Proof.Layers
import proofs.«145258_j55173149885091_1_alg».proof.Proof.Product1
import proofs.«145258_j55173149885091_1_alg».proof.Proof.Bias1
import proofs.«145258_j55173149885091_1_alg».proof.Proof.Between1
import proofs.«145258_j55173149885091_1_alg».proof.Proof.Product2
import proofs.«145258_j55173149885091_1_alg».proof.Proof.Bias2
import proofs.«145258_j55173149885091_1_alg».proof.Proof.Between2
import proofs.«145258_j55173149885091_1_alg».proof.Proof.Product3
import proofs.«145258_j55173149885091_1_alg».proof.Proof.Bias3
import proofs.«145258_j55173149885091_1_alg».proof.Proof.Between3
import proofs.«145258_j55173149885091_1_alg».proof.Proof.Product4
import proofs.«145258_j55173149885091_1_alg».proof.Proof.Bias4
import proofs.«145258_j55173149885091_1_alg».proof.Proof.Between4
import proofs.«145258_j55173149885091_1_alg».proof.Proof.Product5
import proofs.«145258_j55173149885091_1_alg».proof.Proof.Bias5
import proofs.«145258_j55173149885091_1_alg».proof.Proof.Between5
import proofs.«145258_j55173149885091_1_alg».proof.Proof.Product6
import proofs.«145258_j55173149885091_1_alg».proof.Proof.Bias6
import proofs.«145258_j55173149885091_1_alg».proof.Proof.Between6
import proofs.«145258_j55173149885091_1_alg».proof.Proof.KeptEdges
import proofs.«145258_j55173149885091_1_alg».proof.Proof.KeptBiases
import proofs.«145258_j55173149885091_1_alg».proof.Proof.KeptWeights

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After layer 1's bias region the hidden array is layer 1 of the input array, with the launch's weights, bias and edges. -/
theorem hidden1 (c : Dev nD) :
    W3 m ρ c (Proc.devRef .tc main_v15) = (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) := by
  have hs : W1 m ρ c (Proc.devRef .tc main_v0) = Cert.Net.dense1 (m ((c : Thread nD τ).loc main_arg0)) (m ((c : Thread nD τ).loc main_arg2)) := by
    refine (W1_arr m ρ c 2).trans ?_
    refine (Product1.final_dense (V0 m ρ) c).trans ?_
    show Cert.Net.dense1 (W0 m ρ c (Proc.devRef .tc main_arg0)) (W0 m ρ c (Proc.devRef .tc main_arg2)) = _
    rfl
  unfold Cert.Net.layer1
  refine (W3_arr m ρ c 2).trans ?_
  refine (Bias1.final (V2 m ρ) c).trans ?_
  show Cert.Net.biased1 (W2 m ρ c (Proc.devRef .tc main_v13)) (W2 m ρ c (Proc.devRef .tc main_v14)) = _
  rw [Between1.aggregated m ρ c, Between1.biasRow m ρ c, hs, Kept.arg1_at1 m ρ c, Kept.arg14_at1 m ρ c, Kept.arg15_at1 m ρ c, Kept.arg3_at1 m ρ c]

/-- After layer 2's bias region the hidden array is layer 2 of what layer 1 left, with the launch's weights, bias and edges. -/
theorem hidden2 (c : Dev nD) :
    W6 m ρ c (Proc.devRef .tc main_v31) = (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) := by
  have hs : W4 m ρ c (Proc.devRef .tc main_v16) = Cert.Net.dense2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) := by
    refine (W4_arr m ρ c 2).trans ?_
    refine (Product2.final_dense (V3 m ρ) c).trans ?_
    show Cert.Net.dense2 (W3 m ρ c (Proc.devRef .tc main_v15)) (W3 m ρ c (Proc.devRef .tc main_arg4)) = _
    rw [hidden1 m ρ c, Kept.arg4_at3 m ρ c]
  unfold Cert.Net.layer2
  refine (W6_arr m ρ c 2).trans ?_
  refine (Bias2.final (V5 m ρ) c).trans ?_
  show Cert.Net.relu2 (Cert.Net.biased2 (W5 m ρ c (Proc.devRef .tc main_v29)) (W5 m ρ c (Proc.devRef .tc main_v30))) = _
  rw [Between2.aggregated m ρ c, Between2.biasRow m ρ c, hs, Kept.arg1_at4 m ρ c, Kept.arg14_at4 m ρ c, Kept.arg15_at4 m ρ c, Kept.arg5_at4 m ρ c]

/-- After layer 3's bias region the hidden array is layer 3 of what layer 2 left, with the launch's weights, bias and edges. -/
theorem hidden3 (c : Dev nD) :
    W9 m ρ c (Proc.devRef .tc main_v47) = (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) := by
  have hs : W7 m ρ c (Proc.devRef .tc main_v32) = Cert.Net.dense3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) := by
    refine (W7_arr m ρ c 2).trans ?_
    refine (Product3.final_dense (V6 m ρ) c).trans ?_
    show Cert.Net.dense3 (W6 m ρ c (Proc.devRef .tc main_v31)) (W6 m ρ c (Proc.devRef .tc main_arg6)) = _
    rw [hidden2 m ρ c, Kept.arg6_at6 m ρ c]
  unfold Cert.Net.layer3
  refine (W9_arr m ρ c 2).trans ?_
  refine (Bias3.final (V8 m ρ) c).trans ?_
  show Cert.Net.tanhshrink (Cert.Net.biased3 (W8 m ρ c (Proc.devRef .tc main_v45)) (W8 m ρ c (Proc.devRef .tc main_v46))) = _
  rw [Between3.aggregated m ρ c, Between3.biasRow m ρ c, hs, Kept.arg1_at7 m ρ c, Kept.arg14_at7 m ρ c, Kept.arg15_at7 m ρ c, Kept.arg7_at7 m ρ c]

/-- After layer 4's bias region the hidden array is layer 4 of what layer 3 left, with the launch's weights, bias and edges. -/
theorem hidden4 (c : Dev nD) :
    W12 m ρ c (Proc.devRef .tc main_v63) = (Cert.Net.layer4 (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) (m ((c : Thread nD τ).loc main_arg8)) (m ((c : Thread nD τ).loc main_arg9)) (m ((c : Thread nD τ).loc main_arg1)) (m ((c : Thread nD τ).loc main_arg14)) (m ((c : Thread nD τ).loc main_arg15))) := by
  have hs : W10 m ρ c (Proc.devRef .tc main_v48) = Cert.Net.dense4 (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) (m ((c : Thread nD τ).loc main_arg8)) := by
    refine (W10_arr m ρ c 2).trans ?_
    refine (Product4.final_dense (V9 m ρ) c).trans ?_
    show Cert.Net.dense4 (W9 m ρ c (Proc.devRef .tc main_v47)) (W9 m ρ c (Proc.devRef .tc main_arg8)) = _
    rw [hidden3 m ρ c, Kept.arg8_at9 m ρ c]
  unfold Cert.Net.layer4
  refine (W12_arr m ρ c 2).trans ?_
  refine (Bias4.final (V11 m ρ) c).trans ?_
  show Cert.Net.tanhshrink (Cert.Net.biased4 (W11 m ρ c (Proc.devRef .tc main_v61)) (W11 m ρ c (Proc.devRef .tc main_v62))) = _
  rw [Between4.aggregated m ρ c, Between4.biasRow m ρ c, hs, Kept.arg1_at10 m ρ c, Kept.arg14_at10 m ρ c, Kept.arg15_at10 m ρ c, Kept.arg9_at10 m ρ c]

/-- After layer 5's bias region the hidden array is layer 5 of what layer 4 left, with the launch's weights, bias and edges. -/
theorem hidden5 (c : Dev nD) :
    W15 m ρ c (Proc.devRef .tc main_v79) = (Cert.Net.layer5 (Cert.Net.layer4 (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) (m ((c : Thread nD τ).loc main_arg8)) (m ((c : Thread nD τ).loc main_arg9)) (m ((c : Thread nD τ).loc main_arg1)) (m ((c : Thread nD τ).loc main_arg14)) (m ((c : Thread nD τ).loc main_arg15))) (m ((c : Thread nD τ).loc main_arg10)) (m ((c : Thread nD τ).loc main_arg11)) (m ((c : Thread nD τ).loc main_arg1)) (m ((c : Thread nD τ).loc main_arg14)) (m ((c : Thread nD τ).loc main_arg15))) := by
  have hs : W13 m ρ c (Proc.devRef .tc main_v64) = Cert.Net.dense5 (Cert.Net.layer4 (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) (m ((c : Thread nD τ).loc main_arg8)) (m ((c : Thread nD τ).loc main_arg9)) (m ((c : Thread nD τ).loc main_arg1)) (m ((c : Thread nD τ).loc main_arg14)) (m ((c : Thread nD τ).loc main_arg15))) (m ((c : Thread nD τ).loc main_arg10)) := by
    refine (W13_arr m ρ c 2).trans ?_
    refine (Product5.final_dense (V12 m ρ) c).trans ?_
    show Cert.Net.dense5 (W12 m ρ c (Proc.devRef .tc main_v63)) (W12 m ρ c (Proc.devRef .tc main_arg10)) = _
    rw [hidden4 m ρ c, Kept.arg10_at12 m ρ c]
  unfold Cert.Net.layer5
  refine (W15_arr m ρ c 2).trans ?_
  refine (Bias5.final (V14 m ρ) c).trans ?_
  show Cert.Net.biased5 (W14 m ρ c (Proc.devRef .tc main_v77)) (W14 m ρ c (Proc.devRef .tc main_v78)) = _
  rw [Between5.aggregated m ρ c, Between5.biasRow m ρ c, hs, Kept.arg1_at13 m ρ c, Kept.arg14_at13 m ρ c, Kept.arg15_at13 m ρ c, Kept.arg11_at13 m ρ c]

/-- After layer 6's bias region the hidden array is layer 6 of what layer 5 left, with the launch's weights, bias and edges. -/
theorem hidden6 (c : Dev nD) :
    W18 m ρ c (Proc.devRef .tc main_v95) = (Cert.Net.layer6 (Cert.Net.layer5 (Cert.Net.layer4 (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) (m ((c : Thread nD τ).loc main_arg8)) (m ((c : Thread nD τ).loc main_arg9)) (m ((c : Thread nD τ).loc main_arg1)) (m ((c : Thread nD τ).loc main_arg14)) (m ((c : Thread nD τ).loc main_arg15))) (m ((c : Thread nD τ).loc main_arg10)) (m ((c : Thread nD τ).loc main_arg11)) (m ((c : Thread nD τ).loc main_arg1)) (m ((c : Thread nD τ).loc main_arg14)) (m ((c : Thread nD τ).loc main_arg15))) (m ((c : Thread nD τ).loc main_arg12)) (m ((c : Thread nD τ).loc main_arg13)) (m ((c : Thread nD τ).loc main_arg1)) (m ((c : Thread nD τ).loc main_arg14)) (m ((c : Thread nD τ).loc main_arg15))) := by
  have hs : W16 m ρ c (Proc.devRef .tc main_v80) = Cert.Net.dense6 (Cert.Net.layer5 (Cert.Net.layer4 (Cert.Net.layer3 (Cert.Net.layer2 (Cert.Net.layer1 (m ((c : Thread nD τ).loc main_arg0)) (m ((c : Thread nD τ).loc main_arg2)) (m ((c : Thread nD τ).loc main_arg3)) (m ((c : Thread nD τ).loc main_arg1)) (m ((c : Thread nD τ).loc main_arg14)) (m ((c : Thread nD τ).loc main_arg15))) (m ((c : Thread nD τ).loc main_arg4)) (m ((c : Thread nD τ).loc main_arg5)) (m ((c : Thread nD τ).loc main_arg1)) (m ((c : Thread nD τ).loc main_arg14)) (m ((c : Thread nD τ).loc main_arg15))) (m ((c : Thread nD τ).loc main_arg6)) (m ((c : Thread nD τ).loc main_arg7)) (m ((c : Thread nD τ).loc main_arg1)) (m ((c : Thread nD τ).loc main_arg14)) (m ((c : Thread nD τ).loc main_arg15))) (m ((c : Thread nD τ).loc main_arg8)) (m ((c : Thread nD τ).loc main_arg9)) (m ((c : Thread nD τ).loc main_arg1)) (m ((c : Thread nD τ).loc main_arg14)) (m ((c : Thread nD τ).loc main_arg15))) (m ((c : Thread nD τ).loc main_arg10)) (m ((c : Thread nD τ).loc main_arg11)) (m ((c : Thread nD τ).loc main_arg1)) (m ((c : Thread nD τ).loc main_arg14)) (m ((c : Thread nD τ).loc main_arg15))) (m ((c : Thread nD τ).loc main_arg12)) := by
    refine (W16_arr m ρ c 2).trans ?_
    refine (Product6.final_dense (V15 m ρ) c).trans ?_
    show Cert.Net.dense6 (W15 m ρ c (Proc.devRef .tc main_v79)) (W15 m ρ c (Proc.devRef .tc main_arg12)) = _
    rw [hidden5 m ρ c, Kept.arg12_at15 m ρ c]
  unfold Cert.Net.layer6
  refine (W18_arr m ρ c 2).trans ?_
  refine (Bias6.final (V17 m ρ) c).trans ?_
  show Cert.Net.biased6 (W17 m ρ c (Proc.devRef .tc main_v93)) (W17 m ρ c (Proc.devRef .tc main_v94)) = _
  rw [Between6.aggregated m ρ c, Between6.biasRow m ρ c, hs, Kept.arg1_at16 m ρ c, Kept.arg14_at16 m ρ c, Kept.arg15_at16 m ρ c, Kept.arg13_at16 m ρ c]

/-- The result buffer at the end of the fold is the network of the argument arrays. -/
theorem result (c : Dev nD) :
    W18 m ρ c (Proc.devRef .tc main_v95) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  hidden6 m ρ c

end Cert.KernelIdeal.Chain

end
-- ==== Proof.ReferenceNet.lean ====
/-
  The reference's result, as its run states it, is the six layers composed: its operations are the layers' own, in order.
-/
import proofs.«145258_j55173149885091_1_alg».proof.Proof.Layers
import proofs.«145258_j55173149885091_1_alg».proof.Proof.Gen.ReferenceIdeal.Run

set_option maxRecDepth 16384

noncomputable section

namespace Cert.Net

open Idealize.ShloMosaic Idealize.ShloMosaic.TcCoe Idealize.SL.Sem

/-- The composed term of the reference's operations is the network of its argument arrays. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v106 (F := Ideal) m c = Cert.Net.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) := by
  unfold Cert.ReferenceIdeal.Value.res_main_v106
  rfl

end Cert.Net

end
-- ==== Proof.lean ====
/-
  A six-layer graph network on 100000 nodes and 3200000 edges: the kernel program against its plain reference, equal on the
  extended reals.

  Each layer is  h ↦ act( spread(h · W) + b ):  a dense product with the layer's weights, the product's rows looked up at each
  edge's source, scaled by the edge's value and summed at the edge's target, the bias added to every row, then the layer's
  activation (none, max(·, 0), v − tanh v, v − tanh v, none, none). The reference computes every step as one whole-array
  operation. The kernel program computes the dense product and the bias-plus-activation step in kernel regions that walk
  the node axis in 20 blocks of 5000 rows, and the edge step with the same host operations as the reference.

  Nothing separates the two on the extended reals but the arrangement:
    * a block of the product is the block's rows against the whole weight matrix, so entry (r, q) is the same sum over k of
      h(r, k) · W(k, q) in whichever block row r falls, and the blocks cover all rows (Product1 … Product6);
    * a block of the bias step adds the one bias row to each of its rows, as the reference's bias repeated over all rows does,
      and the activation acts entry by entry (Bias1 … Bias6);
    * the host operations between the regions are the reference's own, and a bias vector reshaped to one row is the bias
      vector broadcast to one row (Between1 … Between6);
    * the weights, biases and edge list are still as launched wherever they are read (KeptEdges, KeptBiases, KeptWeights).
  No law of arithmetic beyond reading the same sums and the same entries is used, so the inputs' finiteness is never opened.
  Walking the kernel program's run through its regions gives the network of the arguments (KernelNet over KernelRun); the
  reference's run states the same network (ReferenceNet). The idealization rewrote nothing, so the kernel program is its
  own idealization.
-/
import proofs.«145258_j55173149885091_1_alg».proof.Defs
import proofs.«145258_j55173149885091_1_alg».proof.Proof.Gen.Kernel
import proofs.«145258_j55173149885091_1_alg».proof.Proof.Gen.Kernel.Skeleton
import proofs.«145258_j55173149885091_1_alg».proof.Proof.Gen.Kernel.Launch
import proofs.«145258_j55173149885091_1_alg».proof.Proof.Gen.Kernel.Points
import proofs.«145258_j55173149885091_1_alg».proof.Proof.Gen.Kernel.Frame
import proofs.«145258_j55173149885091_1_alg».proof.Proof.Gen.KernelIdeal
import proofs.«145258_j55173149885091_1_alg».proof.Proof.Gen.KernelIdeal.Skeleton
import proofs.«145258_j55173149885091_1_alg».proof.Proof.Gen.KernelIdeal.Launch
import proofs.«145258_j55173149885091_1_alg».proof.Proof.Gen.KernelIdeal.Points
import proofs.«145258_j55173149885091_1_alg».proof.Proof.Gen.KernelIdeal.Frame
import proofs.«145258_j55173149885091_1_alg».proof.Proof.Gen.ReferenceIdeal
import proofs.«145258_j55173149885091_1_alg».proof.Proof.Gen.ReferenceIdeal.Run
import proofs.«145258_j55173149885091_1_alg».proof.Proof.Gen.Pre_finite_inputs
import proofs.«145258_j55173149885091_1_alg».proof.Proof.KernelRun
import proofs.«145258_j55173149885091_1_alg».proof.Proof.KernelNet
import proofs.«145258_j55173149885091_1_alg».proof.Proof.ReferenceNet
import Idealize.ShloMosaic.Adequacy
import Idealize.ShloMosaic.Init

set_option maxRecDepth 16384

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the network of their argument arrays, and the argument arrays agree. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.Net.reference_result, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
